-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x512 : Shape := ⟨2, ![16384, 512]⟩
abbrev S512x256 : Shape := ⟨2, ![512, 256]⟩
abbrev S256x64 : Shape := ⟨2, ![256, 64]⟩
abbrev S16384x64 : Shape := ⟨2, ![16384, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg4 : FVec F S256x64 .f32) (main_arg5 : FVec F S16384x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S16384x64 .f32 := Host.absf main_arg5
  let main_cst_8 : FVec F S_ .f32 := constant S_ .f32 0x7F800000#32
  let main_v25 : FVec F S16384x64 .f32 := broadcastInDim S16384x64 ![] bcast_S_S16384x64 main_cst_8
  let main_v26 : IVec S16384x64 1 := cmpf .olt main_v24 main_v25
  let main_c_9 : IVec S_ 1 := constantI S_ 1 1#1
  let main_v27 : IVec S_ 1 := (fun x v => Host.reduce IntOp.andi x v reducesTo_S16384x64_S_d0_1 h_S_) main_v26 main_c_9
  let main_v28 : IVec S_ 1 := andi main_v23 main_v27
  main_v28

def fn {F : FTy → Type} [FloatOps F] (main_arg0 : FVec F S16384x16384 .f32) (main_arg1 : FVec F S16384x512 .f32) (main_arg2 : FVec F S512x256 .f32) (main_arg3 : FVec F S256x64 .f32) (main_arg4 : FVec F S256x64 .f32) (main_arg5 : FVec F S16384x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_v13 main_v16
-- ==== Kernel.lean ====
abbrev S16384x16384 : Shape := ⟨2, ![16384, 16384]⟩
abbrev S16384x512 : Shape := ⟨2, ![16384, 512]⟩
abbrev S512x256 : Shape := ⟨2, ![512, 256]⟩
abbrev S256x64 : Shape := ⟨2, ![256, 64]⟩
abbrev S16384x64 : Shape := ⟨2, ![16384, 64]⟩
abbrev S16384x256 : Shape := ⟨2, ![16384, 256]⟩
abbrev S2048x512 : Shape := ⟨2, ![2048, 512]⟩
abbrev S2048x256 : Shape := ⟨2, ![2048, 256]⟩
abbrev S256x128 : Shape := ⟨2, ![256, 128]⟩
abbrev S16384x128 : Shape := ⟨2, ![16384, 128]⟩
abbrev S2048x2048 : Shape := ⟨2, ![2048, 2048]⟩
abbrev S2048x128 : Shape := ⟨2, ![2048, 128]⟩
abbrev S2048x64 : Shape := ⟨2, ![2048, 64]⟩

abbrev nBuf : Space → Nat
  | .hbm => 13
  | .vmem => 26
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S16384x64, .f32⟩
  | .hbm, ⟨6, _⟩ => ⟨S16384x256, .bf16⟩
  | .hbm, ⟨7, _⟩ => ⟨S256x128, .f32⟩
  | .hbm, ⟨8, _⟩ => ⟨S256x128, .bf16⟩
  | .hbm, ⟨9, _⟩ => ⟨S16384x128, .bf16⟩
  | .hbm, ⟨10, _⟩ => ⟨S16384x64, .f32⟩
  | .hbm, ⟨11, _⟩ => ⟨S16384x64, .f32⟩
  | .hbm, ⟨12, _⟩ => ⟨S16384x64, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .bf16⟩
  | .local _ .vmem, ⟨4, _⟩ => ⟨S2048x256, .bf16⟩
  | .local _ .vmem, ⟨5, _⟩ => ⟨S2048x2048, .f32⟩
  | .local _ .vmem, ⟨6, _⟩ => ⟨S2048x2048, .f32⟩
  | .local _ .vmem, ⟨7, _⟩ => ⟨S2048x256, .bf16⟩
  | .local _ .vmem, ⟨8, _⟩ => ⟨S2048x256, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x256, .f32⟩
  | .local _ .vmem, ⟨13, _⟩ => ⟨S2048x2048, .f32⟩
  | .local _ .vmem, ⟨14, _⟩ => ⟨S2048x2048, .f32⟩
  | .local _ .vmem, ⟨15, _⟩ => ⟨S2048x128, .bf16⟩
  | .local _ .vmem, ⟨16, _⟩ => ⟨S2048x128, .bf16⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  concatenates_S256x64_S256x64_S256x128_d1 : Shape.Concatenates [S256x64, S256x64] S256x128 1
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S2048x128_S2048x128 : S2048x128.ShapeCasts S2048x128
  slices_S2048x128_o0_0_S2048x64 : S2048x128.Slices ![0, 0] S2048x64
  slices_S2048x128_o0_64_S2048x64 : S2048x128.Slices ![0, 64] S2048x64
  inb_S2048x64_S2048x64_0_0 : ∀ a, (![0, 0] : Fin 2 → Nat) a + S2048x64.size a ≤ S2048x64.size a
  h_S2048x64 : 0 < S2048x64.numel
  dot_S2048x512_S512x256_S2048x256_1_0_0_1_n_n_wf : DotDims.WF S2048x512 S512x256 S2048x256 [1] [0] [0] [1] [] []
  dot_S2048x2048_S2048x256_S2048x256_1_0_0_1_n_n_wf : DotDims.WF S2048x2048 S2048x256 S2048x256 [1] [0] [0] [1] [] []
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .bf16 = 32 ∨ (Rect.block (s := S16384x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .f32 = 32 ∨ (Rect.block (s := S16384x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .bf16 = 32 ∨ (Rect.block (s := S16384x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S16384x128.size a
  hwx1_3 : ∀ i : grid1.Coords, EltTy.bits .bf16 = 32 ∨ (Rect.block (s := S16384x128) S2048x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .f32 = 32 ∨ (Rect.block (s := S16384x16384) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .bf16 = 32 ∨ (Rect.block (s := S16384x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S16384x64.size a
  hwx2_2 : ∀ i : grid2.Coords, EltTy.bits .f32 = 32 ∨ (Rect.block (s := S16384x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x64.size a ≤ S16384x64.size a
  hwx2_4 : ∀ i : grid2.Coords, EltTy.bits .f32 = 32 ∨ (Rect.block (s := S16384x64) S2048x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S16384x64.size a
  hwx2_5 : ∀ i : grid2.Coords, EltTy.bits .f32 = 32 ∨ (Rect.block (s := S16384x64) S2048x64.size (cc2_transform_5 i) (hinb2_5 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_0) S2048x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4_1) S2048x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v4_2) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun i => !(k2_cond2 i == 1#1) | ⟨_ + 6, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x512 : Shape := ⟨2, ![16384, 512]⟩
abbrev S512x256 : Shape := ⟨2, ![512, 256]⟩
abbrev S256x64 : Shape := ⟨2, ![256, 64]⟩
abbrev S16384x64 : Shape := ⟨2, ![16384, 64]⟩
abbrev S16384x256 : Shape := ⟨2, ![16384, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x512, .f32⟩
  | .hbm, ⟨2, _⟩ => ⟨S512x256, .f32⟩
  | .hbm, ⟨3, _⟩ => ⟨S256x64, .f32⟩
  | .hbm, ⟨4, _⟩ => ⟨S256x64, .f32⟩
  | .hbm, ⟨5, _⟩ => ⟨S16384x64, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []
  dot_S16384x256_S256x64_S16384x64_1_0_0_1_n_n_wf : DotDims.WF S16384x256 S256x64 S16384x64 [1] [0] [0] [1] [] []
  dot_S16384x16384_S16384x64_S16384x64_1_0_0_1_n_n_wf : DotDims.WF S16384x16384 S16384x64 S16384x64 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.Kernel.Dense.lean ====
/-
  The first pallas_call: v0 = x · W0, one block of 2048 rows of x per grid point (8 points), W0 whole at every
  point. Stated at a parameter `V`, the contents of the core's buffers when the region is entered: the block of
  each window at a point, what the body leaves in the output's staging buffer (one whole store of the product of
  the point's two input blocks), the body's triple, the pipeline's proof data and its body obligation.
-/
import proofs.«176482_j3831110828045_2_alg».proof.Proof.Gen.Kernel.Launch
import proofs.«176482_j3831110828045_2_alg».proof.Proof.Gen.Kernel.Skeleton
import proofs.«176482_j3831110828045_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the current staging buffer holds the point's block, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- W0, fetched at the first point only: its one block never moves, so the buffer holds it at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S2048x512 := Rect.unit (s := S2048x512) ![0, 0] S2048x512.size inb_S2048x512_S2048x512_0_0
abbrev rW : Rect S512x256 := Rect.unit (s := S512x256) ![0, 0] S512x256.size inb_S512x256_S512x256_0_0
abbrev rO : Rect S2048x256 := Rect.unit (s := S2048x256) ![0, 0] S2048x256.size inb_S2048x256_S2048x256_0_0

/-- What the body leaves in the output's staging buffer: its one store, the product of the two loaded blocks. -/
def out_2 (x0 : Vec F S2048x512 .f32) (x1 : Vec F S512x256 .f32) : Vec F S2048x256 .bf16 :=
  View.canon [⟨rO, k0_pay1 (View.ld x0 rX) (View.ld x1 rW)⟩]

/-- The one store covers the buffer. -/
theorem cover_2 (p0 : Vec F S2048x256 .bf16) (y : S2048x256.Idx) :
    ∃ pc ∈ ([⟨rO, p0⟩] : List (View.Piece (Elt F) S2048x256 .bf16)), y ∈ pc.1.set :=
  View.cover_of_tiled [⟨rO, p0⟩] S2048x256.size (by rfl) y

/-! ## The body's triple -/

set_option maxHeartbeats 1000000 in
/-- On whole staging memrefs, the inputs' at contents `x0`, `x1` and the output's at anything, the body runs to the
    continuation holding the inputs' as they were and the output's at `out_2 x0 x1`. -/
theorem sound_kernel (c : Dev nD) (E : Set ℕ) (i : grid0.Coords) (arg1 : Memref sig .tc .vmem S2048x512 .f32) (harg1 : arg1.IsWhole)
    (arg2 : Memref sig .tc .vmem S512x256 .f32) (harg2 : arg2.IsWhole) (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-! ## The pipeline's proof data -/

/-- The arrays as the region finds them; after the body at point `t` each input's buffer at its block and the output's
    at the product of the point's blocks; the invariant the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out_2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out_2 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Dense

end
-- ==== Proof.Kernel.FusedRuns.lean ====
import proofs.«176482_j3831110828045_2_alg».proof.Proof.Gen.Kernel.Launch
import proofs.«176482_j3831110828045_2_alg».proof.Proof.Gen.Kernel.Skeleton
import proofs.«176482_j3831110828045_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks

The second pallas_call sweeps an 8 x 8 grid, the second coordinate `k` innermost: point `t = 8 * i + k`.
Window 0 is block `(i, k)` of the adjacency matrix, window 1 is row block `k` of the dense layer's output,
window 2 is the whole concatenated weight matrix, window 3 (the output) is row block `i` of the result.
Everything is stated at a parameter `V`: the buffer contents when the region is entered. -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for input window 2 (fetched once: its block index never moves). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional: the inner coordinate `k` is 0 (the sweep over `k` starts,
    the accumulator is cleared). -/
abbrev cond_0 (i : grid1.Coords) : Prop := (Scalar.cmpi .ne (Scalar.extui (Scalar.cmpi .eq (BitVec.ofNat 32 (i 1).val) 0#32)) 0#32) = 1#1
/-- It holds at the points ≡ 0 (mod 8). -/
theorem hcond_0 : ∀ t : Fin cfg1.N, cond_0 (grid1.coords t) ↔ t.val % 8 = 0 :=
  (by decide +kernel : ∀ t : Fin grid1.N, cond_0 (grid1.coords t) ↔ t.val % 8 = 0)

/-- The condition of the body's second conditional: `k` is 7 (the sweep ends, the output block is stored). -/
abbrev cond_1 (i : grid1.Coords) : Prop := k1_cond2 i = 1#1
/-- It holds at the points ≡ 7 (mod 8). -/
theorem hcond_1 : ∀ t : Fin cfg1.N, cond_1 (grid1.coords t) ↔ t.val % 8 = 7 :=
  (by decide +kernel : ∀ t : Fin grid1.N, cond_1 (grid1.coords t) ↔ t.val % 8 = 7)

/-! ## Where the windows are idle -/

/-- The inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Where `k = 0` the output window is idle: nothing is stored into it, -/
theorem idleAt_3_A : ∀ t : Fin cfg1.N, cond_0 (grid1.coords t) → ¬cond_1 (grid1.coords t) → cfg1.idle 3 (grid1.coords t) = true := by decide +kernel
/-- and its block is not written back. -/
theorem noFlush_3_A : ∀ t : Fin cfg1.N, cond_0 (grid1.coords t) → ¬cond_1 (grid1.coords t) → (cfg1.win 3).flush t = false := by decide +kernel
/-- Where `0 < k < 7` the same. -/
theorem idleAt_3_B : ∀ t : Fin cfg1.N, ¬cond_0 (grid1.coords t) → ¬cond_1 (grid1.coords t) → cfg1.idle 3 (grid1.coords t) = true := by decide +kernel
theorem noFlush_3_B : ∀ t : Fin cfg1.N, ¬cond_0 (grid1.coords t) → ¬cond_1 (grid1.coords t) → (cfg1.win 3).flush t = false := by decide +kernel
/-- Where `k = 7` the output window is live: its block is stored. -/
theorem liveAt_3_C : ∀ t : Fin cfg1.N, ¬cond_0 (grid1.coords t) → cond_1 (grid1.coords t) → cfg1.idle 3 (grid1.coords t) = false := by decide +kernel

/-! ## The staging memrefs and the accumulator -/

/-- One staging buffer of the output window, through which its contents are stated (the choice does not matter). -/
abbrev VO_3 : View sig .tc .vmem S2048x128 .bf16 := (Memref.whole cc1_stg3_0 : Memref sig .tc .vmem S2048x128 .bf16).view
/-- Each window's current staging memref at point `t`, and its wholeness. -/
abbrev ms_0 (t : Fin cfg1.N) : Memref sig .tc .vmem S2048x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x256 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x128 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x128 .bf16 := win1_3.stage (cfg1.slots t 3)
abbrev hs_3 (t : Fin cfg1.N) : (ms_3 t).IsWhole := hstage1_3 ((cfg1.slots t 3).cast nbuf1_3)
/-- The accumulator: a whole scoped buffer of the kernel's own, passed beside the windows, -/
abbrev scM : Memref sig .tc .vmem S2048x256 .f32 := Memref.whole cc1_scratch0
/-- and as a view: what it holds between points is stated through it. -/
abbrev VS : View sig .tc .vmem S2048x256 .f32 := scM.view

/-- The scoped buffers listed after the accumulator that this pallas_call never touches (the third
    pallas_call's staging buffers and accumulator), each whole at some contents. -/
def restTail (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f))

/-- The scoped buffers that are no staging buffer of this pallas_call, with `P` saying what the accumulator
    holds: the first pallas_call's staging buffers at anything, the accumulator, the rest at anything. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P ∗ restTail (F := F) c)

/-- The invariant the launch hands the region, with the accumulator as a memref owned at some contents. -/
theorem PhiA_eq (c : Dev nD) :
    (Pipeline.ΦA spec1 c : sProp 𝕄)
      = iprop(restWith c iprop(∃ d, owns (c : Thread nD τ) scM fullShare d) ∗ (∃ r, prngReg c r)) := by
  unfold Pipeline.ΦA restWith restTail; rw [scopedRest1_eq]; simp only [scM, owns_whole]; try rfl

end Cert.Kernel.Fused

end
-- ==== Proof.Kernel.FusedRunA.lean ====
import proofs.«176482_j3831110828045_2_alg».proof.Proof.Kernel.FusedRuns

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `k = 0` (first conditional taken, second not), on whole memrefs: the three inputs at their
    contents, the output's buffer at contents `xi3` handed back untouched, the accumulator at anything. It runs to
    the continuation holding the inputs as they were and the accumulator with its pieces written (last first: the
    accumulated block, over the zeros): the pieces are the witness the symbolic run finds. -/
noncomputable def kernelRun_A (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__adj_fused_kernel i arg2 harg2 arg3 harg3 arg4 harg4 arg5 harg5 arg6 harg6) K } := by
  refine ⟨[], ?_, fun xi3 E K => ?run⟩
  case run =>
    simp only [cc1__adj_fused_kernel_eq_skeleton]; unfold cc1__adj_fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fused

end
-- ==== Proof.Kernel.FusedRunB.lean ====
import proofs.«176482_j3831110828045_2_alg».proof.Proof.Kernel.FusedRunA

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `0 < k < 7` (neither conditional taken), on whole memrefs: the three inputs at their contents,
    the output's buffer at contents `xi3` handed back untouched, the accumulator at what the point before left
    (`xs0`). It runs to the continuation holding the inputs as they were and the accumulator with its one piece
    written (the accumulated block). -/
noncomputable def kernelRun_B (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__adj_fused_kernel i arg2 harg2 arg3 harg3 arg4 harg4 arg5 harg5 arg6 harg6) K } := by
  refine ⟨[], ?_, fun xi3 E K => ?run⟩
  case run =>
    simp only [cc1__adj_fused_kernel_eq_skeleton]; unfold cc1__adj_fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fused

end
-- ==== Proof.Kernel.FusedRunC.lean ====
import proofs.«176482_j3831110828045_2_alg».proof.Proof.Kernel.FusedRunB

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `k = 7` (first conditional not taken, second taken), on whole memrefs: the three inputs at
    their contents, the output's buffer at anything, the accumulator at what the point before left (`xs0`). It runs
    to the continuation holding the inputs as they were, the output's buffer with its one piece written (the
    finished block) and the accumulator with its one piece written (the accumulated block). -/
noncomputable def kernelRun_C (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) :
    Σ' (L3 : List (View.Piece (Elt F) S2048x128 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__adj_fused_kernel i arg2 harg2 arg3 harg3 arg4 harg4 arg5 harg5 arg6 harg6) K } := by
  refine ⟨?_, ?_, fun E K => ?run⟩
  case run =>
    simp only [cc1__adj_fused_kernel_eq_skeleton]; unfold cc1__adj_fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fused

end
-- ==== Proof.Kernel.Fused.lean ====
import proofs.«176482_j3831110828045_2_alg».proof.Proof.Kernel.FusedRunC
import Idealize.ShloMosaic.Lib.Pipeline.Value

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the accumulator -/

/-- Where `k = 0` nothing is stored into the output's buffer (the window is idle there and not written back):
    no pieces — a placeholder nothing consults. -/
def out_A_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) : Vec F S2048x128 .bf16 :=
  VO_3.read (Elt F) (VO_3.writes (Elt F) VO_3.junk (kernelRun_A c i arg2 harg2 arg3 harg3 arg4 harg4 arg5 harg5 arg6 harg6 hc0 hc1 x0 x1 x2).1)

/-- Where `k = 0` the pieces stored into the accumulator (the accumulated block over the zeros) cover it. -/
theorem scover_A (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) (y : S2048x256.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S2048x256.size (by sl_kernel_rfl) y

/-- What the accumulator holds after a point with `k = 0`: its pieces read back. -/
def sout_A (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) : Vec F S2048x256 .f32 :=
  VS.read (Elt F) (VS.writes (Elt F) VS.junk (kernelRun_A c i arg2 harg2 arg3 harg3 arg4 harg4 arg5 harg5 arg6 harg6 hc0 hc1 x0 x1 x2).2.1)

/-- Where `0 < k < 7` nothing is stored into the output's buffer either. -/
def out_B_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) : Vec F S2048x128 .bf16 :=
  VO_3.read (Elt F) (VO_3.writes (Elt F) VO_3.junk (kernelRun_B c i arg2 harg2 arg3 harg3 arg4 harg4 arg5 harg5 arg6 harg6 hc0 hc1 x0 x1 x2 xs0).1)

/-- Where `0 < k < 7` the one piece stored into the accumulator covers it. -/
theorem scover_B (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) (y : S2048x256.Idx) :
    ∃ pc ∈ (kernelRun_B c i arg2 harg2 arg3 harg3 arg4 harg4 arg5 harg5 arg6 harg6 hc0 hc1 x0 x1 x2 xs0).2.1, y ∈ pc.1.set :=
  View.cover_of_tiledL (kernelRun_B c i arg2 harg2 arg3 harg3 arg4 harg4 arg5 harg5 arg6 harg6 hc0 hc1 x0 x1 x2 xs0).2.1 S2048x256.size (by sl_kernel_rfl) y

/-- What the accumulator holds after a point with `0 < k < 7`. -/
def sout_B (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) : Vec F S2048x256 .f32 :=
  VS.read (Elt F) (VS.writes (Elt F) VS.junk (kernelRun_B c i arg2 harg2 arg3 harg3 arg4 harg4 arg5 harg5 arg6 harg6 hc0 hc1 x0 x1 x2 xs0).2.1)

/-- Where `k = 7` the one piece stored into the output's buffer covers its block. -/
theorem cover_C_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) (y : S2048x128.Idx) :
    ∃ pc ∈ (kernelRun_C c i arg2 harg2 arg3 harg3 arg4 harg4 arg5 harg5 arg6 harg6 hc0 hc1 x0 x1 x2 xs0).1, y ∈ pc.1.set :=
  View.cover_of_tiledL (kernelRun_C c i arg2 harg2 arg3 harg3 arg4 harg4 arg5 harg5 arg6 harg6 hc0 hc1 x0 x1 x2 xs0).1 S2048x128.size (by sl_kernel_rfl) y

/-- What the output's buffer holds after a point with `k = 7`: the finished block. -/
def out_C_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) : Vec F S2048x128 .bf16 :=
  VO_3.read (Elt F) (VO_3.writes (Elt F) VO_3.junk (kernelRun_C c i arg2 harg2 arg3 harg3 arg4 harg4 arg5 harg5 arg6 harg6 hc0 hc1 x0 x1 x2 xs0).1)

/-- Where `k = 7` the one piece stored into the accumulator covers it. -/
theorem scover_C (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) (y : S2048x256.Idx) :
    ∃ pc ∈ (kernelRun_C c i arg2 harg2 arg3 harg3 arg4 harg4 arg5 harg5 arg6 harg6 hc0 hc1 x0 x1 x2 xs0).2.1, y ∈ pc.1.set :=
  View.cover_of_tiledL (kernelRun_C c i arg2 harg2 arg3 harg3 arg4 harg4 arg5 harg5 arg6 harg6 hc0 hc1 x0 x1 x2 xs0).2.1 S2048x256.size (by sl_kernel_rfl) y

/-- What the accumulator holds after a point with `k = 7`. -/
def sout_C (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) : Vec F S2048x256 .f32 :=
  VS.read (Elt F) (VS.writes (Elt F) VS.junk (kernelRun_C c i arg2 harg2 arg3 harg3 arg4 harg4 arg5 harg5 arg6 harg6 hc0 hc1 x0 x1 x2 xs0).2.1)

/-! ## What the output's buffer and the accumulator hold after each point -/

/-- The accumulation. After the body at position `n`: (the output window's staging buffer, the accumulator) —
    the case the closed forms select at `n`, run at the point's memrefs and input blocks, the accumulator entering
    the cases `k ≠ 0` at what this leaves at `n - 1`. -/
def outsAt (c : Dev nD) : (n : ℕ) → n < cfg1.N → Vec F S2048x128 .bf16 × Vec F S2048x256 .f32
  | 0, hn => (out_A_3 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (out_A_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩))
    else
      if h1 : (n + 1) % 8 = 7 then
        (out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (out_B_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point with `k = 0`. -/
theorem outsAt_A (c : Dev nD) (t : Fin cfg1.N) (h0 : t.val % 8 = 0) (h1 : ¬t.val % 8 = 7) :
    outsAt V c t.val t.isLt = (out_A_3 c (grid1.coords t) (ms_0 t) (hs_0 t) (ms_1 t) (hs_1 t) (ms_2 t) (hs_2 t) (ms_3 t) (hs_3 t) scM (Memref.isWhole_whole _) ((hcond_0 t).mpr h0) (fun h => h1 ((hcond_1 t).mp h)) (iblk V c 0 t) (iblk V c 1 t) (iblk V c 2 t), sout_A c (grid1.coords t) (ms_0 t) (hs_0 t) (ms_1 t) (hs_1 t) (ms_2 t) (hs_2 t) (ms_3 t) (hs_3 t) scM (Memref.isWhole_whole _) ((hcond_0 t).mpr h0) (fun h => h1 ((hcond_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point with `0 < k < 7`: over what the point before left in the accumulator. -/
theorem outsAt_B (c : Dev nD) (t : Fin cfg1.N) (h0 : ¬t.val % 8 = 0) (h1 : ¬t.val % 8 = 7) :
    outsAt V c t.val t.isLt = (out_B_3 c (grid1.coords t) (ms_0 t) (hs_0 t) (ms_1 t) (hs_1 t) (ms_2 t) (hs_2 t) (ms_3 t) (hs_3 t) scM (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2, sout_B c (grid1.coords t) (ms_0 t) (hs_0 t) (ms_1 t) (hs_1 t) (ms_2 t) (hs_2 t) (ms_3 t) (hs_3 t) scM (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point with `k = 7`: over what the point before left in the accumulator. -/
theorem outsAt_C (c : Dev nD) (t : Fin cfg1.N) (h0 : ¬t.val % 8 = 0) (h1 : t.val % 8 = 7) :
    outsAt V c t.val t.isLt = (out_C_3 c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2, sout_C c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator
    at anything); afterwards the accumulator at what the point before left in it, the other scoped buffers at
    anything and the generator register at some state. -/
def PhiS (c : Dev nD) : (n : ℕ) → n ≤ cfg1.N → sProp 𝕄
  | 0, _ => Pipeline.ΦA spec1 c
  | n + 1, hn => iprop(restWith c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(restWith c (owns (c : Thread nD τ) scM fullShare ((outsAt V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(restWith c (owns (c : Thread nD τ) scM fullShare ((outsAt V c (n - 1) (by omega)).2)) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the output's at `outsAt`'s first component; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in;
    the invariant hands the body the accumulator at what the point before left (at anything at the first point)
    and takes it back at this point's contents, the pieces covering it; where `k ≠ 7` the output's buffer is handed
    back as found, where `k = 7` at the finished block; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond_0 t).mpr h0) (fun h => h1 ((hcond_1 t).mp h))) (noFlush_3_A t ((hcond_0 t).mpr h0) (fun h => h1 ((hcond_1 t).mp h)))]
      rw [outsAt_A V c t h0 h1]
      unfold sout_A; (try dsimp only)
      by_cases hz : t.val = 0
      ·
        rw [PhiS_castSucc V c t, PhiS_zero V c _ _ hz, PhiA_eq]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_A c (grid1.coords t) _ _ _ _ _ _ _ _ _ _ ((hcond_0 t).mpr h0) (fun h => h1 ((hcond_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_A c _ _ _ _ _ _ _ _ _ _ _ _ _ _ _ _)
            iexact HRt
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_A c (grid1.coords t) _ _ _ _ _ _ _ _ _ _ ((hcond_0 t).mpr h0) (fun h => h1 ((hcond_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_A c _ _ _ _ _ _ _ _ _ _ _ _ _ _ _ _)
            iexact HRt
          iexact Hg
        isplitl [Ho]; · iexact Ho
        isplitl [H0]; · iexact H0
        isplitl [H1]; · iexact H1
        isplitl [H2]; · iexact H2
        iexists _; iexact H3
  · by_cases h1 : t.val % 8 = 7
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond_0 t).mp h)) ((hcond_1 t).mpr h1)], after_3]
      rw [outsAt_C V c t h0 h1]
      unfold out_C_3 sout_C; (try dsimp only)
      by_cases hz : t.val = 0
      · exfalso; omega
      ·
        rw [PhiS_castSucc V c t, PhiS_pos V c _ _ hz]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_C c (grid1.coords t) _ _ _ _ _ _ _ _ _ _ (fun h => h0 ((hcond_0 t).mp h)) ((hcond_1 t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_C c _ _ _ _ _ _ _ _ _ _ _ _ _ _ _ _ _)
            iexact HRt
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C_3 c _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond_0 t).mp h)) (fun h => h1 ((hcond_1 t).mp h))) (noFlush_3_B t (fun h => h0 ((hcond_0 t).mp h)) (fun h => h1 ((hcond_1 t).mp h)))]
      rw [outsAt_B V c t h0 h1]
      unfold sout_B; (try dsimp only)
      by_cases hz : t.val = 0
      · exfalso; omega
      ·
        rw [PhiS_castSucc V c t, PhiS_pos V c _ _ hz]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_B c (grid1.coords t) _ _ _ _ _ _ _ _ _ _ (fun h => h0 ((hcond_0 t).mp h)) (fun h => h1 ((hcond_1 t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_B c _ _ _ _ _ _ _ _ _ _ _ _ _ _ _ _ _)
            iexact HRt
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold restWith
  iintro ⟨⟨HR0, HR1, HR2, HR3, HR4, HS0, HRt⟩, Hg⟩
  isplitl [HR0 HR1 HR2 HR3 HR4 HS0 HRt]
  ·
    isplitl [HR0]; · iexact HR0
    isplitl [HR1]; · iexact HR1
    isplitl [HR2]; · iexact HR2
    isplitl [HR3]; · iexact HR3
    isplitl [HR4]; · iexact HR4
    isplitl [HS0]; · iexists _; iexact HS0
    iexact HRt
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

/-! ## The contents, through the payloads

Each case's pieces read back: one covering store through the whole-buffer rectangle leaves its payload, and a load
through it reads the contents. So after a point with `k = 0` the accumulator is the zero block plus the product of
the point's adjacency block with its feature block; after any other point what it held plus that product; and the
block stored where `k = 7` is the output payload of the accumulator as that same point leaves it. -/

/-- The zero offsets, however spelt. -/
theorem hz : (![0, 0] : Fin 2 → Nat) = fun _ => 0 := funext fun a => by fin_cases a <;> rfl

/-- Where `k = 0`: the accumulator ends at the accumulation payload over the zero block. -/
theorem sout_A_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) :
    sout_A c i arg2 harg2 arg3 harg3 arg4 harg4 arg5 harg5 arg6 harg6 hc0 hc1 x0 x1 x2 = k1_pay2 x0 (k1_pay1 (F := F)) x1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S2048x256) hz, View.readCov_unit_zero (S := S2048x256) _ hz]
  simp only [View.readAt_eq_ld, harg2.read_unread, harg3.read_unread, View.ld_unit_zero (S := S2048x2048) hz, View.ld_unit_zero (S := S2048x256) hz]

/-- Where `0 < k < 7`: the accumulator ends at the accumulation payload over what it held. -/
theorem sout_B_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) :
    sout_B c i arg2 harg2 arg3 harg3 arg4 harg4 arg5 harg5 arg6 harg6 hc0 hc1 x0 x1 x2 xs0 = k1_pay2 x0 xs0 x1 := by
  unfold sout_B
  rw [View.read_writes_eq_canon _ _ _ (scover_B c i arg2 harg2 arg3 harg3 arg4 harg4 arg5 harg5 arg6 harg6 hc0 hc1 x0 x1 x2 xs0)]
  unfold kernelRun_B
  dsimp only
  sl_unfold_words
  rw [View.canon_unit_zero (S := S2048x256) hz]
  simp only [View.readAt_eq_ld, harg2.read_unread, harg3.read_unread, harg6.read_unread, View.ld_unit_zero (S := S2048x2048) hz, View.ld_unit_zero (S := S2048x256) hz]

/-- Where `k = 7`: the same for the accumulator, -/
theorem sout_C_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) :
    sout_C c i arg2 harg2 arg3 harg3 arg4 harg4 arg5 harg5 arg6 harg6 hc0 hc1 x0 x1 x2 xs0 = k1_pay2 x0 xs0 x1 := by
  unfold sout_C
  rw [View.read_writes_eq_canon _ _ _ (scover_C c i arg2 harg2 arg3 harg3 arg4 harg4 arg5 harg5 arg6 harg6 hc0 hc1 x0 x1 x2 xs0)]
  unfold kernelRun_C
  dsimp only
  sl_unfold_words
  rw [View.canon_unit_zero (S := S2048x256) hz]
  simp only [View.readAt_eq_ld, harg2.read_unread, harg3.read_unread, harg6.read_unread, View.ld_unit_zero (S := S2048x2048) hz, View.ld_unit_zero (S := S2048x256) hz]

/-- and the output's buffer ends at the output payload of that accumulator and the weight block. -/
theorem out_C_3_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) :
    out_C_3 c i arg2 harg2 arg3 harg3 arg4 harg4 arg5 harg5 arg6 harg6 hc0 hc1 x0 x1 x2 xs0 = k1_pay3 (k1_pay2 x0 xs0 x1) x2 := by
  unfold out_C_3
  rw [View.read_writes_eq_canon _ _ _ (cover_C_3 c i arg2 harg2 arg3 harg3 arg4 harg4 arg5 harg5 arg6 harg6 hc0 hc1 x0 x1 x2 xs0)]
  unfold kernelRun_C
  dsimp only
  sl_unfold_words
  rw [View.canon_unit_zero (S := S2048x128) hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz, View.ld_unit_zero (S := S256x128) hz]

/-- After a point with `k = 0` the accumulator holds the zero block plus the point's product. -/
theorem acc_first (c : Dev nD) (t : Fin cfg1.N) (h : t.val % 8 = 0) : (outsAt V c t.val t.isLt).2 = k1_pay2 (iblk V c 0 t) (k1_pay1 (F := F)) (iblk V c 1 t) := by
  have h0 : t.val % 8 = 0 := h
  have h1 : ¬t.val % 8 = 7 := by omega
  rw [outsAt_A V c t h0 h1]
  dsimp only
  exact sout_A_eq c (grid1.coords t) (ms_0 t) (hs_0 t) (ms_1 t) (hs_1 t) (ms_2 t) (hs_2 t) (ms_3 t) (hs_3 t) scM (Memref.isWhole_whole _) ((hcond_0 t).mpr h0) (fun h => h1 ((hcond_1 t).mp h)) (iblk V c 0 t) (iblk V c 1 t) (iblk V c 2 t)

/-- After any other point it holds what the point before left plus the point's product. -/
theorem acc_next (c : Dev nD) (t : Fin cfg1.N) (h : t.val % 8 ≠ 0) : (outsAt V c t.val t.isLt).2 = k1_pay2 (iblk V c 0 t) (outsAt V c (t.val - 1) (Nat.lt_of_le_of_lt (Nat.sub_le _ _) t.isLt)).2 (iblk V c 1 t) := by
  have h0 : ¬t.val % 8 = 0 := h
  by_cases h1 : t.val % 8 = 7
  · rw [outsAt_C V c t h0 h1]
    dsimp only
    exact sout_C_eq c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2
  · rw [outsAt_B V c t h0 h1]
    dsimp only
    exact sout_B_eq c (grid1.coords t) (ms_0 t) (hs_0 t) (ms_1 t) (hs_1 t) (ms_2 t) (hs_2 t) (ms_3 t) (hs_3 t) scM (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2

/-- Where `k = 7` the block stored is the output payload of the accumulator as that point leaves it. -/
theorem out_last (c : Dev nD) (t : Fin cfg1.N) (h : t.val % 8 = 7) : (outsAt V c t.val t.isLt).1 = k1_pay3 (outsAt V c t.val t.isLt).2 (iblk V c 2 t) := by
  have h0 : ¬t.val % 8 = 0 := by omega
  have h1 : t.val % 8 = 7 := h
  rw [outsAt_C V c t h0 h1]
  dsimp only
  rw [sout_C_eq c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2]
  exact out_C_3_eq c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2

end Cert.Kernel.Fused

end
-- ==== Proof.Kernel.HeadsRuns.lean ====
/- The third kernel of the program (the adjacency-times-features product accumulated over the inner grid axis, then
   the three heads): what its three control cases share. Window blocks read off the region-entry contents, the two
   branch conditions in closed form over the 8 x 8 grid, where the output windows are idle, and the names of the
   staging and scratch memrefs. -/
import proofs.«176482_j3831110828045_2_alg».proof.Proof.Gen.Kernel.Launch
import proofs.«176482_j3831110828045_2_alg».proof.Proof.Gen.Kernel.Skeleton
import proofs.«176482_j3831110828045_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adjacency block (i, k)) holds its block at every point, for any proof data whose array is
    `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the feature block k) likewise. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the noise block i) likewise: it is fetched only at the first point of a sweep over k, and between
    fetches its block index does not move, so its buffer still holds the block. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition (the inner coordinate k is 0), from the grid coordinates. -/
abbrev cond0 (i : grid2.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg2.N, cond0 (grid2.coords t) ↔ t.val % 8 = 0 :=
  (by decide +kernel : ∀ t : Fin grid2.N, cond0 (grid2.coords t) ↔ t.val % 8 = 0)

/-- The second conditional's condition (the inner coordinate k is 7), from the grid coordinates. -/
abbrev cond1 (i : grid2.Coords) : Prop := k2_cond2 i = 1#1
/-- It holds at the points ≡ 7 (mod 8). -/
theorem hcond1 : ∀ t : Fin cfg2.N, cond1 (grid2.coords t) ↔ t.val % 8 = 7 :=
  (by decide +kernel : ∀ t : Fin grid2.N, cond1 (grid2.coords t) ↔ t.val % 8 = 7)

/-! ## Where the windows are idle -/

/-- The three inputs are never idle. -/
theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- Away from the last point of a sweep the three outputs are idle and not written back. -/
theorem idleAt_3 : ∀ t : Fin cfg2.N, ¬cond1 (grid2.coords t) → cfg2.idle 3 (grid2.coords t) = true := by decide +kernel
theorem idleAt_4 : ∀ t : Fin cfg2.N, ¬cond1 (grid2.coords t) → cfg2.idle 4 (grid2.coords t) = true := by decide +kernel
theorem idleAt_5 : ∀ t : Fin cfg2.N, ¬cond1 (grid2.coords t) → cfg2.idle 5 (grid2.coords t) = true := by decide +kernel
theorem noFlush_3 : ∀ t : Fin cfg2.N, ¬cond1 (grid2.coords t) → (cfg2.win 3).flush t = false := by decide +kernel
theorem noFlush_4 : ∀ t : Fin cfg2.N, ¬cond1 (grid2.coords t) → (cfg2.win 4).flush t = false := by decide +kernel
theorem noFlush_5 : ∀ t : Fin cfg2.N, ¬cond1 (grid2.coords t) → (cfg2.win 5).flush t = false := by decide +kernel
/-- At the last point of a sweep they are live: the body stores each whole. -/
theorem liveAt_3 : ∀ t : Fin cfg2.N, cond1 (grid2.coords t) → cfg2.idle 3 (grid2.coords t) = false := by decide +kernel
theorem liveAt_4 : ∀ t : Fin cfg2.N, cond1 (grid2.coords t) → cfg2.idle 4 (grid2.coords t) = false := by decide +kernel
theorem liveAt_5 : ∀ t : Fin cfg2.N, cond1 (grid2.coords t) → cfg2.idle 5 (grid2.coords t) = false := by decide +kernel

/-! ## The staging and scratch memrefs -/

/-- One staging buffer of each output window, through which its contents are stated (the choice does not matter). -/
abbrev VO_3 : View sig .tc .vmem S2048x64 .f32 := (Memref.whole cc2_stg3_0 : Memref sig .tc .vmem S2048x64 .f32).view
abbrev VO_4 : View sig .tc .vmem S2048x64 .f32 := (Memref.whole cc2_stg4_0 : Memref sig .tc .vmem S2048x64 .f32).view
abbrev VO_5 : View sig .tc .vmem S2048x64 .f32 := (Memref.whole cc2_stg5_0 : Memref sig .tc .vmem S2048x64 .f32).view
/-- Each window's current staging memref at point `t`, as the pipeline passes it, and its wholeness. -/
abbrev ms_0 (t : Fin cfg2.N) : Memref sig .tc .vmem S2048x2048 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x128 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S2048x64 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S2048x64 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S2048x64 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S2048x64 .f32 := win2_5.stage (cfg2.slots t 5)
abbrev hs_5 (t : Fin cfg2.N) : (ms_5 t).IsWhole := hstage2_5 ((cfg2.slots t 5).cast nbuf2_5)
/-- The accumulator: a whole scoped buffer of the kernel's own, passed beside the windows and carried between points. -/
abbrev scM : Memref sig .tc .vmem S2048x128 .f32 := Memref.whole cc2_scratch0
/-- The same as a view: what it holds is stated through it. -/
abbrev VS : View sig .tc .vmem S2048x128 .f32 := scM.view

/-- The region's invariant with the accumulator as a memref owned at some contents: the other scoped buffers (the
    earlier kernels' staging buffers and accumulator) at anything, and the generator register at some state. -/
theorem PhiA_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ d, owns (c : Thread nD τ) scM fullShare d)) ∗ (∃ r, prngReg c r)) := by
  unfold Pipeline.ΦA; rw [scopedRest2_eq]; simp only [scM, owns_whole]; try rfl

end Cert.Kernel.Heads

end
-- ==== Proof.Kernel.HeadsRunA.lean ====
/- The body of the third kernel at the first point of a sweep over the inner grid axis (k = 0): the accumulator is zeroed and
   then receives the first product; the three outputs are not touched. -/
import proofs.«176482_j3831110828045_2_alg».proof.Proof.Kernel.HeadsRuns

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

set_option maxHeartbeats 1000000 in
/-- CASE A (first conditional taken, second not). On whole memrefs — the inputs at their contents, the three outputs at
    contents handed back untouched, the accumulator at anything — the body runs to the continuation holding the inputs
    and the outputs as they were and the accumulator with the found pieces written (zeros, then zeros plus the
    product of the adjacency block and the feature block). -/
noncomputable def kernelRun_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) :
    { LS : List (View.Piece (Elt F) S2048x128 .f32) //
      ∀ (xi3 xi4 xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__adj_heads_kernel i arg2 harg2 arg3 harg3 arg4 harg4 arg5 harg5 arg6 harg6 arg7 harg7 arg8 harg8) K } := by
  refine ⟨?_, fun xi3 xi4 xi5 E K => ?run⟩
  case run =>
    simp only [cc2__adj_heads_kernel_eq_skeleton]; unfold cc2__adj_heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Heads

end
-- ==== Proof.Kernel.HeadsRunB.lean ====
/- The body of the third kernel at a middle point of a sweep over the inner grid axis (0 < k < 7): the accumulator receives one
   more product; the three outputs are not touched. -/
import proofs.«176482_j3831110828045_2_alg».proof.Proof.Kernel.HeadsRunA

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

set_option maxHeartbeats 1000000 in
/-- CASE B (neither conditional taken). On whole memrefs — the inputs at their contents, the three outputs at contents
    handed back untouched, the accumulator at what the point before left — the body runs to the continuation holding
    the inputs and the outputs as they were and the accumulator with the found piece written (its contents plus the
    product of the adjacency block and the feature block). -/
noncomputable def kernelRun_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) :
    { LS : List (View.Piece (Elt F) S2048x128 .f32) //
      ∀ (xi3 xi4 xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__adj_heads_kernel i arg2 harg2 arg3 harg3 arg4 harg4 arg5 harg5 arg6 harg6 arg7 harg7 arg8 harg8) K } := by
  refine ⟨?_, fun xi3 xi4 xi5 E K => ?run⟩
  case run =>
    simp only [cc2__adj_heads_kernel_eq_skeleton]; unfold cc2__adj_heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Heads

end
-- ==== Proof.Kernel.HeadsRunC.lean ====
/- The body of the third kernel at the last point of a sweep over the inner grid axis (k = 7): the accumulator receives the last
   product, and the three outputs are each stored whole from it. -/
import proofs.«176482_j3831110828045_2_alg».proof.Proof.Kernel.HeadsRunB

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

set_option maxHeartbeats 1000000 in
/-- CASE C (first conditional not taken, second taken). On whole memrefs — the inputs at their contents, the three
    outputs at anything, the accumulator at what the point before left — the body runs to the continuation holding the
    inputs as they were, the accumulator with the found piece written, and each output with its found piece written. -/
noncomputable def kernelRun_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) :
    Σ' (L3 : List (View.Piece (Elt F) S2048x64 .f32)) (L4 : List (View.Piece (Elt F) S2048x64 .f32)) (L5 : List (View.Piece (Elt F) S2048x64 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2__adj_heads_kernel i arg2 harg2 arg3 harg3 arg4 harg4 arg5 harg5 arg6 harg6 arg7 harg7 arg8 harg8) K } := by
  refine ⟨?_, ?_, ?_, ?_, fun E K => ?run⟩
  case run =>
    simp only [cc2__adj_heads_kernel_eq_skeleton]; unfold cc2__adj_heads_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact HS

end Cert.Kernel.Heads

end
-- ==== Proof.Kernel.HeadsOuts.lean ====
/- The third kernel of the program: what each control case leaves in the accumulator and in the three outputs, the
   accumulation point by point over the 8 x 8 grid, the region's invariant and the proof data. -/
import proofs.«176482_j3831110828045_2_alg».proof.Proof.Kernel.HeadsRunC

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## What each case leaves -/

/-- The outputs' staging buffers at the points that store nothing into them: placeholders that nothing consults (at
    these points the windows are neither written back nor read at the next point). -/
def idle_3 : Vec F S2048x64 .f32 := VO_3.read (Elt F) (VO_3.writes (Elt F) VO_3.junk [])
def idle_4 : Vec F S2048x64 .f32 := VO_4.read (Elt F) (VO_4.writes (Elt F) VO_4.junk [])
def idle_5 : Vec F S2048x64 .f32 := VO_5.read (Elt F) (VO_5.writes (Elt F) VO_5.junk [])

/-- Case A's pieces for the accumulator cover it. -/
theorem scover_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) (y : S2048x128.Idx) :
    ∃ pc ∈ (kernelRun_A c i arg2 harg2 arg3 harg3 arg4 harg4 arg5 harg5 arg6 harg6 arg7 harg7 arg8 harg8 hc0 hc1 x0 x1 x2).1, y ∈ pc.1.set :=
  View.cover_of_tiledL (kernelRun_A c i arg2 harg2 arg3 harg3 arg4 harg4 arg5 harg5 arg6 harg6 arg7 harg7 arg8 harg8 hc0 hc1 x0 x1 x2).1 S2048x128.size (by sl_kernel_rfl) y

/-- What case A leaves in the accumulator: its pieces read back. -/
def sout_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) : Vec F S2048x128 .f32 :=
  VS.read (Elt F) (VS.writes (Elt F) VS.junk (kernelRun_A c i arg2 harg2 arg3 harg3 arg4 harg4 arg5 harg5 arg6 harg6 arg7 harg7 arg8 harg8 hc0 hc1 x0 x1 x2).1)

/-- Case B's piece for the accumulator covers it. -/
theorem scover_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) (y : S2048x128.Idx) :
    ∃ pc ∈ (kernelRun_B c i arg2 harg2 arg3 harg3 arg4 harg4 arg5 harg5 arg6 harg6 arg7 harg7 arg8 harg8 hc0 hc1 x0 x1 x2 xs).1, y ∈ pc.1.set :=
  View.cover_of_tiledL (kernelRun_B c i arg2 harg2 arg3 harg3 arg4 harg4 arg5 harg5 arg6 harg6 arg7 harg7 arg8 harg8 hc0 hc1 x0 x1 x2 xs).1 S2048x128.size (by sl_kernel_rfl) y

/-- What case B leaves in the accumulator. -/
def sout_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) : Vec F S2048x128 .f32 :=
  VS.read (Elt F) (VS.writes (Elt F) VS.junk (kernelRun_B c i arg2 harg2 arg3 harg3 arg4 harg4 arg5 harg5 arg6 harg6 arg7 harg7 arg8 harg8 hc0 hc1 x0 x1 x2 xs).1)

/-- Case C's piece for each output covers its block, and its piece for the accumulator covers it. -/
theorem cover_C_3 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x64.Idx) :
    ∃ pc ∈ (kernelRun_C c i arg2 harg2 arg3 harg3 arg4 harg4 arg5 harg5 arg6 harg6 arg7 harg7 arg8 harg8 hc0 hc1 x0 x1 x2 xs).1, y ∈ pc.1.set :=
  View.cover_of_tiledL (kernelRun_C c i arg2 harg2 arg3 harg3 arg4 harg4 arg5 harg5 arg6 harg6 arg7 harg7 arg8 harg8 hc0 hc1 x0 x1 x2 xs).1 S2048x64.size (by sl_kernel_rfl) y
theorem cover_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x64.Idx) :
    ∃ pc ∈ (kernelRun_C c i arg2 harg2 arg3 harg3 arg4 harg4 arg5 harg5 arg6 harg6 arg7 harg7 arg8 harg8 hc0 hc1 x0 x1 x2 xs).2.1, y ∈ pc.1.set :=
  View.cover_of_tiledL (kernelRun_C c i arg2 harg2 arg3 harg3 arg4 harg4 arg5 harg5 arg6 harg6 arg7 harg7 arg8 harg8 hc0 hc1 x0 x1 x2 xs).2.1 S2048x64.size (by sl_kernel_rfl) y
theorem cover_C_5 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x64.Idx) :
    ∃ pc ∈ (kernelRun_C c i arg2 harg2 arg3 harg3 arg4 harg4 arg5 harg5 arg6 harg6 arg7 harg7 arg8 harg8 hc0 hc1 x0 x1 x2 xs).2.2.1, y ∈ pc.1.set :=
  View.cover_of_tiledL (kernelRun_C c i arg2 harg2 arg3 harg3 arg4 harg4 arg5 harg5 arg6 harg6 arg7 harg7 arg8 harg8 hc0 hc1 x0 x1 x2 xs).2.2.1 S2048x64.size (by sl_kernel_rfl) y
theorem scover_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x128.Idx) :
    ∃ pc ∈ (kernelRun_C c i arg2 harg2 arg3 harg3 arg4 harg4 arg5 harg5 arg6 harg6 arg7 harg7 arg8 harg8 hc0 hc1 x0 x1 x2 xs).2.2.2.1, y ∈ pc.1.set :=
  View.cover_of_tiledL (kernelRun_C c i arg2 harg2 arg3 harg3 arg4 harg4 arg5 harg5 arg6 harg6 arg7 harg7 arg8 harg8 hc0 hc1 x0 x1 x2 xs).2.2.2.1 S2048x128.size (by sl_kernel_rfl) y

/-- What case C leaves in each output's staging buffer and in the accumulator. -/
def out_C_3 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x64 .f32 :=
  VO_3.read (Elt F) (VO_3.writes (Elt F) VO_3.junk (kernelRun_C c i arg2 harg2 arg3 harg3 arg4 harg4 arg5 harg5 arg6 harg6 arg7 harg7 arg8 harg8 hc0 hc1 x0 x1 x2 xs).1)
def out_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x64 .f32 :=
  VO_4.read (Elt F) (VO_4.writes (Elt F) VO_4.junk (kernelRun_C c i arg2 harg2 arg3 harg3 arg4 harg4 arg5 harg5 arg6 harg6 arg7 harg7 arg8 harg8 hc0 hc1 x0 x1 x2 xs).2.1)
def out_C_5 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x64 .f32 :=
  VO_5.read (Elt F) (VO_5.writes (Elt F) VO_5.junk (kernelRun_C c i arg2 harg2 arg3 harg3 arg4 harg4 arg5 harg5 arg6 harg6 arg7 harg7 arg8 harg8 hc0 hc1 x0 x1 x2 xs).2.2.1)
def sout_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x128 .f32 :=
  VS.read (Elt F) (VS.writes (Elt F) VS.junk (kernelRun_C c i arg2 harg2 arg3 harg3 arg4 harg4 arg5 harg5 arg6 harg6 arg7 harg7 arg8 harg8 hc0 hc1 x0 x1 x2 xs).2.2.2.1)

end Cert.Kernel.Heads

end
-- ==== Proof.Kernel.HeadsDat.lean ====
/- The third kernel of the program: the accumulation point by point over the 8 x 8 grid, the region's invariant and the
   proof data. -/
import proofs.«176482_j3831110828045_2_alg».proof.Proof.Kernel.HeadsOuts

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## What the outputs and the accumulator hold after each point -/

/-- THE ACCUMULATION. What the three outputs' staging buffers and the accumulator hold after the body at position `n`
    (windows 3, 4, 5, then the accumulator): at a point with inner coordinate 0 the accumulator is the first product
    over zeros; at any other point it is the point before's accumulator plus this point's product; at a point with
    inner coordinate 7 the three outputs are the heads of the finished sum. -/
def outsAt (c : Dev nD) : (n : ℕ) → n < cfg2.N → Vec F S2048x64 .f32 × Vec F S2048x64 .f32 × Vec F S2048x64 .f32 × Vec F S2048x128 .f32
  | 0, hn => (idle_3, idle_4, idle_5, sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM (Memref.isWhole_whole _) ((hcond0 ⟨0, hn⟩).mpr (Nat.zero_mod _)) (fun h => (fun h7 : (0 : ℕ) % 8 = 7 => by omega) ((hcond1 ⟨0, hn⟩).mp h)) (iblk V c 0 ⟨0, hn⟩) (iblk V c 1 ⟨0, hn⟩) (iblk V c 2 ⟨0, hn⟩))
  | n + 1, hn =>
    if h0 : (n + 1) % 8 = 0 then
      (idle_3, idle_4, idle_5, sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) ((hcond0 ⟨n + 1, hn⟩).mpr h0) (fun h => (fun h7 : (n + 1) % 8 = 7 => by omega) ((hcond1 ⟨n + 1, hn⟩).mp h)) (iblk V c 0 ⟨n + 1, hn⟩) (iblk V c 1 ⟨n + 1, hn⟩) (iblk V c 2 ⟨n + 1, hn⟩))
    else
      if h1 : (n + 1) % 8 = 7 then
        (out_C_3 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2, out_C_4 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2, out_C_5 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2, sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2)
      else
        (idle_3, idle_4, idle_5, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.2.2)

/-- `outsAt` at a point of case A. -/
theorem outsAt_A (c : Dev nD) (t : Fin cfg2.N) (h0 : t.val % 8 = 0) (hc1 : ¬cond1 (grid2.coords t)) :
    outsAt V c t.val t.isLt = (idle_3, idle_4, idle_5, sout_A c (grid2.coords t) (ms_0 t) (hs_0 t) (ms_1 t) (hs_1 t) (ms_2 t) (hs_2 t) (ms_3 t) (hs_3 t) (ms_4 t) (hs_4 t) (ms_5 t) (hs_5 t) scM (Memref.isWhole_whole _) ((hcond0 t).mpr h0) hc1 (iblk V c 0 t) (iblk V c 1 t) (iblk V c 2 t)) := by
  obtain ⟨n, hn⟩ := t
  cases n with
  | zero => exact rfl
  | succ n => exact (dif_pos h0).trans rfl

/-- `outsAt` at a point of case B: over what the point before left. -/
theorem outsAt_B (c : Dev nD) (t : Fin cfg2.N) (h0 : ¬t.val % 8 = 0) (h1 : ¬t.val % 8 = 7) :
    outsAt V c t.val t.isLt = (idle_3, idle_4, idle_5, sout_B c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: over what the point before left. -/
theorem outsAt_C (c : Dev nD) (t : Fin cfg2.N) (h0 : ¬t.val % 8 = 0) (h1 : t.val % 8 = 7) :
    outsAt V c t.val t.isLt = (out_C_3 c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2, out_C_4 c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2, out_C_5 c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2, sout_C c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the core that this kernel never touches (the earlier kernels' staging buffers and accumulator),
    each at some contents, and the generator register at some state. -/
def restS (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

/-- What the region is entered with splits into the accumulator at anything and the rest; -/
theorem PhiA_split (c : Dev nD) : (Pipeline.ΦA spec2 c : sProp 𝕄) ⊢ iprop((∃ d, owns (c : Thread nD τ) scM fullShare d) ∗ restS (F := F) c) := by
  rw [PhiA_eq]; unfold restS
  iintro ⟨⟨R1, R2, R3, R4, R5, R6, R7, R8, R9, R10, R11, R12, R13, HS⟩, Hg⟩
  isplitl [HS]; · iexact HS
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

/-- and is put together again from them. -/
theorem PhiA_join (c : Dev nD) : iprop((∃ d, owns (c : Thread nD τ) scM fullShare d) ∗ restS (F := F) c) ⊢ (Pipeline.ΦA spec2 c : sProp 𝕄) := by
  rw [PhiA_eq]; unfold restS
  iintro ⟨HS, ⟨R1, R2, R3, R4, R5, R6, R7, R8, R9, R10, R11, R12, R13⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact HS
  iexact Hg

/-- The region invariant before position `n`: before the first point the accumulator at anything; afterwards the
    accumulator at what the point before left in it (`outsAt`'s last component); beside it the rest, untouched. -/
def PhiS (c : Dev nD) : (n : ℕ) → n ≤ cfg2.N → sProp 𝕄
  | 0, _ => iprop((∃ d, owns (c : Thread nD τ) scM fullShare d) ∗ restS (F := F) c)
  | n + 1, hn => iprop(owns (c : Thread nD τ) scM fullShare ((outsAt V c n hn).2.2.2) ∗ restS (F := F) c)

theorem PhiS_zero (c : Dev nD) (n : ℕ) (h : n ≤ cfg2.N) (hz : n = 0) :
    PhiS V c n h = iprop((∃ d, owns (c : Thread nD τ) scM fullShare d) ∗ restS (F := F) c) := by
  subst hz; rfl

theorem PhiS_succ (c : Dev nD) (n : ℕ) (hn : n < cfg2.N) :
    PhiS V c (n + 1) hn = iprop(owns (c : Thread nD τ) scM fullShare ((outsAt V c n hn).2.2.2) ∗ restS (F := F) c) := rfl

theorem PhiS_pos (c : Dev nD) (n : ℕ) (h : n ≤ cfg2.N) (hz : n ≠ 0) :
    PhiS V c n h = iprop(owns (c : Thread nD τ) scM fullShare ((outsAt V c (n - 1) (by omega)).2.2.2) ∗ restS (F := F) c) := by
  cases n with
  | zero => exact absurd rfl hz
  | succ n => rfl

/-! ## The proof data -/

/-- The proof data of this kernel's pipeline on core `c`: the arrays as the region finds them (`V`); after the body at
    point `t` each input's buffer at its block and the outputs' at `outsAt`'s components; the invariant `PhiS`;
    nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
    | ⟨5, _⟩ => (outsAt V c t.val t.isLt).2.2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]
theorem after_4 (c : Dev nD) (t : Fin cfg2.N) : (dat V c).after 4 t = (outsAt V c t.val t.isLt).2.1 := by dsimp only [dat]
theorem after_5 (c : Dev nD) (t : Fin cfg2.N) : (dat V c).after 5 t = (outsAt V c t.val t.isLt).2.2.1 := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

end Cert.Kernel.Heads

end
-- ==== Proof.Kernel.Heads.lean ====
/- The third kernel of the program: the body obligation of its pipeline at every grid point, by the three control cases,
   and the invariant's two ends. Then what the accumulator and the outputs hold, through the payloads. -/
import proofs.«176482_j3831110828045_2_alg».proof.Proof.Kernel.HeadsDat
import Idealize.ShloMosaic.Lib.Pipeline.Value

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the very first point) and
    takes it back at this point's contents; at the last point of a sweep each output is left at its stored contents,
    elsewhere handed back as found; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 8 = 0
  · have hc1 : ¬cond1 (grid2.coords t) := fun h => by have h7 := (hcond1 t).mp h; omega
    rw [Dat.leavesExact_idle (dat V c) 3 t (idleAt_3 t hc1) (noFlush_3 t hc1)]
    rw [Dat.leavesExact_idle (dat V c) 4 t (idleAt_4 t hc1) (noFlush_4 t hc1)]
    rw [Dat.leavesExact_idle (dat V c) 5 t (idleAt_5 t hc1) (noFlush_5 t hc1)]
    rw [outsAt_A V c t h0 hc1]
    unfold sout_A; (try dsimp only)
    by_cases hz : t.val = 0
    · rw [PhiS_castSucc V c t, PhiS_zero V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_A c (grid2.coords t) _ _ _ _ _ _ _ _ _ _ _ _ _ _ ((hcond0 t).mpr h0) hc1 (iblk V c 0 t) (iblk V c 1 t) (iblk V c 2 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR]
      · isplitl [HS]
        · unfold owns; iexists _; isplitr
          swap; · iexact HS
          ipureintro; exact View.read_writes_of_cover _ _ _ _ _ (scover_A c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc V c t, PhiS_pos V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_A c (grid2.coords t) _ _ _ _ _ _ _ _ _ _ _ _ _ _ ((hcond0 t).mpr h0) hc1 (iblk V c 0 t) (iblk V c 1 t) (iblk V c 2 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR]
      · isplitl [HS]
        · unfold owns; iexists _; isplitr
          swap; · iexact HS
          ipureintro; exact View.read_writes_of_cover _ _ _ _ _ (scover_A c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hc0 : ¬cond0 (grid2.coords t) := fun h => h0 ((hcond0 t).mp h)
    have hz : t.val ≠ 0 := fun hz => h0 (by rw [hz])
    by_cases h1 : t.val % 8 = 7
    · have hc1 : cond1 (grid2.coords t) := (hcond1 t).mpr h1
      rw [show (dat V c).leavesExact 3 t = owns (c : Thread nD τ) (ms_3 t) fullShare ((dat V c).after 3 t) from by
        unfold Dat.leavesExact; rw [liveAt_3 t hc1], after_3]
      rw [show (dat V c).leavesExact 4 t = owns (c : Thread nD τ) (ms_4 t) fullShare ((dat V c).after 4 t) from by
        unfold Dat.leavesExact; rw [liveAt_4 t hc1], after_4]
      rw [show (dat V c).leavesExact 5 t = owns (c : Thread nD τ) (ms_5 t) fullShare ((dat V c).after 5 t) from by
        unfold Dat.leavesExact; rw [liveAt_5 t hc1], after_5]
      rw [outsAt_C V c t h0 h1]
      unfold out_C_3 out_C_4 out_C_5 sout_C; (try dsimp only)
      rw [PhiS_castSucc V c t, PhiS_pos V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_C c (grid2.coords t) _ _ _ _ _ _ _ _ _ _ _ _ _ _ hc0 hc1 (iblk V c 0 t) (iblk V c 1 t) (iblk V c 2 t) _).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, ⟨%e3, H3⟩, ⟨%e4, H4⟩, ⟨%e5, H5⟩, ⟨%es, HS⟩⟩
      isplitl [HS HR]
      · isplitl [HS]
        · unfold owns; iexists _; isplitr
          swap; · iexact HS
          ipureintro; exact View.read_writes_of_cover _ _ _ _ _ (scover_C c _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_C_3 c _ _ _ _ _ _ _ _ _ _ _ _ _ _ _ _ _ _ _ _ _)
      isplitl [H4]
      · unfold owns; iexists _; isplitr
        swap; · iexact H4
        ipureintro; exact View.read_writes_of_cover _ _ _ _ _ (cover_C_4 c _ _ _ _ _ _ _ _ _ _ _ _ _ _ _ _ _ _ _ _ _)
      unfold owns; iexists _; isplitr
      swap; · iexact H5
      ipureintro; exact View.read_writes_of_cover _ _ _ _ _ (cover_C_5 c _ _ _ _ _ _ _ _ _ _ _ _ _ _ _ _ _ _ _ _ _)
    · have hc1 : ¬cond1 (grid2.coords t) := fun h => h1 ((hcond1 t).mp h)
      rw [Dat.leavesExact_idle (dat V c) 3 t (idleAt_3 t hc1) (noFlush_3 t hc1)]
      rw [Dat.leavesExact_idle (dat V c) 4 t (idleAt_4 t hc1) (noFlush_4 t hc1)]
      rw [Dat.leavesExact_idle (dat V c) 5 t (idleAt_5 t hc1) (noFlush_5 t hc1)]
      rw [outsAt_B V c t h0 h1]
      unfold sout_B; (try dsimp only)
      rw [PhiS_castSucc V c t, PhiS_pos V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_B c (grid2.coords t) _ _ _ _ _ _ _ _ _ _ _ _ _ _ hc0 hc1 (iblk V c 0 t) (iblk V c 1 t) (iblk V c 2 t) _).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR]
      · isplitl [HS]
        · unfold owns; iexists _; isplitr
          swap; · iexact HS
          ipureintro; exact View.read_writes_of_cover _ _ _ _ _ (scover_B c _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  exact PhiA_split c

/-- After any point but the first the invariant gives it back: the accumulator's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht]
  iintro ⟨HS, HR⟩
  iapply (PhiA_join (F := F) c)
  isplitl [HS]
  · iexists _; iexact HS
  iexact HR

/-- The same after the last point. -/
theorem hout (c : Dev nD) : (dat V c).Φ (Fin.last cfg2.N) ⊢ Pipeline.ΦA spec2 c :=
  Phi_out V c _ (by rw [Fin.val_last]; have : cfg2.N = 64 := N_2; omega)

/-! ## What each case leaves, through the payloads -/

/-- Case A leaves in the accumulator the first product over zeros. -/
theorem sout_A_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) : sout_A c i arg2 harg2 arg3 harg3 arg4 harg4 arg5 harg5 arg6 harg6 arg7 harg7 arg8 harg8 hc0 hc1 x0 x1 x2 = k2_pay2 x0 (k2_pay1 (F := F)) x1 := by
  have hz : (![0, 0] : Fin 2 → Nat) = fun _ => 0 := by funext a; fin_cases a <;> rfl
  unfold sout_A
  rw [View.read_writes_eq_canon _ _ _ (scover_A c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-- Case B leaves in the accumulator what it held plus this point's product. -/
theorem sout_B_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) : sout_B c i arg2 harg2 arg3 harg3 arg4 harg4 arg5 harg5 arg6 harg6 arg7 harg7 arg8 harg8 hc0 hc1 x0 x1 x2 xs = k2_pay2 x0 xs x1 := by
  have hz : (![0, 0] : Fin 2 → Nat) = fun _ => 0 := by funext a; fin_cases a <;> rfl
  unfold sout_B
  rw [View.read_writes_eq_canon _ _ _ (scover_B c i arg2 harg2 arg3 harg3 arg4 harg4 arg5 harg5 arg6 harg6 arg7 harg7 arg8 harg8 hc0 hc1 x0 x1 x2 xs)]
  unfold kernelRun_B
  dsimp only
  sl_unfold_words
  rw [View.canon_unit_zero hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-- Case C leaves in the accumulator what it held plus this point's product, -/
theorem sout_C_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : sout_C c i arg2 harg2 arg3 harg3 arg4 harg4 arg5 harg5 arg6 harg6 arg7 harg7 arg8 harg8 hc0 hc1 x0 x1 x2 xs = k2_pay2 x0 xs x1 := by
  have hz : (![0, 0] : Fin 2 → Nat) = fun _ => 0 := by funext a; fin_cases a <;> rfl
  unfold sout_C
  rw [View.read_writes_eq_canon _ _ _ (scover_C c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-- and in the three outputs the heads of that sum. -/
theorem out_C_3_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : out_C_3 c i arg2 harg2 arg3 harg3 arg4 harg4 arg5 harg5 arg6 harg6 arg7 harg7 arg8 harg8 hc0 hc1 x0 x1 x2 xs = k2_pay5 (k2_pay2 x0 xs x1) x2 := by
  have hz : (![0, 0] : Fin 2 → Nat) = fun _ => 0 := by funext a; fin_cases a <;> rfl
  unfold out_C_3
  rw [View.read_writes_eq_canon _ _ _ (cover_C_3 c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]
theorem out_C_4_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : out_C_4 c i arg2 harg2 arg3 harg3 arg4 harg4 arg5 harg5 arg6 harg6 arg7 harg7 arg8 harg8 hc0 hc1 x0 x1 x2 xs = k2_pay3 (k2_pay2 x0 xs x1) := by
  have hz : (![0, 0] : Fin 2 → Nat) = fun _ => 0 := by funext a; fin_cases a <;> rfl
  unfold out_C_4
  rw [View.read_writes_eq_canon _ _ _ (cover_C_4 c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]
theorem out_C_5_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : out_C_5 c i arg2 harg2 arg3 harg3 arg4 harg4 arg5 harg5 arg6 harg6 arg7 harg7 arg8 harg8 hc0 hc1 x0 x1 x2 xs = k2_pay4 (k2_pay2 x0 xs x1) := by
  have hz : (![0, 0] : Fin 2 → Nat) = fun _ => 0 := by funext a; fin_cases a <;> rfl
  unfold out_C_5
  rw [View.read_writes_eq_canon _ _ _ (cover_C_5 c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-! ## The accumulation and the heads, through the payloads -/

/-- At the first point of a sweep over the inner axis the accumulator holds the first product over zeros. -/
theorem acc_first (c : Dev nD) (t : Fin cfg2.N) (h : t.val % 8 = 0) : (outsAt V c t.val t.isLt).2.2.2 = k2_pay2 (iblk V c 0 t) (k2_pay1 (F := F)) (iblk V c 1 t) := by
  have hc1 : ¬cond1 (grid2.coords t) := fun h' => by have h7 := (hcond1 t).mp h'; omega
  rw [outsAt_A V c t h hc1]; dsimp only
  exact sout_A_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) ((hcond0 t).mpr h) hc1 (iblk V c 0 t) (iblk V c 1 t) (iblk V c 2 t)

/-- At every other point it holds what the point before left plus this point's product. -/
theorem acc_next (c : Dev nD) (t : Fin cfg2.N) (h : t.val % 8 ≠ 0) : (outsAt V c t.val t.isLt).2.2.2 = k2_pay2 (iblk V c 0 t) (outsAt V c (t.val - 1) (Nat.lt_of_le_of_lt (Nat.sub_le _ _) t.isLt)).2.2.2 (iblk V c 1 t) := by
  by_cases h1 : t.val % 8 = 7
  · rw [outsAt_C V c t h h1]; dsimp only
    exact sout_C_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h ((hcond0 t).mp h')) ((hcond1 t).mpr h1) (iblk V c 0 t) (iblk V c 1 t) (iblk V c 2 t) (outsAt V c (t.val - 1) (Nat.lt_of_le_of_lt (Nat.sub_le _ _) t.isLt)).2.2.2
  · rw [outsAt_B V c t h h1]; dsimp only
    exact sout_B_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h ((hcond0 t).mp h')) (fun h' => h1 ((hcond1 t).mp h')) (iblk V c 0 t) (iblk V c 1 t) (iblk V c 2 t) (outsAt V c (t.val - 1) (Nat.lt_of_le_of_lt (Nat.sub_le _ _) t.isLt)).2.2.2

/-- At the last point of a sweep the three outputs hold the heads of the finished sum. -/
theorem out_last (c : Dev nD) (t : Fin cfg2.N) (h : t.val % 8 = 7) : (outsAt V c t.val t.isLt).1 = k2_pay5 (outsAt V c t.val t.isLt).2.2.2 (iblk V c 2 t) ∧ (outsAt V c t.val t.isLt).2.1 = k2_pay3 (outsAt V c t.val t.isLt).2.2.2 ∧ (outsAt V c t.val t.isLt).2.2.1 = k2_pay4 (outsAt V c t.val t.isLt).2.2.2 := by
  have h0 : ¬t.val % 8 = 0 := by omega
  rw [outsAt_C V c t h0 h]; dsimp only
  rw [sout_C_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2]
  exact ⟨out_C_3_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2,
    out_C_4_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2,
    out_C_5_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2⟩

end Cert.Kernel.Heads

end
-- ==== Proof.Kernel.Whole.lean ====
/-
  The whole program as a run: the contents of the core's buffers at each boundary of @main (the launch memory; after
  the first pallas_call, whose output array is what its write-backs leave; after the two host operations that join
  and convert the head weights; after the second and the third pallas_call), every pipeline's proof data at the
  contents its region is entered from, each pallas_call as a segment between two such boundaries, and the run: every
  weakly fair execution terminates with every unscoped buffer at the last boundary's contents. Each argument array
  reads back through the boundaries to the launch memory: no host operation and no region writes one.
-/
import proofs.«176482_j3831110828045_2_alg».proof.Proof.Kernel.Dense
import proofs.«176482_j3831110828045_2_alg».proof.Proof.Kernel.Fused
import proofs.«176482_j3831110828045_2_alg».proof.Proof.Kernel.Heads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pallas_call: its arrays at what the pipeline leaves, every other buffer as entered. -/
def W1 (c : Dev nD) : Valuation τ sig (Elt F) :=
  Pipeline.withArrays spec0 c (W0 m ρ c) fun w => (Dense.dat (V0 m ρ) c).arrAt w cfg0.N
theorem W1_arr (c : Dev nD) (w : Fin cfg0.W) :
    W1 m ρ c (Proc.devRef .tc (Pipeline.arrRef spec0 w)) = (Dense.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Dense.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second pallas_call. -/
def W3 (c : Dev nD) : Valuation τ sig (Elt F) :=
  Pipeline.withArrays spec1 c (W2 m ρ c) fun w => (Fused.dat (V2 m ρ) c).arrAt w cfg1.N
theorem W3_arr (c : Dev nD) (w : Fin cfg1.W) :
    W3 m ρ c (Proc.devRef .tc (Pipeline.arrRef spec1 w)) = (Fused.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Fused.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the third pallas_call. -/
def W4 (c : Dev nD) : Valuation τ sig (Elt F) :=
  Pipeline.withArrays spec2 c (W3 m ρ c) fun w => (Heads.dat (V3 m ρ) c).arrAt w cfg2.N
theorem W4_arr (c : Dev nD) (w : Fin cfg2.W) :
    W4 m ρ c (Proc.devRef .tc (Pipeline.arrRef spec2 w)) = (Heads.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Heads.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The two host operations write only the joined weights and their converted copy. -/
theorem W2_keep (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    exact ⟨StableHlo.devRef_ne_of_ne h1, StableHlo.devRef_ne_of_ne h2⟩))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((Heads.dat (V3 m ρ) c).arrAt_in 0 rfl _).trans (Heads.A_eq (V3 m ρ) c 0))
    _ = W2 m ρ c (Proc.devRef .tc main_arg0) := (W3_arr m ρ c 0).trans (((Fused.dat (V2 m ρ) c).arrAt_in 0 rfl _).trans (Fused.A_eq (V2 m ρ) c 0))
    _ = W1 m ρ c (Proc.devRef .tc main_arg0) := W2_keep m ρ c main_arg0 (by decide) (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_keep m ρ c main_arg1 (by decide) (by decide)
    _ = W0 m ρ c (Proc.devRef .tc main_arg1) := (W1_arr m ρ c 0).trans (((Dense.dat (V0 m ρ) c).arrAt_in 0 rfl _).trans (Dense.A_eq (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_keep m ρ c main_arg2 (by decide) (by decide)
    _ = W0 m ρ c (Proc.devRef .tc main_arg2) := (W1_arr m ρ c 1).trans (((Dense.dat (V0 m ρ) c).arrAt_in 1 rfl _).trans (Dense.A_eq (V0 m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_keep m ρ c main_arg3 (by decide) (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_keep m ρ c main_arg4 (by decide) (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((Heads.dat (V3 m ρ) c).arrAt_in 2 rfl _).trans (Heads.A_eq (V3 m ρ) c 2))
    _ = W2 m ρ c (Proc.devRef .tc main_arg5) := W3_of_ne m ρ c main_arg5 (by decide)
    _ = W1 m ρ c (Proc.devRef .tc main_arg5) := W2_keep m ρ c main_arg5 (by decide) (by decide)
    _ = W0 m ρ c (Proc.devRef .tc main_arg5) := W1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Dense.dat (V0 m ρ) c
  | ⟨1, _⟩ => fun c => Fused.dat (V2 m ρ) c
  | ⟨2, _⟩ => fun c => Heads.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The three pallas_calls as segments: each region's arrays split out of the unscoped buffers at entry and put
    back at the exit contents, the generator register into the region's invariant and out, nothing owed. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 0).pre c (fun _ => fullShare) (adm 0).1 ∗ Pipeline.scopedRest spec0 c)
        ⊢ (Pipeline.ΦA spec0 c : sProp 𝕄) from by
      unfold Pipeline.ΦA
      iintro ⟨Hp, -, Hr⟩
      isplitl [Hr]; · iexact Hr
      iexact Hp).trans (show Pipeline.ΦA spec0 c ⊢ (pdats m ρ 0 c).Φ 0 from BI.Entails.refl _)
  hout c := by
    rw [Pipeline.ownSems0_none]
    exact (show (pdats m ρ 0 c).Φ (Fin.last _) ⊢ Pipeline.ΦA spec0 c from BI.Entails.refl _).trans
      (show (Pipeline.ΦA spec0 c : sProp 𝕄) ⊢ iprop((∃ r, prngReg c r) ∗ BI.emp ∗ Pipeline.scopedRest spec0 c) from by
        unfold Pipeline.ΦA
        iintro ⟨Hr, Hp⟩
        isplitl [Hp]; · iexact Hp
        isplitr; · iempintro
        iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fused.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm 1).1 ∗ Pipeline.scopedRest spec1 c)
        ⊢ (Pipeline.ΦA spec1 c : sProp 𝕄) from by
      unfold Pipeline.ΦA
      iintro ⟨Hp, -, Hr⟩
      isplitl [Hr]; · iexact Hr
      iexact Hp).trans (show Pipeline.ΦA spec1 c ⊢ (pdats m ρ 1 c).Φ 0 from Fused.hin (V2 m ρ) c)
  hout c := by
    rw [Pipeline.ownSems0_none]
    exact (show (pdats m ρ 1 c).Φ (Fin.last _) ⊢ Pipeline.ΦA spec1 c from Fused.hout (V2 m ρ) c).trans
      (show (Pipeline.ΦA spec1 c : sProp 𝕄) ⊢ iprop((∃ r, prngReg c r) ∗ BI.emp ∗ Pipeline.scopedRest spec1 c) from by
        unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Heads.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 2).pre c (fun _ => fullShare) (adm 2).1 ∗ Pipeline.scopedRest spec2 c)
        ⊢ (Pipeline.ΦA spec2 c : sProp 𝕄) from by
      unfold Pipeline.ΦA
      iintro ⟨Hp, -, Hr⟩
      isplitl [Hr]; · iexact Hr
      iexact Hp).trans (show Pipeline.ΦA spec2 c ⊢ (pdats m ρ 2 c).Φ 0 from Heads.hin (V3 m ρ) c)
  hout c := by
    rw [Pipeline.ownSems0_none]
    exact (show (pdats m ρ 2 c).Φ (Fin.last _) ⊢ Pipeline.ΦA spec2 c from Heads.hout (V3 m ρ) c).trans
      (show (Pipeline.ΦA spec2 c : sProp 𝕄) ⊢ iprop((∃ r, prngReg c r) ∗ BI.emp ∗ Pipeline.scopedRest spec2 c) from by
        unfold Pipeline.ΦA
        iintro ⟨Hr, Hp⟩
        isplitl [Hp]; · iexact Hp
        isplitr; · iempintro
        iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.Kernel.Whole

end
-- ==== Proof.KernelIdeal.Dense.lean ====
/-
  The first pallas_call: v0 = x · W0, one block of 2048 rows of x per grid point (8 points), W0 whole at every
  point. Stated at a parameter `V`, the contents of the core's buffers when the region is entered: the block of
  each window at a point, what the body leaves in the output's staging buffer (one whole store of the product of
  the point's two input blocks), the body's triple, the pipeline's proof data and its body obligation.
-/
import proofs.«176482_j3831110828045_2_alg».proof.Proof.Gen.KernelIdeal.Launch
import proofs.«176482_j3831110828045_2_alg».proof.Proof.Gen.KernelIdeal.Skeleton
import proofs.«176482_j3831110828045_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of x: the current staging buffer holds the point's block, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- W0, fetched at the first point only: its one block never moves, so the buffer holds it at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S2048x512 := Rect.unit (s := S2048x512) ![0, 0] S2048x512.size inb_S2048x512_S2048x512_0_0
abbrev rW : Rect S512x256 := Rect.unit (s := S512x256) ![0, 0] S512x256.size inb_S512x256_S512x256_0_0
abbrev rO : Rect S2048x256 := Rect.unit (s := S2048x256) ![0, 0] S2048x256.size inb_S2048x256_S2048x256_0_0

/-- What the body leaves in the output's staging buffer: its one store, the product of the two loaded blocks. -/
def out_2 (x0 : Vec F S2048x512 .f32) (x1 : Vec F S512x256 .f32) : Vec F S2048x256 .bf16 :=
  View.canon [⟨rO, k0_pay1 (View.ld x0 rX) (View.ld x1 rW)⟩]

/-- The one store covers the buffer. -/
theorem cover_2 (p0 : Vec F S2048x256 .bf16) (y : S2048x256.Idx) :
    ∃ pc ∈ ([⟨rO, p0⟩] : List (View.Piece (Elt F) S2048x256 .bf16)), y ∈ pc.1.set :=
  View.cover_of_tiled [⟨rO, p0⟩] S2048x256.size (by rfl) y

/-! ## The body's triple -/

set_option maxHeartbeats 1000000 in
/-- On whole staging memrefs, the inputs' at contents `x0`, `x1` and the output's at anything, the body runs to the
    continuation holding the inputs' as they were and the output's at `out_2 x0 x1`. -/
theorem sound_kernel (c : Dev nD) (E : Set ℕ) (i : grid0.Coords) (arg1 : Memref sig .tc .vmem S2048x512 .f32) (harg1 : arg1.IsWhole)
    (arg2 : Memref sig .tc .vmem S512x256 .f32) (harg2 : arg2.IsWhole) (arg3 : Memref sig .tc .vmem S2048x256 .bf16) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-! ## The pipeline's proof data -/

/-- The arrays as the region finds them; after the body at point `t` each input's buffer at its block and the output's
    at the product of the point's blocks; the invariant the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out_2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out_2 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Dense

end
-- ==== Proof.KernelIdeal.FusedRuns.lean ====
import proofs.«176482_j3831110828045_2_alg».proof.Proof.Gen.KernelIdeal.Launch
import proofs.«176482_j3831110828045_2_alg».proof.Proof.Gen.KernelIdeal.Skeleton
import proofs.«176482_j3831110828045_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks

The second pallas_call sweeps an 8 x 8 grid, the second coordinate `k` innermost: point `t = 8 * i + k`.
Window 0 is block `(i, k)` of the adjacency matrix, window 1 is row block `k` of the dense layer's output,
window 2 is the whole concatenated weight matrix, window 3 (the output) is row block `i` of the result.
Everything is stated at a parameter `V`: the buffer contents when the region is entered. -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same for input window 2 (fetched once: its block index never moves). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's first conditional: the inner coordinate `k` is 0 (the sweep over `k` starts,
    the accumulator is cleared). -/
abbrev cond_0 (i : grid1.Coords) : Prop := (Scalar.cmpi .ne (Scalar.extui (Scalar.cmpi .eq (BitVec.ofNat 32 (i 1).val) 0#32)) 0#32) = 1#1
/-- It holds at the points ≡ 0 (mod 8). -/
theorem hcond_0 : ∀ t : Fin cfg1.N, cond_0 (grid1.coords t) ↔ t.val % 8 = 0 :=
  (by decide +kernel : ∀ t : Fin grid1.N, cond_0 (grid1.coords t) ↔ t.val % 8 = 0)

/-- The condition of the body's second conditional: `k` is 7 (the sweep ends, the output block is stored). -/
abbrev cond_1 (i : grid1.Coords) : Prop := k1_cond2 i = 1#1
/-- It holds at the points ≡ 7 (mod 8). -/
theorem hcond_1 : ∀ t : Fin cfg1.N, cond_1 (grid1.coords t) ↔ t.val % 8 = 7 :=
  (by decide +kernel : ∀ t : Fin grid1.N, cond_1 (grid1.coords t) ↔ t.val % 8 = 7)

/-! ## Where the windows are idle -/

/-- The inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
/-- Where `k = 0` the output window is idle: nothing is stored into it, -/
theorem idleAt_3_A : ∀ t : Fin cfg1.N, cond_0 (grid1.coords t) → ¬cond_1 (grid1.coords t) → cfg1.idle 3 (grid1.coords t) = true := by decide +kernel
/-- and its block is not written back. -/
theorem noFlush_3_A : ∀ t : Fin cfg1.N, cond_0 (grid1.coords t) → ¬cond_1 (grid1.coords t) → (cfg1.win 3).flush t = false := by decide +kernel
/-- Where `0 < k < 7` the same. -/
theorem idleAt_3_B : ∀ t : Fin cfg1.N, ¬cond_0 (grid1.coords t) → ¬cond_1 (grid1.coords t) → cfg1.idle 3 (grid1.coords t) = true := by decide +kernel
theorem noFlush_3_B : ∀ t : Fin cfg1.N, ¬cond_0 (grid1.coords t) → ¬cond_1 (grid1.coords t) → (cfg1.win 3).flush t = false := by decide +kernel
/-- Where `k = 7` the output window is live: its block is stored. -/
theorem liveAt_3_C : ∀ t : Fin cfg1.N, ¬cond_0 (grid1.coords t) → cond_1 (grid1.coords t) → cfg1.idle 3 (grid1.coords t) = false := by decide +kernel

/-! ## The staging memrefs and the accumulator -/

/-- One staging buffer of the output window, through which its contents are stated (the choice does not matter). -/
abbrev VO_3 : View sig .tc .vmem S2048x128 .bf16 := (Memref.whole cc1_stg3_0 : Memref sig .tc .vmem S2048x128 .bf16).view
/-- Each window's current staging memref at point `t`, and its wholeness. -/
abbrev ms_0 (t : Fin cfg1.N) : Memref sig .tc .vmem S2048x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x256 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x128 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x128 .bf16 := win1_3.stage (cfg1.slots t 3)
abbrev hs_3 (t : Fin cfg1.N) : (ms_3 t).IsWhole := hstage1_3 ((cfg1.slots t 3).cast nbuf1_3)
/-- The accumulator: a whole scoped buffer of the kernel's own, passed beside the windows, -/
abbrev scM : Memref sig .tc .vmem S2048x256 .f32 := Memref.whole cc1_scratch0
/-- and as a view: what it holds between points is stated through it. -/
abbrev VS : View sig .tc .vmem S2048x256 .f32 := scM.view

/-- The scoped buffers listed after the accumulator that this pallas_call never touches (the third
    pallas_call's staging buffers and accumulator), each whole at some contents. -/
def restTail (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f))

/-- The scoped buffers that are no staging buffer of this pallas_call, with `P` saying what the accumulator
    holds: the first pallas_call's staging buffers at anything, the accumulator, the rest at anything. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ P ∗ restTail (F := F) c)

/-- The invariant the launch hands the region, with the accumulator as a memref owned at some contents. -/
theorem PhiA_eq (c : Dev nD) :
    (Pipeline.ΦA spec1 c : sProp 𝕄)
      = iprop(restWith c iprop(∃ d, owns (c : Thread nD τ) scM fullShare d) ∗ (∃ r, prngReg c r)) := by
  unfold Pipeline.ΦA restWith restTail; rw [scopedRest1_eq]; simp only [scM, owns_whole]; try rfl

end Cert.KernelIdeal.Fused

end
-- ==== Proof.KernelIdeal.FusedRunA.lean ====
import proofs.«176482_j3831110828045_2_alg».proof.Proof.KernelIdeal.FusedRuns

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `k = 0` (first conditional taken, second not), on whole memrefs: the three inputs at their
    contents, the output's buffer at contents `xi3` handed back untouched, the accumulator at anything. It runs to
    the continuation holding the inputs as they were and the accumulator with its pieces written (last first: the
    accumulated block, over the zeros): the pieces are the witness the symbolic run finds. -/
noncomputable def kernelRun_A (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__adj_fused_kernel i arg2 harg2 arg3 harg3 arg4 harg4 arg5 harg5 arg6 harg6) K } := by
  refine ⟨[], ?_, fun xi3 E K => ?run⟩
  case run =>
    simp only [cc1__adj_fused_kernel_eq_skeleton]; unfold cc1__adj_fused_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fused

end
-- ==== Proof.KernelIdeal.FusedRunB.lean ====
import proofs.«176482_j3831110828045_2_alg».proof.Proof.KernelIdeal.FusedRunA

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `0 < k < 7` (neither conditional taken), on whole memrefs: the three inputs at their contents,
    the output's buffer at contents `xi3` handed back untouched, the accumulator at what the point before left
    (`xs0`). It runs to the continuation holding the inputs as they were and the accumulator with its one piece
    written (the accumulated block). -/
noncomputable def kernelRun_B (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) :
    Σ' (L3 : List (View.Piece (Elt F) S2048x128 .bf16)), { LS0 : List (View.Piece (Elt F) S2048x256 .f32) //
      ∀ (xi3 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__adj_fused_kernel i arg2 harg2 arg3 harg3 arg4 harg4 arg5 harg5 arg6 harg6) K } := by
  refine ⟨[], ?_, fun xi3 E K => ?run⟩
  case run =>
    simp only [cc1__adj_fused_kernel_eq_skeleton]; unfold cc1__adj_fused_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fused

end
-- ==== Proof.KernelIdeal.FusedRunC.lean ====
import proofs.«176482_j3831110828045_2_alg».proof.Proof.KernelIdeal.FusedRunB

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where `k = 7` (first conditional not taken, second taken), on whole memrefs: the three inputs at
    their contents, the output's buffer at anything, the accumulator at what the point before left (`xs0`). It runs
    to the continuation holding the inputs as they were, the output's buffer with its one piece written (the
    finished block) and the accumulator with its one piece written (the accumulated block). -/
noncomputable def kernelRun_C (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) :
    Σ' (L3 : List (View.Piece (Elt F) S2048x128 .bf16)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__adj_fused_kernel i arg2 harg2 arg3 harg3 arg4 harg4 arg5 harg5 arg6 harg6) K } := by
  refine ⟨?_, ?_, fun E K => ?run⟩
  case run =>
    simp only [cc1__adj_fused_kernel_eq_skeleton]; unfold cc1__adj_fused_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fused

end
-- ==== Proof.KernelIdeal.Fused.lean ====
import proofs.«176482_j3831110828045_2_alg».proof.Proof.KernelIdeal.FusedRunC
import Idealize.ShloMosaic.Lib.Pipeline.Value

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the output's buffer and in the accumulator -/

/-- Where `k = 0` nothing is stored into the output's buffer (the window is idle there and not written back):
    no pieces — a placeholder nothing consults. -/
def out_A_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) : Vec F S2048x128 .bf16 :=
  VO_3.read (Elt F) (VO_3.writes (Elt F) VO_3.junk (kernelRun_A c i arg2 harg2 arg3 harg3 arg4 harg4 arg5 harg5 arg6 harg6 hc0 hc1 x0 x1 x2).1)

/-- Where `k = 0` the pieces stored into the accumulator (the accumulated block over the zeros) cover it. -/
theorem scover_A (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) (y : S2048x256.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S2048x256.size (by sl_kernel_rfl) y

/-- What the accumulator holds after a point with `k = 0`: its pieces read back. -/
def sout_A (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) : Vec F S2048x256 .f32 :=
  VS.read (Elt F) (VS.writes (Elt F) VS.junk (kernelRun_A c i arg2 harg2 arg3 harg3 arg4 harg4 arg5 harg5 arg6 harg6 hc0 hc1 x0 x1 x2).2.1)

/-- Where `0 < k < 7` nothing is stored into the output's buffer either. -/
def out_B_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) : Vec F S2048x128 .bf16 :=
  VO_3.read (Elt F) (VO_3.writes (Elt F) VO_3.junk (kernelRun_B c i arg2 harg2 arg3 harg3 arg4 harg4 arg5 harg5 arg6 harg6 hc0 hc1 x0 x1 x2 xs0).1)

/-- Where `0 < k < 7` the one piece stored into the accumulator covers it. -/
theorem scover_B (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) (y : S2048x256.Idx) :
    ∃ pc ∈ (kernelRun_B c i arg2 harg2 arg3 harg3 arg4 harg4 arg5 harg5 arg6 harg6 hc0 hc1 x0 x1 x2 xs0).2.1, y ∈ pc.1.set :=
  View.cover_of_tiledL (kernelRun_B c i arg2 harg2 arg3 harg3 arg4 harg4 arg5 harg5 arg6 harg6 hc0 hc1 x0 x1 x2 xs0).2.1 S2048x256.size (by sl_kernel_rfl) y

/-- What the accumulator holds after a point with `0 < k < 7`. -/
def sout_B (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) : Vec F S2048x256 .f32 :=
  VS.read (Elt F) (VS.writes (Elt F) VS.junk (kernelRun_B c i arg2 harg2 arg3 harg3 arg4 harg4 arg5 harg5 arg6 harg6 hc0 hc1 x0 x1 x2 xs0).2.1)

/-- Where `k = 7` the one piece stored into the output's buffer covers its block. -/
theorem cover_C_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) (y : S2048x128.Idx) :
    ∃ pc ∈ (kernelRun_C c i arg2 harg2 arg3 harg3 arg4 harg4 arg5 harg5 arg6 harg6 hc0 hc1 x0 x1 x2 xs0).1, y ∈ pc.1.set :=
  View.cover_of_tiledL (kernelRun_C c i arg2 harg2 arg3 harg3 arg4 harg4 arg5 harg5 arg6 harg6 hc0 hc1 x0 x1 x2 xs0).1 S2048x128.size (by sl_kernel_rfl) y

/-- What the output's buffer holds after a point with `k = 7`: the finished block. -/
def out_C_3 (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) : Vec F S2048x128 .bf16 :=
  VO_3.read (Elt F) (VO_3.writes (Elt F) VO_3.junk (kernelRun_C c i arg2 harg2 arg3 harg3 arg4 harg4 arg5 harg5 arg6 harg6 hc0 hc1 x0 x1 x2 xs0).1)

/-- Where `k = 7` the one piece stored into the accumulator covers it. -/
theorem scover_C (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) (y : S2048x256.Idx) :
    ∃ pc ∈ (kernelRun_C c i arg2 harg2 arg3 harg3 arg4 harg4 arg5 harg5 arg6 harg6 hc0 hc1 x0 x1 x2 xs0).2.1, y ∈ pc.1.set :=
  View.cover_of_tiledL (kernelRun_C c i arg2 harg2 arg3 harg3 arg4 harg4 arg5 harg5 arg6 harg6 hc0 hc1 x0 x1 x2 xs0).2.1 S2048x256.size (by sl_kernel_rfl) y

/-- What the accumulator holds after a point with `k = 7`. -/
def sout_C (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) : Vec F S2048x256 .f32 :=
  VS.read (Elt F) (VS.writes (Elt F) VS.junk (kernelRun_C c i arg2 harg2 arg3 harg3 arg4 harg4 arg5 harg5 arg6 harg6 hc0 hc1 x0 x1 x2 xs0).2.1)

/-! ## What the output's buffer and the accumulator hold after each point -/

/-- The accumulation. After the body at position `n`: (the output window's staging buffer, the accumulator) —
    the case the closed forms select at `n`, run at the point's memrefs and input blocks, the accumulator entering
    the cases `k ≠ 0` at what this leaves at `n - 1`. -/
def outsAt (c : Dev nD) : (n : ℕ) → n < cfg1.N → Vec F S2048x128 .bf16 × Vec F S2048x256 .f32
  | 0, hn => (out_A_3 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩))
  | n + 1, hn =>
    if h0 : (n + 1) % 8 = 0 then
      if h1 : (n + 1) % 8 = 7 then
        False.elim (by omega)
      else
        (out_A_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩))
    else
      if h1 : (n + 1) % 8 = 7 then
        (out_C_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (out_B_3 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (outsAt c n (Nat.lt_of_succ_lt hn)).2)

/-- `outsAt` at a point with `k = 0`. -/
theorem outsAt_A (c : Dev nD) (t : Fin cfg1.N) (h0 : t.val % 8 = 0) (h1 : ¬t.val % 8 = 7) :
    outsAt V c t.val t.isLt = (out_A_3 c (grid1.coords t) (ms_0 t) (hs_0 t) (ms_1 t) (hs_1 t) (ms_2 t) (hs_2 t) (ms_3 t) (hs_3 t) scM (Memref.isWhole_whole _) ((hcond_0 t).mpr h0) (fun h => h1 ((hcond_1 t).mp h)) (iblk V c 0 t) (iblk V c 1 t) (iblk V c 2 t), sout_A c (grid1.coords t) (ms_0 t) (hs_0 t) (ms_1 t) (hs_1 t) (ms_2 t) (hs_2 t) (ms_3 t) (hs_3 t) scM (Memref.isWhole_whole _) ((hcond_0 t).mpr h0) (fun h => h1 ((hcond_1 t).mp h)) (iblk V c 0 t) (iblk V c 1 t) (iblk V c 2 t)) := by
  obtain ⟨n, hn⟩ := t
  cases n with
  | zero => exact rfl
  | succ n => exact (dif_pos h0).trans ((dif_neg h1).trans rfl)

/-- `outsAt` at a point with `0 < k < 7`: over what the point before left in the accumulator. -/
theorem outsAt_B (c : Dev nD) (t : Fin cfg1.N) (h0 : ¬t.val % 8 = 0) (h1 : ¬t.val % 8 = 7) :
    outsAt V c t.val t.isLt = (out_B_3 c (grid1.coords t) (ms_0 t) (hs_0 t) (ms_1 t) (hs_1 t) (ms_2 t) (hs_2 t) (ms_3 t) (hs_3 t) scM (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2, sout_B c (grid1.coords t) (ms_0 t) (hs_0 t) (ms_1 t) (hs_1 t) (ms_2 t) (hs_2 t) (ms_3 t) (hs_3 t) scM (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a point with `k = 7`: over what the point before left in the accumulator. -/
theorem outsAt_C (c : Dev nD) (t : Fin cfg1.N) (h0 : ¬t.val % 8 = 0) (h1 : t.val % 8 = 7) :
    outsAt V c t.val t.isLt = (out_C_3 c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2, sout_C c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator
    at anything); afterwards the accumulator at what the point before left in it, the other scoped buffers at
    anything and the generator register at some state. -/
def PhiS (c : Dev nD) : (n : ℕ) → n ≤ cfg1.N → sProp 𝕄
  | 0, _ => Pipeline.ΦA spec1 c
  | n + 1, hn => iprop(restWith c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(restWith c (owns (c : Thread nD τ) scM fullShare ((outsAt V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(restWith c (owns (c : Thread nD τ) scM fullShare ((outsAt V c (n - 1) (by omega)).2)) ∗ (∃ r, prngReg c r)) := by
  cases n with
  | zero => exact absurd rfl hz
  | succ n => rfl

/-! ## The pipeline's proof data -/

/-- The proof data of this pipeline on core `c`: the arrays as the region finds them (`V`); after the body at
    point `t` each input's buffer at its block and the output's at `outsAt`'s first component; the invariant `PhiS`;
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in;
    the invariant hands the body the accumulator at what the point before left (at anything at the first point)
    and takes it back at this point's contents, the pieces covering it; where `k ≠ 7` the output's buffer is handed
    back as found, where `k = 7` at the finished block; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg1.N = 64 from N_1)
  by_cases h0 : t.val % 8 = 0
  · by_cases h1 : t.val % 8 = 7
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond_0 t).mpr h0) (fun h => h1 ((hcond_1 t).mp h))) (noFlush_3_A t ((hcond_0 t).mpr h0) (fun h => h1 ((hcond_1 t).mp h)))]
      rw [outsAt_A V c t h0 h1]
      unfold sout_A; (try dsimp only)
      by_cases hz : t.val = 0
      ·
        rw [PhiS_castSucc V c t, PhiS_zero V c _ _ hz, PhiA_eq]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_A c (grid1.coords t) _ _ _ _ _ _ _ _ _ _ ((hcond_0 t).mpr h0) (fun h => h1 ((hcond_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_A c _ _ _ _ _ _ _ _ _ _ _ _ _ _ _ _)
            iexact HRt
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_A c (grid1.coords t) _ _ _ _ _ _ _ _ _ _ ((hcond_0 t).mpr h0) (fun h => h1 ((hcond_1 t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_A c _ _ _ _ _ _ _ _ _ _ _ _ _ _ _ _)
            iexact HRt
          iexact Hg
        isplitl [Ho]; · iexact Ho
        isplitl [H0]; · iexact H0
        isplitl [H1]; · iexact H1
        isplitl [H2]; · iexact H2
        iexists _; iexact H3
  · by_cases h1 : t.val % 8 = 7
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond_0 t).mp h)) ((hcond_1 t).mpr h1)], after_3]
      rw [outsAt_C V c t h0 h1]
      unfold out_C_3 sout_C; (try dsimp only)
      by_cases hz : t.val = 0
      · exfalso; omega
      ·
        rw [PhiS_castSucc V c t, PhiS_pos V c _ _ hz]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_C c (grid1.coords t) _ _ _ _ _ _ _ _ _ _ (fun h => h0 ((hcond_0 t).mp h)) ((hcond_1 t).mpr h1) (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_C c _ _ _ _ _ _ _ _ _ _ _ _ _ _ _ _ _)
            iexact HRt
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C_3 c _ _ _ _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond_0 t).mp h)) (fun h => h1 ((hcond_1 t).mp h))) (noFlush_3_B t (fun h => h0 ((hcond_0 t).mp h)) (fun h => h1 ((hcond_1 t).mp h)))]
      rw [outsAt_B V c t h0 h1]
      unfold sout_B; (try dsimp only)
      by_cases hz : t.val = 0
      · exfalso; omega
      ·
        rw [PhiS_castSucc V c t, PhiS_pos V c _ _ hz]
        unfold restWith
        iintro ⟨⟨⟨HR0, HR1, HR2, HR3, HR4, HS0, HRt⟩, Hg⟩, Ho, ⟨%d0, H0⟩, ⟨%d1, H1⟩, ⟨%d2, H2⟩, ⟨%d3, H3⟩⟩
        iapply ((kernelRun_B c (grid1.coords t) _ _ _ _ _ _ _ _ _ _ (fun h => h0 ((hcond_0 t).mp h)) (fun h => h1 ((hcond_1 t).mp h)) (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HS0 HRt Hg]
        · isplitl [HR0 HR1 HR2 HR3 HR4 HS0 HRt]
          · isplitl [HR0]; · iexact HR0
            isplitl [HR1]; · iexact HR1
            isplitl [HR2]; · iexact HR2
            isplitl [HR3]; · iexact HR3
            isplitl [HR4]; · iexact HR4
            isplitl [HS0]
            · unfold owns; iexists _; isplitr
              swap; · iexact HS0
              ipureintro; exact View.read_writes_of_cover _ _ _ _ _ (scover_B c _ _ _ _ _ _ _ _ _ _ _ _ _ _ _ _ _)
            iexact HRt
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold restWith
  iintro ⟨⟨HR0, HR1, HR2, HR3, HR4, HS0, HRt⟩, Hg⟩
  isplitl [HR0 HR1 HR2 HR3 HR4 HS0 HRt]
  ·
    isplitl [HR0]; · iexact HR0
    isplitl [HR1]; · iexact HR1
    isplitl [HR2]; · iexact HR2
    isplitl [HR3]; · iexact HR3
    isplitl [HR4]; · iexact HR4
    isplitl [HS0]; · iexists _; iexact HS0
    iexact HRt
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

/-! ## The contents, through the payloads

Each case's pieces read back: one covering store through the whole-buffer rectangle leaves its payload, and a load
through it reads the contents. So after a point with `k = 0` the accumulator is the zero block plus the product of
the point's adjacency block with its feature block; after any other point what it held plus that product; and the
block stored where `k = 7` is the output payload of the accumulator as that same point leaves it. -/

/-- The zero offsets, however spelt. -/
theorem hz : (![0, 0] : Fin 2 → Nat) = fun _ => 0 := funext fun a => by fin_cases a <;> rfl

/-- Where `k = 0`: the accumulator ends at the accumulation payload over the zero block. -/
theorem sout_A_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : cond_0 i) (hc1 : ¬cond_1 i)
    (x0 : Vec F S2048x2048 .f32) (x1 : Vec F S2048x256 .bf16) (x2 : Vec F S256x128 .bf16) :
    sout_A c i arg2 harg2 arg3 harg3 arg4 harg4 arg5 harg5 arg6 harg6 hc0 hc1 x0 x1 x2 = k1_pay2 x0 (k1_pay1 (F := F)) x1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S2048x256) hz, View.readCov_unit_zero (S := S2048x256) _ hz]
  simp only [View.readAt_eq_ld, harg2.read_unread, harg3.read_unread, View.ld_unit_zero (S := S2048x2048) hz, View.ld_unit_zero (S := S2048x256) hz]

/-- Where `0 < k < 7`: the accumulator ends at the accumulation payload over what it held. -/
theorem sout_B_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : ¬cond_1 i)
    (x0 : Vec F S2048x2048 .f32) (x1 : Vec F S2048x256 .bf16) (x2 : Vec F S256x128 .bf16) (xs0 : Vec F S2048x256 .f32) :
    sout_B c i arg2 harg2 arg3 harg3 arg4 harg4 arg5 harg5 arg6 harg6 hc0 hc1 x0 x1 x2 xs0 = k1_pay2 x0 xs0 x1 := by
  unfold sout_B
  rw [View.read_writes_eq_canon _ _ _ (scover_B c i arg2 harg2 arg3 harg3 arg4 harg4 arg5 harg5 arg6 harg6 hc0 hc1 x0 x1 x2 xs0)]
  unfold kernelRun_B
  dsimp only
  sl_unfold_words
  rw [View.canon_unit_zero (S := S2048x256) hz]
  simp only [View.readAt_eq_ld, harg2.read_unread, harg3.read_unread, harg6.read_unread, View.ld_unit_zero (S := S2048x2048) hz, View.ld_unit_zero (S := S2048x256) hz]

/-- Where `k = 7`: the same for the accumulator, -/
theorem sout_C_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) :
    sout_C c i arg2 harg2 arg3 harg3 arg4 harg4 arg5 harg5 arg6 harg6 hc0 hc1 x0 x1 x2 xs0 = k1_pay2 x0 xs0 x1 := by
  unfold sout_C
  rw [View.read_writes_eq_canon _ _ _ (scover_C c i arg2 harg2 arg3 harg3 arg4 harg4 arg5 harg5 arg6 harg6 hc0 hc1 x0 x1 x2 xs0)]
  unfold kernelRun_C
  dsimp only
  sl_unfold_words
  rw [View.canon_unit_zero (S := S2048x256) hz]
  simp only [View.readAt_eq_ld, harg2.read_unread, harg3.read_unread, harg6.read_unread, View.ld_unit_zero (S := S2048x2048) hz, View.ld_unit_zero (S := S2048x256) hz]

/-- and the output's buffer ends at the output payload of that accumulator and the weight block. -/
theorem out_C_3_eq (c : Dev nD) (i : grid1.Coords) (arg2 : Memref sig .tc .vmem S2048x2048 .f32) (harg2 : arg2.IsWhole) (arg3 : Memref sig .tc .vmem S2048x256 .bf16) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x256 .f32) (harg6 : arg6.IsWhole) (hc0 : ¬cond_0 i) (hc1 : cond_1 i)
    (x0 : Vec F S2048x2048 .f32) (x1 : Vec F S2048x256 .bf16) (x2 : Vec F S256x128 .bf16) (xs0 : Vec F S2048x256 .f32) :
    out_C_3 c i arg2 harg2 arg3 harg3 arg4 harg4 arg5 harg5 arg6 harg6 hc0 hc1 x0 x1 x2 xs0 = k1_pay3 (k1_pay2 x0 xs0 x1) x2 := by
  unfold out_C_3
  rw [View.read_writes_eq_canon _ _ _ (cover_C_3 c i arg2 harg2 arg3 harg3 arg4 harg4 arg5 harg5 arg6 harg6 hc0 hc1 x0 x1 x2 xs0)]
  unfold kernelRun_C
  dsimp only
  sl_unfold_words
  rw [View.canon_unit_zero (S := S2048x128) hz, View.readCov_unit_zero (S := S2048x256) _ hz]
  simp only [View.readAt_eq_ld, harg2.read_unread, harg3.read_unread, harg4.read_unread, harg6.read_unread, View.ld_unit_zero (S := S2048x2048) hz, View.ld_unit_zero (S := S2048x256) hz, View.ld_unit_zero (S := S256x128) hz]

/-- After a point with `k = 0` the accumulator holds the zero block plus the point's product. -/
theorem acc_first (c : Dev nD) (t : Fin cfg1.N) (h : t.val % 8 = 0) : (outsAt V c t.val t.isLt).2 = k1_pay2 (iblk V c 0 t) (k1_pay1 (F := F)) (iblk V c 1 t) := by
  have h0 : t.val % 8 = 0 := h
  have h1 : ¬t.val % 8 = 7 := by omega
  rw [outsAt_A V c t h0 h1]
  dsimp only
  exact sout_A_eq c (grid1.coords t) (ms_0 t) (hs_0 t) (ms_1 t) (hs_1 t) (ms_2 t) (hs_2 t) (ms_3 t) (hs_3 t) scM (Memref.isWhole_whole _) ((hcond_0 t).mpr h0) (fun h => h1 ((hcond_1 t).mp h)) (iblk V c 0 t) (iblk V c 1 t) (iblk V c 2 t)

/-- After any other point it holds what the point before left plus the point's product. -/
theorem acc_next (c : Dev nD) (t : Fin cfg1.N) (h : t.val % 8 ≠ 0) : (outsAt V c t.val t.isLt).2 = k1_pay2 (iblk V c 0 t) (outsAt V c (t.val - 1) (Nat.lt_of_le_of_lt (Nat.sub_le _ _) t.isLt)).2 (iblk V c 1 t) := by
  have h0 : ¬t.val % 8 = 0 := h
  by_cases h1 : t.val % 8 = 7
  · rw [outsAt_C V c t h0 h1]
    dsimp only
    exact sout_C_eq c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2
  · rw [outsAt_B V c t h0 h1]
    dsimp only
    exact sout_B_eq c (grid1.coords t) (ms_0 t) (hs_0 t) (ms_1 t) (hs_1 t) (ms_2 t) (hs_2 t) (ms_3 t) (hs_3 t) scM (Memref.isWhole_whole _) (fun h => h0 ((hcond_0 t).mp h)) (fun h => h1 ((hcond_1 t).mp h)) (iblk V c 0 t) (iblk V c 1 t) (iblk V c 2 t) (outsAt V c (t.val - 1) (Nat.lt_of_le_of_lt (Nat.sub_le _ _) t.isLt)).2

/-- Where `k = 7` the block stored is the output payload of the accumulator as that point leaves it. -/
theorem out_last (c : Dev nD) (t : Fin cfg1.N) (h : t.val % 8 = 7) : (outsAt V c t.val t.isLt).1 = k1_pay3 (outsAt V c t.val t.isLt).2 (iblk V c 2 t) := by
  have h0 : ¬t.val % 8 = 0 := by omega
  have h1 : t.val % 8 = 7 := h
  rw [outsAt_C V c t h0 h1]
  dsimp only
  rw [sout_C_eq c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2]
  exact out_C_3_eq c (grid1.coords t) (ms_0 t) (hs_0 t) (ms_1 t) (hs_1 t) (ms_2 t) (hs_2 t) (ms_3 t) (hs_3 t) scM (Memref.isWhole_whole _) (fun h => h0 ((hcond_0 t).mp h)) ((hcond_1 t).mpr h1) (iblk V c 0 t) (iblk V c 1 t) (iblk V c 2 t) (outsAt V c (t.val - 1) (Nat.lt_of_le_of_lt (Nat.sub_le _ _) t.isLt)).2

end Cert.KernelIdeal.Fused

end
-- ==== Proof.KernelIdeal.HeadsRuns.lean ====
/- The third kernel of the program (the adjacency-times-features product accumulated over the inner grid axis, then
   the three heads): what its three control cases share. Window blocks read off the region-entry contents, the two
   branch conditions in closed form over the 8 x 8 grid, where the output windows are idle, and the names of the
   staging and scratch memrefs. -/
import proofs.«176482_j3831110828045_2_alg».proof.Proof.Gen.KernelIdeal.Launch
import proofs.«176482_j3831110828045_2_alg».proof.Proof.Gen.KernelIdeal.Skeleton
import proofs.«176482_j3831110828045_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the adjacency block (i, k)) holds its block at every point, for any proof data whose array is
    `V`'s and whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 (the feature block k) likewise. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2 (the noise block i) likewise: it is fetched only at the first point of a sweep over k, and between
    fetches its block index does not move, so its buffer still holds the block. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition (the inner coordinate k is 0), from the grid coordinates. -/
abbrev cond0 (i : grid2.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg2.N, cond0 (grid2.coords t) ↔ t.val % 8 = 0 :=
  (by decide +kernel : ∀ t : Fin grid2.N, cond0 (grid2.coords t) ↔ t.val % 8 = 0)

/-- The second conditional's condition (the inner coordinate k is 7), from the grid coordinates. -/
abbrev cond1 (i : grid2.Coords) : Prop := k2_cond2 i = 1#1
/-- It holds at the points ≡ 7 (mod 8). -/
theorem hcond1 : ∀ t : Fin cfg2.N, cond1 (grid2.coords t) ↔ t.val % 8 = 7 :=
  (by decide +kernel : ∀ t : Fin grid2.N, cond1 (grid2.coords t) ↔ t.val % 8 = 7)

/-! ## Where the windows are idle -/

/-- The three inputs are never idle. -/
theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- Away from the last point of a sweep the three outputs are idle and not written back. -/
theorem idleAt_3 : ∀ t : Fin cfg2.N, ¬cond1 (grid2.coords t) → cfg2.idle 3 (grid2.coords t) = true := by decide +kernel
theorem idleAt_4 : ∀ t : Fin cfg2.N, ¬cond1 (grid2.coords t) → cfg2.idle 4 (grid2.coords t) = true := by decide +kernel
theorem idleAt_5 : ∀ t : Fin cfg2.N, ¬cond1 (grid2.coords t) → cfg2.idle 5 (grid2.coords t) = true := by decide +kernel
theorem noFlush_3 : ∀ t : Fin cfg2.N, ¬cond1 (grid2.coords t) → (cfg2.win 3).flush t = false := by decide +kernel
theorem noFlush_4 : ∀ t : Fin cfg2.N, ¬cond1 (grid2.coords t) → (cfg2.win 4).flush t = false := by decide +kernel
theorem noFlush_5 : ∀ t : Fin cfg2.N, ¬cond1 (grid2.coords t) → (cfg2.win 5).flush t = false := by decide +kernel
/-- At the last point of a sweep they are live: the body stores each whole. -/
theorem liveAt_3 : ∀ t : Fin cfg2.N, cond1 (grid2.coords t) → cfg2.idle 3 (grid2.coords t) = false := by decide +kernel
theorem liveAt_4 : ∀ t : Fin cfg2.N, cond1 (grid2.coords t) → cfg2.idle 4 (grid2.coords t) = false := by decide +kernel
theorem liveAt_5 : ∀ t : Fin cfg2.N, cond1 (grid2.coords t) → cfg2.idle 5 (grid2.coords t) = false := by decide +kernel

/-! ## The staging and scratch memrefs -/

/-- One staging buffer of each output window, through which its contents are stated (the choice does not matter). -/
abbrev VO_3 : View sig .tc .vmem S2048x64 .f32 := (Memref.whole cc2_stg3_0 : Memref sig .tc .vmem S2048x64 .f32).view
abbrev VO_4 : View sig .tc .vmem S2048x64 .f32 := (Memref.whole cc2_stg4_0 : Memref sig .tc .vmem S2048x64 .f32).view
abbrev VO_5 : View sig .tc .vmem S2048x64 .f32 := (Memref.whole cc2_stg5_0 : Memref sig .tc .vmem S2048x64 .f32).view
/-- Each window's current staging memref at point `t`, as the pipeline passes it, and its wholeness. -/
abbrev ms_0 (t : Fin cfg2.N) : Memref sig .tc .vmem S2048x2048 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x128 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S2048x64 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S2048x64 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S2048x64 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S2048x64 .f32 := win2_5.stage (cfg2.slots t 5)
abbrev hs_5 (t : Fin cfg2.N) : (ms_5 t).IsWhole := hstage2_5 ((cfg2.slots t 5).cast nbuf2_5)
/-- The accumulator: a whole scoped buffer of the kernel's own, passed beside the windows and carried between points. -/
abbrev scM : Memref sig .tc .vmem S2048x128 .f32 := Memref.whole cc2_scratch0
/-- The same as a view: what it holds is stated through it. -/
abbrev VS : View sig .tc .vmem S2048x128 .f32 := scM.view

/-- The region's invariant with the accumulator as a memref owned at some contents: the other scoped buffers (the
    earlier kernels' staging buffers and accumulator) at anything, and the generator register at some state. -/
theorem PhiA_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ d, owns (c : Thread nD τ) scM fullShare d)) ∗ (∃ r, prngReg c r)) := by
  unfold Pipeline.ΦA; rw [scopedRest2_eq]; simp only [scM, owns_whole]; try rfl

end Cert.KernelIdeal.Heads

end
-- ==== Proof.KernelIdeal.HeadsRunA.lean ====
/- The body of the third kernel at the first point of a sweep over the inner grid axis (k = 0): the accumulator is zeroed and
   then receives the first product; the three outputs are not touched. -/
import proofs.«176482_j3831110828045_2_alg».proof.Proof.KernelIdeal.HeadsRuns

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

set_option maxHeartbeats 1000000 in
/-- CASE A (first conditional taken, second not). On whole memrefs — the inputs at their contents, the three outputs at
    contents handed back untouched, the accumulator at anything — the body runs to the continuation holding the inputs
    and the outputs as they were and the accumulator with the found pieces written (zeros, then zeros plus the
    product of the adjacency block and the feature block). -/
noncomputable def kernelRun_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) :
    { LS : List (View.Piece (Elt F) S2048x128 .f32) //
      ∀ (xi3 xi4 xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__adj_heads_kernel i arg2 harg2 arg3 harg3 arg4 harg4 arg5 harg5 arg6 harg6 arg7 harg7 arg8 harg8) K } := by
  refine ⟨?_, fun xi3 xi4 xi5 E K => ?run⟩
  case run =>
    simp only [cc2__adj_heads_kernel_eq_skeleton]; unfold cc2__adj_heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Heads

end
-- ==== Proof.KernelIdeal.HeadsRunB.lean ====
/- The body of the third kernel at a middle point of a sweep over the inner grid axis (0 < k < 7): the accumulator receives one
   more product; the three outputs are not touched. -/
import proofs.«176482_j3831110828045_2_alg».proof.Proof.KernelIdeal.HeadsRunA

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

set_option maxHeartbeats 1000000 in
/-- CASE B (neither conditional taken). On whole memrefs — the inputs at their contents, the three outputs at contents
    handed back untouched, the accumulator at what the point before left — the body runs to the continuation holding
    the inputs and the outputs as they were and the accumulator with the found piece written (its contents plus the
    product of the adjacency block and the feature block). -/
noncomputable def kernelRun_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) :
    { LS : List (View.Piece (Elt F) S2048x128 .f32) //
      ∀ (xi3 xi4 xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__adj_heads_kernel i arg2 harg2 arg3 harg3 arg4 harg4 arg5 harg5 arg6 harg6 arg7 harg7 arg8 harg8) K } := by
  refine ⟨?_, fun xi3 xi4 xi5 E K => ?run⟩
  case run =>
    simp only [cc2__adj_heads_kernel_eq_skeleton]; unfold cc2__adj_heads_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Heads

end
-- ==== Proof.KernelIdeal.HeadsRunC.lean ====
/- The body of the third kernel at the last point of a sweep over the inner grid axis (k = 7): the accumulator receives the last
   product, and the three outputs are each stored whole from it. -/
import proofs.«176482_j3831110828045_2_alg».proof.Proof.KernelIdeal.HeadsRunB

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

set_option maxHeartbeats 1000000 in
/-- CASE C (first conditional not taken, second taken). On whole memrefs — the inputs at their contents, the three
    outputs at anything, the accumulator at what the point before left — the body runs to the continuation holding the
    inputs as they were, the accumulator with the found piece written, and each output with its found piece written. -/
noncomputable def kernelRun_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) :
    Σ' (L3 : List (View.Piece (Elt F) S2048x64 .f32)) (L4 : List (View.Piece (Elt F) S2048x64 .f32)) (L5 : List (View.Piece (Elt F) S2048x64 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2__adj_heads_kernel i arg2 harg2 arg3 harg3 arg4 harg4 arg5 harg5 arg6 harg6 arg7 harg7 arg8 harg8) K } := by
  refine ⟨?_, ?_, ?_, ?_, fun E K => ?run⟩
  case run =>
    simp only [cc2__adj_heads_kernel_eq_skeleton]; unfold cc2__adj_heads_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    iexists _; iexact HS

end Cert.KernelIdeal.Heads

end
-- ==== Proof.KernelIdeal.HeadsOuts.lean ====
/- The third kernel of the program: what each control case leaves in the accumulator and in the three outputs, the
   accumulation point by point over the 8 x 8 grid, the region's invariant and the proof data. -/
import proofs.«176482_j3831110828045_2_alg».proof.Proof.KernelIdeal.HeadsRunC

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## What each case leaves -/

/-- The outputs' staging buffers at the points that store nothing into them: placeholders that nothing consults (at
    these points the windows are neither written back nor read at the next point). -/
def idle_3 : Vec F S2048x64 .f32 := VO_3.read (Elt F) (VO_3.writes (Elt F) VO_3.junk [])
def idle_4 : Vec F S2048x64 .f32 := VO_4.read (Elt F) (VO_4.writes (Elt F) VO_4.junk [])
def idle_5 : Vec F S2048x64 .f32 := VO_5.read (Elt F) (VO_5.writes (Elt F) VO_5.junk [])

/-- Case A's pieces for the accumulator cover it. -/
theorem scover_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) (y : S2048x128.Idx) :
    ∃ pc ∈ (kernelRun_A c i arg2 harg2 arg3 harg3 arg4 harg4 arg5 harg5 arg6 harg6 arg7 harg7 arg8 harg8 hc0 hc1 x0 x1 x2).1, y ∈ pc.1.set :=
  View.cover_of_tiledL (kernelRun_A c i arg2 harg2 arg3 harg3 arg4 harg4 arg5 harg5 arg6 harg6 arg7 harg7 arg8 harg8 hc0 hc1 x0 x1 x2).1 S2048x128.size (by sl_kernel_rfl) y

/-- What case A leaves in the accumulator: its pieces read back. -/
def sout_A (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) : Vec F S2048x128 .f32 :=
  VS.read (Elt F) (VS.writes (Elt F) VS.junk (kernelRun_A c i arg2 harg2 arg3 harg3 arg4 harg4 arg5 harg5 arg6 harg6 arg7 harg7 arg8 harg8 hc0 hc1 x0 x1 x2).1)

/-- Case B's piece for the accumulator covers it. -/
theorem scover_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) (y : S2048x128.Idx) :
    ∃ pc ∈ (kernelRun_B c i arg2 harg2 arg3 harg3 arg4 harg4 arg5 harg5 arg6 harg6 arg7 harg7 arg8 harg8 hc0 hc1 x0 x1 x2 xs).1, y ∈ pc.1.set :=
  View.cover_of_tiledL (kernelRun_B c i arg2 harg2 arg3 harg3 arg4 harg4 arg5 harg5 arg6 harg6 arg7 harg7 arg8 harg8 hc0 hc1 x0 x1 x2 xs).1 S2048x128.size (by sl_kernel_rfl) y

/-- What case B leaves in the accumulator. -/
def sout_B (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) : Vec F S2048x128 .f32 :=
  VS.read (Elt F) (VS.writes (Elt F) VS.junk (kernelRun_B c i arg2 harg2 arg3 harg3 arg4 harg4 arg5 harg5 arg6 harg6 arg7 harg7 arg8 harg8 hc0 hc1 x0 x1 x2 xs).1)

/-- Case C's piece for each output covers its block, and its piece for the accumulator covers it. -/
theorem cover_C_3 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x64.Idx) :
    ∃ pc ∈ (kernelRun_C c i arg2 harg2 arg3 harg3 arg4 harg4 arg5 harg5 arg6 harg6 arg7 harg7 arg8 harg8 hc0 hc1 x0 x1 x2 xs).1, y ∈ pc.1.set :=
  View.cover_of_tiledL (kernelRun_C c i arg2 harg2 arg3 harg3 arg4 harg4 arg5 harg5 arg6 harg6 arg7 harg7 arg8 harg8 hc0 hc1 x0 x1 x2 xs).1 S2048x64.size (by sl_kernel_rfl) y
theorem cover_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x64.Idx) :
    ∃ pc ∈ (kernelRun_C c i arg2 harg2 arg3 harg3 arg4 harg4 arg5 harg5 arg6 harg6 arg7 harg7 arg8 harg8 hc0 hc1 x0 x1 x2 xs).2.1, y ∈ pc.1.set :=
  View.cover_of_tiledL (kernelRun_C c i arg2 harg2 arg3 harg3 arg4 harg4 arg5 harg5 arg6 harg6 arg7 harg7 arg8 harg8 hc0 hc1 x0 x1 x2 xs).2.1 S2048x64.size (by sl_kernel_rfl) y
theorem cover_C_5 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x64.Idx) :
    ∃ pc ∈ (kernelRun_C c i arg2 harg2 arg3 harg3 arg4 harg4 arg5 harg5 arg6 harg6 arg7 harg7 arg8 harg8 hc0 hc1 x0 x1 x2 xs).2.2.1, y ∈ pc.1.set :=
  View.cover_of_tiledL (kernelRun_C c i arg2 harg2 arg3 harg3 arg4 harg4 arg5 harg5 arg6 harg6 arg7 harg7 arg8 harg8 hc0 hc1 x0 x1 x2 xs).2.2.1 S2048x64.size (by sl_kernel_rfl) y
theorem scover_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) (y : S2048x128.Idx) :
    ∃ pc ∈ (kernelRun_C c i arg2 harg2 arg3 harg3 arg4 harg4 arg5 harg5 arg6 harg6 arg7 harg7 arg8 harg8 hc0 hc1 x0 x1 x2 xs).2.2.2.1, y ∈ pc.1.set :=
  View.cover_of_tiledL (kernelRun_C c i arg2 harg2 arg3 harg3 arg4 harg4 arg5 harg5 arg6 harg6 arg7 harg7 arg8 harg8 hc0 hc1 x0 x1 x2 xs).2.2.2.1 S2048x128.size (by sl_kernel_rfl) y

/-- What case C leaves in each output's staging buffer and in the accumulator. -/
def out_C_3 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x64 .f32 :=
  VO_3.read (Elt F) (VO_3.writes (Elt F) VO_3.junk (kernelRun_C c i arg2 harg2 arg3 harg3 arg4 harg4 arg5 harg5 arg6 harg6 arg7 harg7 arg8 harg8 hc0 hc1 x0 x1 x2 xs).1)
def out_C_4 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x64 .f32 :=
  VO_4.read (Elt F) (VO_4.writes (Elt F) VO_4.junk (kernelRun_C c i arg2 harg2 arg3 harg3 arg4 harg4 arg5 harg5 arg6 harg6 arg7 harg7 arg8 harg8 hc0 hc1 x0 x1 x2 xs).2.1)
def out_C_5 (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x64 .f32 :=
  VO_5.read (Elt F) (VO_5.writes (Elt F) VO_5.junk (kernelRun_C c i arg2 harg2 arg3 harg3 arg4 harg4 arg5 harg5 arg6 harg6 arg7 harg7 arg8 harg8 hc0 hc1 x0 x1 x2 xs).2.2.1)
def sout_C (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : Vec F S2048x128 .f32 :=
  VS.read (Elt F) (VS.writes (Elt F) VS.junk (kernelRun_C c i arg2 harg2 arg3 harg3 arg4 harg4 arg5 harg5 arg6 harg6 arg7 harg7 arg8 harg8 hc0 hc1 x0 x1 x2 xs).2.2.2.1)

end Cert.KernelIdeal.Heads

end
-- ==== Proof.KernelIdeal.HeadsDat.lean ====
/- The third kernel of the program: the accumulation point by point over the 8 x 8 grid, the region's invariant and the
   proof data. -/
import proofs.«176482_j3831110828045_2_alg».proof.Proof.KernelIdeal.HeadsOuts

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## What the outputs and the accumulator hold after each point -/

/-- THE ACCUMULATION. What the three outputs' staging buffers and the accumulator hold after the body at position `n`
    (windows 3, 4, 5, then the accumulator): at a point with inner coordinate 0 the accumulator is the first product
    over zeros; at any other point it is the point before's accumulator plus this point's product; at a point with
    inner coordinate 7 the three outputs are the heads of the finished sum. -/
def outsAt (c : Dev nD) : (n : ℕ) → n < cfg2.N → Vec F S2048x64 .f32 × Vec F S2048x64 .f32 × Vec F S2048x64 .f32 × Vec F S2048x128 .f32
  | 0, hn => (idle_3, idle_4, idle_5, sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM (Memref.isWhole_whole _) ((hcond0 ⟨0, hn⟩).mpr (Nat.zero_mod _)) (fun h => (fun h7 : (0 : ℕ) % 8 = 7 => by omega) ((hcond1 ⟨0, hn⟩).mp h)) (iblk V c 0 ⟨0, hn⟩) (iblk V c 1 ⟨0, hn⟩) (iblk V c 2 ⟨0, hn⟩))
  | n + 1, hn =>
    if h0 : (n + 1) % 8 = 0 then
      (idle_3, idle_4, idle_5, sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) ((hcond0 ⟨n + 1, hn⟩).mpr h0) (fun h => (fun h7 : (n + 1) % 8 = 7 => by omega) ((hcond1 ⟨n + 1, hn⟩).mp h)) (iblk V c 0 ⟨n + 1, hn⟩) (iblk V c 1 ⟨n + 1, hn⟩) (iblk V c 2 ⟨n + 1, hn⟩))
    else
      if h1 : (n + 1) % 8 = 7 then
        (out_C_3 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2, out_C_4 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2, out_C_5 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2, sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.2.2)
      else
        (idle_3, idle_4, idle_5, sout_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.2.2)

/-- `outsAt` at a point of case A. -/
theorem outsAt_A (c : Dev nD) (t : Fin cfg2.N) (h0 : t.val % 8 = 0) (hc1 : ¬cond1 (grid2.coords t)) :
    outsAt V c t.val t.isLt = (idle_3, idle_4, idle_5, sout_A c (grid2.coords t) (ms_0 t) (hs_0 t) (ms_1 t) (hs_1 t) (ms_2 t) (hs_2 t) (ms_3 t) (hs_3 t) (ms_4 t) (hs_4 t) (ms_5 t) (hs_5 t) scM (Memref.isWhole_whole _) ((hcond0 t).mpr h0) hc1 (iblk V c 0 t) (iblk V c 1 t) (iblk V c 2 t)) := by
  obtain ⟨n, hn⟩ := t
  cases n with
  | zero => exact rfl
  | succ n => exact (dif_pos h0).trans rfl

/-- `outsAt` at a point of case B: over what the point before left. -/
theorem outsAt_B (c : Dev nD) (t : Fin cfg2.N) (h0 : ¬t.val % 8 = 0) (h1 : ¬t.val % 8 = 7) :
    outsAt V c t.val t.isLt = (idle_3, idle_4, idle_5, sout_B c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt` at a point of case C: over what the point before left. -/
theorem outsAt_C (c : Dev nD) (t : Fin cfg2.N) (h0 : ¬t.val % 8 = 0) (h1 : t.val % 8 = 7) :
    outsAt V c t.val t.isLt = (out_C_3 c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2, out_C_4 c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2, out_C_5 c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2, sout_C c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The scoped buffers of the core that this kernel never touches (the earlier kernels' staging buffers and accumulator),
    each at some contents, and the generator register at some state. -/
def restS (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

/-- What the region is entered with splits into the accumulator at anything and the rest; -/
theorem PhiA_split (c : Dev nD) : (Pipeline.ΦA spec2 c : sProp 𝕄) ⊢ iprop((∃ d, owns (c : Thread nD τ) scM fullShare d) ∗ restS (F := F) c) := by
  rw [PhiA_eq]; unfold restS
  iintro ⟨⟨R1, R2, R3, R4, R5, R6, R7, R8, R9, R10, R11, R12, R13, HS⟩, Hg⟩
  isplitl [HS]; · iexact HS
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iexact Hg

/-- and is put together again from them. -/
theorem PhiA_join (c : Dev nD) : iprop((∃ d, owns (c : Thread nD τ) scM fullShare d) ∗ restS (F := F) c) ⊢ (Pipeline.ΦA spec2 c : sProp 𝕄) := by
  rw [PhiA_eq]; unfold restS
  iintro ⟨HS, ⟨R1, R2, R3, R4, R5, R6, R7, R8, R9, R10, R11, R12, R13⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact HS
  iexact Hg

/-- The region invariant before position `n`: before the first point the accumulator at anything; afterwards the
    accumulator at what the point before left in it (`outsAt`'s last component); beside it the rest, untouched. -/
def PhiS (c : Dev nD) : (n : ℕ) → n ≤ cfg2.N → sProp 𝕄
  | 0, _ => iprop((∃ d, owns (c : Thread nD τ) scM fullShare d) ∗ restS (F := F) c)
  | n + 1, hn => iprop(owns (c : Thread nD τ) scM fullShare ((outsAt V c n hn).2.2.2) ∗ restS (F := F) c)

theorem PhiS_zero (c : Dev nD) (n : ℕ) (h : n ≤ cfg2.N) (hz : n = 0) :
    PhiS V c n h = iprop((∃ d, owns (c : Thread nD τ) scM fullShare d) ∗ restS (F := F) c) := by
  subst hz; rfl

theorem PhiS_succ (c : Dev nD) (n : ℕ) (hn : n < cfg2.N) :
    PhiS V c (n + 1) hn = iprop(owns (c : Thread nD τ) scM fullShare ((outsAt V c n hn).2.2.2) ∗ restS (F := F) c) := rfl

theorem PhiS_pos (c : Dev nD) (n : ℕ) (h : n ≤ cfg2.N) (hz : n ≠ 0) :
    PhiS V c n h = iprop(owns (c : Thread nD τ) scM fullShare ((outsAt V c (n - 1) (by omega)).2.2.2) ∗ restS (F := F) c) := by
  cases n with
  | zero => exact absurd rfl hz
  | succ n => rfl

/-! ## The proof data -/

/-- The proof data of this kernel's pipeline on core `c`: the arrays as the region finds them (`V`); after the body at
    point `t` each input's buffer at its block and the outputs' at `outsAt`'s components; the invariant `PhiS`;
    nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
    | ⟨5, _⟩ => (outsAt V c t.val t.isLt).2.2.1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]
theorem after_4 (c : Dev nD) (t : Fin cfg2.N) : (dat V c).after 4 t = (outsAt V c t.val t.isLt).2.1 := by dsimp only [dat]
theorem after_5 (c : Dev nD) (t : Fin cfg2.N) : (dat V c).after 5 t = (outsAt V c t.val t.isLt).2.2.1 := by dsimp only [dat]

/-- Each input's current staging buffer holds its block at every point, fetched there or not. -/
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

end Cert.KernelIdeal.Heads

end
-- ==== Proof.KernelIdeal.Heads.lean ====
/- The third kernel of the program: the body obligation of its pipeline at every grid point, by the three control cases,
   and the invariant's two ends. Then what the accumulator and the outputs hold, through the payloads. -/
import proofs.«176482_j3831110828045_2_alg».proof.Proof.KernelIdeal.HeadsDat
import Idealize.ShloMosaic.Lib.Pipeline.Value

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole region is stated at
variable (V : (c : Dev nD) → (b : Ref sig .tc) → Buf (Elt F) ((c : Thread nD τ).loc b))

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which case the point is in; the
    invariant hands the body the accumulator at what the point before left (at anything at the very first point) and
    takes it back at this point's contents; at the last point of a sweep each output is left at its stored contents,
    elsewhere handed back as found; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg2.N = 64 from N_2)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  by_cases h0 : t.val % 8 = 0
  · have hc1 : ¬cond1 (grid2.coords t) := fun h => by have h7 := (hcond1 t).mp h; omega
    rw [Dat.leavesExact_idle (dat V c) 3 t (idleAt_3 t hc1) (noFlush_3 t hc1)]
    rw [Dat.leavesExact_idle (dat V c) 4 t (idleAt_4 t hc1) (noFlush_4 t hc1)]
    rw [Dat.leavesExact_idle (dat V c) 5 t (idleAt_5 t hc1) (noFlush_5 t hc1)]
    rw [outsAt_A V c t h0 hc1]
    unfold sout_A; (try dsimp only)
    by_cases hz : t.val = 0
    · rw [PhiS_castSucc V c t, PhiS_zero V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_A c (grid2.coords t) _ _ _ _ _ _ _ _ _ _ _ _ _ _ ((hcond0 t).mpr h0) hc1 (iblk V c 0 t) (iblk V c 1 t) (iblk V c 2 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR]
      · isplitl [HS]
        · unfold owns; iexists _; isplitr
          swap; · iexact HS
          ipureintro; exact View.read_writes_of_cover _ _ _ _ _ (scover_A c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc V c t, PhiS_pos V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_A c (grid2.coords t) _ _ _ _ _ _ _ _ _ _ _ _ _ _ ((hcond0 t).mpr h0) hc1 (iblk V c 0 t) (iblk V c 1 t) (iblk V c 2 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS HR]
      · isplitl [HS]
        · unfold owns; iexists _; isplitr
          swap; · iexact HS
          ipureintro; exact View.read_writes_of_cover _ _ _ _ _ (scover_A c _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hc0 : ¬cond0 (grid2.coords t) := fun h => h0 ((hcond0 t).mp h)
    have hz : t.val ≠ 0 := fun hz => h0 (by rw [hz])
    by_cases h1 : t.val % 8 = 7
    · have hc1 : cond1 (grid2.coords t) := (hcond1 t).mpr h1
      rw [show (dat V c).leavesExact 3 t = owns (c : Thread nD τ) (ms_3 t) fullShare ((dat V c).after 3 t) from by
        unfold Dat.leavesExact; rw [liveAt_3 t hc1], after_3]
      rw [show (dat V c).leavesExact 4 t = owns (c : Thread nD τ) (ms_4 t) fullShare ((dat V c).after 4 t) from by
        unfold Dat.leavesExact; rw [liveAt_4 t hc1], after_4]
      rw [show (dat V c).leavesExact 5 t = owns (c : Thread nD τ) (ms_5 t) fullShare ((dat V c).after 5 t) from by
        unfold Dat.leavesExact; rw [liveAt_5 t hc1], after_5]
      rw [outsAt_C V c t h0 h1]
      unfold out_C_3 out_C_4 out_C_5 sout_C; (try dsimp only)
      rw [PhiS_castSucc V c t, PhiS_pos V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_C c (grid2.coords t) _ _ _ _ _ _ _ _ _ _ _ _ _ _ hc0 hc1 (iblk V c 0 t) (iblk V c 1 t) (iblk V c 2 t) _).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, ⟨%e3, H3⟩, ⟨%e4, H4⟩, ⟨%e5, H5⟩, ⟨%es, HS⟩⟩
      isplitl [HS HR]
      · isplitl [HS]
        · unfold owns; iexists _; isplitr
          swap; · iexact HS
          ipureintro; exact View.read_writes_of_cover _ _ _ _ _ (scover_C c _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover_C_3 c _ _ _ _ _ _ _ _ _ _ _ _ _ _ _ _ _ _ _ _ _)
      isplitl [H4]
      · unfold owns; iexists _; isplitr
        swap; · iexact H4
        ipureintro; exact View.read_writes_of_cover _ _ _ _ _ (cover_C_4 c _ _ _ _ _ _ _ _ _ _ _ _ _ _ _ _ _ _ _ _ _)
      unfold owns; iexists _; isplitr
      swap; · iexact H5
      ipureintro; exact View.read_writes_of_cover _ _ _ _ _ (cover_C_5 c _ _ _ _ _ _ _ _ _ _ _ _ _ _ _ _ _ _ _ _ _)
    · have hc1 : ¬cond1 (grid2.coords t) := fun h => h1 ((hcond1 t).mp h)
      rw [Dat.leavesExact_idle (dat V c) 3 t (idleAt_3 t hc1) (noFlush_3 t hc1)]
      rw [Dat.leavesExact_idle (dat V c) 4 t (idleAt_4 t hc1) (noFlush_4 t hc1)]
      rw [Dat.leavesExact_idle (dat V c) 5 t (idleAt_5 t hc1) (noFlush_5 t hc1)]
      rw [outsAt_B V c t h0 h1]
      unfold sout_B; (try dsimp only)
      rw [PhiS_castSucc V c t, PhiS_pos V c _ _ hz]
      iintro ⟨⟨HS, HR⟩, Ho, ⟨%d0, H0⟩, ⟨%d1, H1⟩, ⟨%d2, H2⟩, ⟨%d3, H3⟩, ⟨%d4, H4⟩, ⟨%d5, H5⟩⟩
      iapply ((kernelRun_B c (grid2.coords t) _ _ _ _ _ _ _ _ _ _ _ _ _ _ hc0 hc1 (iblk V c 0 t) (iblk V c 1 t) (iblk V c 2 t) _).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS HR]
      · isplitl [HS]
        · unfold owns; iexists _; isplitr
          swap; · iexact HS
          ipureintro; exact View.read_writes_of_cover _ _ _ _ _ (scover_B c _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  exact PhiA_split c

/-- After any point but the first the invariant gives it back: the accumulator's named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht]
  iintro ⟨HS, HR⟩
  iapply (PhiA_join (F := F) c)
  isplitl [HS]
  · iexists _; iexact HS
  iexact HR

/-- The same after the last point. -/
theorem hout (c : Dev nD) : (dat V c).Φ (Fin.last cfg2.N) ⊢ Pipeline.ΦA spec2 c :=
  Phi_out V c _ (by rw [Fin.val_last]; have : cfg2.N = 64 := N_2; omega)

/-! ## What each case leaves, through the payloads -/

/-- Case A leaves in the accumulator the first product over zeros. -/
theorem sout_A_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : cond0 i) (hc1 : ¬cond1 i)
    (x0 : Vec F S2048x2048 .f32) (x1 : Vec F S2048x128 .bf16) (x2 : Vec F S2048x64 .f32) : sout_A c i arg2 harg2 arg3 harg3 arg4 harg4 arg5 harg5 arg6 harg6 arg7 harg7 arg8 harg8 hc0 hc1 x0 x1 x2 = k2_pay2 x0 (k2_pay1 (F := F)) x1 := by
  have hz : (![0, 0] : Fin 2 → Nat) = fun _ => 0 := by funext a; fin_cases a <;> rfl
  unfold sout_A
  rw [View.read_writes_eq_canon _ _ _ (scover_A c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-- Case B leaves in the accumulator what it held plus this point's product. -/
theorem sout_B_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : ¬cond1 i)
    (x0 : Vec F S2048x2048 .f32) (x1 : Vec F S2048x128 .bf16) (x2 : Vec F S2048x64 .f32) (xs : Vec F S2048x128 .f32) : sout_B c i arg2 harg2 arg3 harg3 arg4 harg4 arg5 harg5 arg6 harg6 arg7 harg7 arg8 harg8 hc0 hc1 x0 x1 x2 xs = k2_pay2 x0 xs x1 := by
  have hz : (![0, 0] : Fin 2 → Nat) = fun _ => 0 := by funext a; fin_cases a <;> rfl
  unfold sout_B
  rw [View.read_writes_eq_canon _ _ _ (scover_B c i arg2 harg2 arg3 harg3 arg4 harg4 arg5 harg5 arg6 harg6 arg7 harg7 arg8 harg8 hc0 hc1 x0 x1 x2 xs)]
  unfold kernelRun_B
  dsimp only
  sl_unfold_words
  rw [View.canon_unit_zero hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-- Case C leaves in the accumulator what it held plus this point's product, -/
theorem sout_C_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : sout_C c i arg2 harg2 arg3 harg3 arg4 harg4 arg5 harg5 arg6 harg6 arg7 harg7 arg8 harg8 hc0 hc1 x0 x1 x2 xs = k2_pay2 x0 xs x1 := by
  have hz : (![0, 0] : Fin 2 → Nat) = fun _ => 0 := by funext a; fin_cases a <;> rfl
  unfold sout_C
  rw [View.read_writes_eq_canon _ _ _ (scover_C c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-- and in the three outputs the heads of that sum. -/
theorem out_C_3_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : out_C_3 c i arg2 harg2 arg3 harg3 arg4 harg4 arg5 harg5 arg6 harg6 arg7 harg7 arg8 harg8 hc0 hc1 x0 x1 x2 xs = k2_pay5 (k2_pay2 x0 xs x1) x2 := by
  have hz : (![0, 0] : Fin 2 → Nat) = fun _ => 0 := by funext a; fin_cases a <;> rfl
  unfold out_C_3
  rw [View.read_writes_eq_canon _ _ _ (cover_C_3 c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]
theorem out_C_4_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : out_C_4 c i arg2 harg2 arg3 harg3 arg4 harg4 arg5 harg5 arg6 harg6 arg7 harg7 arg8 harg8 hc0 hc1 x0 x1 x2 xs = k2_pay3 (k2_pay2 x0 xs x1) := by
  have hz : (![0, 0] : Fin 2 → Nat) = fun _ => 0 := by funext a; fin_cases a <;> rfl
  unfold out_C_4
  rw [View.read_writes_eq_canon _ _ _ (cover_C_4 c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]
theorem out_C_5_eq (c : Dev nD) (i : grid2.Coords) (arg2 : Memref sig .tc .vmem S2048x2048 .f32) (harg2 : arg2.IsWhole) (arg3 : Memref sig .tc .vmem S2048x128 .bf16) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S2048x64 .f32) (harg7 : arg7.IsWhole) (arg8 : Memref sig .tc .vmem S2048x128 .f32) (harg8 : arg8.IsWhole) (hc0 : ¬cond0 i) (hc1 : cond1 i)
    (x0 : Vec F S2048x2048 .f32) (x1 : Vec F S2048x128 .bf16) (x2 : Vec F S2048x64 .f32) (xs : Vec F S2048x128 .f32) : out_C_5 c i arg2 harg2 arg3 harg3 arg4 harg4 arg5 harg5 arg6 harg6 arg7 harg7 arg8 harg8 hc0 hc1 x0 x1 x2 xs = k2_pay4 (k2_pay2 x0 xs x1) := by
  have hz : (![0, 0] : Fin 2 → Nat) = fun _ => 0 := by funext a; fin_cases a <;> rfl
  unfold out_C_5
  rw [View.read_writes_eq_canon _ _ _ (cover_C_5 c i arg2 harg2 arg3 harg3 arg4 harg4 arg5 harg5 arg6 harg6 arg7 harg7 arg8 harg8 hc0 hc1 x0 x1 x2 xs)]
  unfold kernelRun_C
  dsimp only
  sl_unfold_words
  rw [View.canon_unit_zero hz]
  rw [View.readCov_unit_zero _ hz]
  simp only [View.readAt_eq_ld, harg2.read_unread, harg3.read_unread, harg4.read_unread, harg8.read_unread, View.ld_unit_zero (S := S2048x2048) hz, View.ld_unit_zero (S := S2048x128) hz, View.ld_unit_zero (S := S2048x64) hz]

/-! ## The accumulation and the heads, through the payloads -/

/-- At the first point of a sweep over the inner axis the accumulator holds the first product over zeros. -/
theorem acc_first (c : Dev nD) (t : Fin cfg2.N) (h : t.val % 8 = 0) : (outsAt V c t.val t.isLt).2.2.2 = k2_pay2 (iblk V c 0 t) (k2_pay1 (F := F)) (iblk V c 1 t) := by
  have hc1 : ¬cond1 (grid2.coords t) := fun h' => by have h7 := (hcond1 t).mp h'; omega
  rw [outsAt_A V c t h hc1]; dsimp only
  exact sout_A_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) ((hcond0 t).mpr h) hc1 (iblk V c 0 t) (iblk V c 1 t) (iblk V c 2 t)

/-- At every other point it holds what the point before left plus this point's product. -/
theorem acc_next (c : Dev nD) (t : Fin cfg2.N) (h : t.val % 8 ≠ 0) : (outsAt V c t.val t.isLt).2.2.2 = k2_pay2 (iblk V c 0 t) (outsAt V c (t.val - 1) (Nat.lt_of_le_of_lt (Nat.sub_le _ _) t.isLt)).2.2.2 (iblk V c 1 t) := by
  by_cases h1 : t.val % 8 = 7
  · rw [outsAt_C V c t h h1]; dsimp only
    exact sout_C_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h ((hcond0 t).mp h')) ((hcond1 t).mpr h1) (iblk V c 0 t) (iblk V c 1 t) (iblk V c 2 t) (outsAt V c (t.val - 1) (Nat.lt_of_le_of_lt (Nat.sub_le _ _) t.isLt)).2.2.2
  · rw [outsAt_B V c t h h1]; dsimp only
    exact sout_B_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h ((hcond0 t).mp h')) (fun h' => h1 ((hcond1 t).mp h')) (iblk V c 0 t) (iblk V c 1 t) (iblk V c 2 t) (outsAt V c (t.val - 1) (Nat.lt_of_le_of_lt (Nat.sub_le _ _) t.isLt)).2.2.2

/-- At the last point of a sweep the three outputs hold the heads of the finished sum. -/
theorem out_last (c : Dev nD) (t : Fin cfg2.N) (h : t.val % 8 = 7) : (outsAt V c t.val t.isLt).1 = k2_pay5 (outsAt V c t.val t.isLt).2.2.2 (iblk V c 2 t) ∧ (outsAt V c t.val t.isLt).2.1 = k2_pay3 (outsAt V c t.val t.isLt).2.2.2 ∧ (outsAt V c t.val t.isLt).2.2.1 = k2_pay4 (outsAt V c t.val t.isLt).2.2.2 := by
  have h0 : ¬t.val % 8 = 0 := by omega
  rw [outsAt_C V c t h0 h]; dsimp only
  rw [sout_C_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2]
  exact ⟨out_C_3_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2,
    out_C_4_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2,
    out_C_5_eq c (grid2.coords t) (ms_0 t) (hs_0 t) (ms_1 t) (hs_1 t) (ms_2 t) (hs_2 t) (ms_3 t) (hs_3 t) (ms_4 t) (hs_4 t) (ms_5 t) (hs_5 t) scM (Memref.isWhole_whole _) (fun h' => h0 ((hcond0 t).mp h')) ((hcond1 t).mpr h) (iblk V c 0 t) (iblk V c 1 t) (iblk V c 2 t) (outsAt V c (t.val - 1) (Nat.lt_of_le_of_lt (Nat.sub_le _ _) t.isLt)).2.2.2⟩

end Cert.KernelIdeal.Heads

end
-- ==== Proof.KernelIdeal.Whole.lean ====
/-
  The whole program as a run: the contents of the core's buffers at each boundary of @main (the launch memory; after
  the first pallas_call, whose output array is what its write-backs leave; after the two host operations that join
  and convert the head weights; after the second and the third pallas_call), every pipeline's proof data at the
  contents its region is entered from, each pallas_call as a segment between two such boundaries, and the run: every
  weakly fair execution terminates with every unscoped buffer at the last boundary's contents. Each argument array
  reads back through the boundaries to the launch memory: no host operation and no region writes one.
-/
import proofs.«176482_j3831110828045_2_alg».proof.Proof.KernelIdeal.Dense
import proofs.«176482_j3831110828045_2_alg».proof.Proof.KernelIdeal.Fused
import proofs.«176482_j3831110828045_2_alg».proof.Proof.KernelIdeal.Heads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first pallas_call: its arrays at what the pipeline leaves, every other buffer as entered. -/
def W1 (c : Dev nD) : Valuation τ sig (Elt F) :=
  Pipeline.withArrays spec0 c (W0 m ρ c) fun w => (Dense.dat (V0 m ρ) c).arrAt w cfg0.N
theorem W1_arr (c : Dev nD) (w : Fin cfg0.W) :
    W1 m ρ c (Proc.devRef .tc (Pipeline.arrRef spec0 w)) = (Dense.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Dense.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host operations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second pallas_call. -/
def W3 (c : Dev nD) : Valuation τ sig (Elt F) :=
  Pipeline.withArrays spec1 c (W2 m ρ c) fun w => (Fused.dat (V2 m ρ) c).arrAt w cfg1.N
theorem W3_arr (c : Dev nD) (w : Fin cfg1.W) :
    W3 m ρ c (Proc.devRef .tc (Pipeline.arrRef spec1 w)) = (Fused.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Fused.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the third pallas_call. -/
def W4 (c : Dev nD) : Valuation τ sig (Elt F) :=
  Pipeline.withArrays spec2 c (W3 m ρ c) fun w => (Heads.dat (V3 m ρ) c).arrAt w cfg2.N
theorem W4_arr (c : Dev nD) (w : Fin cfg2.W) :
    W4 m ρ c (Proc.devRef .tc (Pipeline.arrRef spec2 w)) = (Heads.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (Heads.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The two host operations write only the joined weights and their converted copy. -/
theorem W2_keep (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, Finset.mem_singleton]
    exact ⟨StableHlo.devRef_ne_of_ne h1, StableHlo.devRef_ne_of_ne h2⟩))

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((Heads.dat (V3 m ρ) c).arrAt_in 0 rfl _).trans (Heads.A_eq (V3 m ρ) c 0))
    _ = W2 m ρ c (Proc.devRef .tc main_arg0) := (W3_arr m ρ c 0).trans (((Fused.dat (V2 m ρ) c).arrAt_in 0 rfl _).trans (Fused.A_eq (V2 m ρ) c 0))
    _ = W1 m ρ c (Proc.devRef .tc main_arg0) := W2_keep m ρ c main_arg0 (by decide) (by decide)
    _ = W0 m ρ c (Proc.devRef .tc main_arg0) := W1_of_ne m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_keep m ρ c main_arg1 (by decide) (by decide)
    _ = W0 m ρ c (Proc.devRef .tc main_arg1) := (W1_arr m ρ c 0).trans (((Dense.dat (V0 m ρ) c).arrAt_in 0 rfl _).trans (Dense.A_eq (V0 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_keep m ρ c main_arg2 (by decide) (by decide)
    _ = W0 m ρ c (Proc.devRef .tc main_arg2) := (W1_arr m ρ c 1).trans (((Dense.dat (V0 m ρ) c).arrAt_in 1 rfl _).trans (Dense.A_eq (V0 m ρ) c 1))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_keep m ρ c main_arg3 (by decide) (by decide)
    _ = W0 m ρ c (Proc.devRef .tc main_arg3) := W1_of_ne m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_keep m ρ c main_arg4 (by decide) (by decide)
    _ = W0 m ρ c (Proc.devRef .tc main_arg4) := W1_of_ne m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((Heads.dat (V3 m ρ) c).arrAt_in 2 rfl _).trans (Heads.A_eq (V3 m ρ) c 2))
    _ = W2 m ρ c (Proc.devRef .tc main_arg5) := W3_of_ne m ρ c main_arg5 (by decide)
    _ = W1 m ρ c (Proc.devRef .tc main_arg5) := W2_keep m ρ c main_arg5 (by decide) (by decide)
    _ = W0 m ρ c (Proc.devRef .tc main_arg5) := W1_of_ne m ρ c main_arg5 (by decide)
    _ = m ((c : Thread nD τ).loc main_arg5) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Dense.dat (V0 m ρ) c
  | ⟨1, _⟩ => fun c => Fused.dat (V2 m ρ) c
  | ⟨2, _⟩ => fun c => Heads.dat (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The three pallas_calls as segments: each region's arrays split out of the unscoped buffers at entry and put
    back at the exit contents, the generator register into the region's invariant and out, nothing owed. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Dense.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 0).pre c (fun _ => fullShare) (adm 0).1 ∗ Pipeline.scopedRest spec0 c)
        ⊢ (Pipeline.ΦA spec0 c : sProp 𝕄) from by
      unfold Pipeline.ΦA
      iintro ⟨Hp, -, Hr⟩
      isplitl [Hr]; · iexact Hr
      iexact Hp).trans (show Pipeline.ΦA spec0 c ⊢ (pdats m ρ 0 c).Φ 0 from BI.Entails.refl _)
  hout c := by
    rw [Pipeline.ownSems0_none]
    exact (show (pdats m ρ 0 c).Φ (Fin.last _) ⊢ Pipeline.ΦA spec0 c from BI.Entails.refl _).trans
      (show (Pipeline.ΦA spec0 c : sProp 𝕄) ⊢ iprop((∃ r, prngReg c r) ∗ BI.emp ∗ Pipeline.scopedRest spec0 c) from by
        unfold Pipeline.ΦA
        iintro ⟨Hr, Hp⟩
        isplitl [Hp]; · iexact Hp
        isplitr; · iempintro
        iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Fused.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm 1).1 ∗ Pipeline.scopedRest spec1 c)
        ⊢ (Pipeline.ΦA spec1 c : sProp 𝕄) from by
      unfold Pipeline.ΦA
      iintro ⟨Hp, -, Hr⟩
      isplitl [Hr]; · iexact Hr
      iexact Hp).trans (show Pipeline.ΦA spec1 c ⊢ (pdats m ρ 1 c).Φ 0 from Fused.hin (V2 m ρ) c)
  hout c := by
    rw [Pipeline.ownSems0_none]
    exact (show (pdats m ρ 1 c).Φ (Fin.last _) ⊢ Pipeline.ΦA spec1 c from Fused.hout (V2 m ρ) c).trans
      (show (Pipeline.ΦA spec1 c : sProp 𝕄) ⊢ iprop((∃ r, prngReg c r) ∗ BI.emp ∗ Pipeline.scopedRest spec1 c) from by
        unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Heads.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 2).pre c (fun _ => fullShare) (adm 2).1 ∗ Pipeline.scopedRest spec2 c)
        ⊢ (Pipeline.ΦA spec2 c : sProp 𝕄) from by
      unfold Pipeline.ΦA
      iintro ⟨Hp, -, Hr⟩
      isplitl [Hr]; · iexact Hr
      iexact Hp).trans (show Pipeline.ΦA spec2 c ⊢ (pdats m ρ 2 c).Φ 0 from Heads.hin (V3 m ρ) c)
  hout c := by
    rw [Pipeline.ownSems0_none]
    exact (show (pdats m ρ 2 c).Φ (Fin.last _) ⊢ Pipeline.ΦA spec2 c from Heads.hout (V3 m ρ) c).trans
      (show (Pipeline.ΦA spec2 c : sProp 𝕄) ⊢ iprop((∃ r, prngReg c r) ∗ BI.emp ∗ Pipeline.scopedRest spec2 c) from by
        unfold Pipeline.ΦA
        iintro ⟨Hr, Hp⟩
        isplitl [Hp]; · iexact Hp
        isplitr; · iempintro
        iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.KernelIdeal.Whole

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.Spec.lean ====
/-
  The mathematics both programs compute, over the extended reals, independent of either program.

  A matrix is a function of a two-coordinate index. `mm l r` is the matrix product: entry (p, q) is the sum over k of
  l (p, k) · r (k, q). With h = tanh (adj · (x · W0)), the reference forms adj · (h · W_mean) and adj · (h · W_std);
  the kernel forms adj · (h · [W_mean | W_std]) once and reads its left and right halves. Column j of h · [W_mean | W_std]
  is column j of h · W_mean for j < 64 and column j - 64 of h · W_std otherwise — the same sums, term by term —, so
  the two agree entry by entry; no law beyond reading a joined matrix at a column is used. The standard deviation is
  max (·, 0) + c and the sample is eps · std + mean on both sides, with the same constant c.

  A contraction over 16384 positions accumulated in 8 blocks of 2048 is the whole sum: sums over the extended reals
  regroup freely (addition there is commutative and associative, infinities included).
-/
import Idealize.ShloMosaic.Lib.ValueIdx
import Idealize.ShloMosaic.PureOps.Ideal
import Idealize.ShloMosaic.PureOps.Ideal.Laws
import proofs.«176482_j3831110828045_2_alg».proof.Proof.LibBlockSum

noncomputable section

namespace Cert.Spec

open Idealize.ShloMosaic Idealize.ShloMosaic.ValueIdx

/-- A matrix of extended reals. -/
abbrev Mat (M N : Nat) : Type := (⟨2, ![M, N]⟩ : Shape).Idx → EReal

/-- The row and the column of an index, as numbers below the extents. -/
abbrev row {M N : Nat} (i : (⟨2, ![M, N]⟩ : Shape).Idx) : Fin M := ⟨(i 0).val, (i 0).isLt⟩
abbrev col {M N : Nat} (i : (⟨2, ![M, N]⟩ : Shape).Idx) : Fin N := ⟨(i 1).val, (i 1).isLt⟩

theorem eq_ix2_row_col {M N : Nat} (i : (⟨2, ![M, N]⟩ : Shape).Idx) : i = ix2 (row i) (col i) :=
  funext fun a => Fin.ext (by match a with | ⟨0, _⟩ => rfl | ⟨1, _⟩ => rfl)

/-- The matrix product. -/
def mm {M K N : Nat} (l : Mat M K) (r : Mat K N) : Mat M N :=
  fun i => ∑ k : Fin K, l (ix2 (row i) k) * r (ix2 k (col i))

theorem mm_ix2 {M K N : Nat} (l : Mat M K) (r : Mat K N) (p : Fin M) (q : Fin N) :
    mm l r (ix2 p q) = ∑ k : Fin K, l (ix2 p k) * r (ix2 k q) := rfl

/-- The hidden layer: tanh of adj · v0, entry by entry. -/
def hid (adj : Mat 16384 16384) (v0 : Mat 16384 256) : Mat 16384 256 := fun i => Ideal.tanh (mm adj v0 i)

/-- The sum over 16384 positions as a sum over the first 2048 · 8 natural numbers of a function that is the term
    below 16384 (and anything above: no such position is summed). -/
def term (f : Fin 16384 → EReal) : ℕ → EReal := fun n => if h : n < 16384 then f ⟨n, h⟩ else 0

theorem sum_term_range (f : Fin 16384 → EReal) : ∑ n ∈ Finset.range (2048 * (7 + 1)), term f n = ∑ n : Fin 16384, f n := by
  rw [show 2048 * (7 + 1) = 16384 from rfl, Finset.sum_range]
  exact Finset.sum_congr rfl fun n _ => dif_pos n.isLt

theorem term_block (f : Fin 16384 → EReal) (k : ℕ) (hk : k < 8) (l : Fin 2048) :
    term f (2048 * k + l.val) = f ⟨2048 * k + l.val, by have := l.isLt; omega⟩ :=
  dif_pos _

/-- The partial sum after block k (blocks 0 … k of 2048 terms). -/
def psum (f : Fin 16384 → EReal) (k : ℕ) : EReal := ∑ n ∈ Finset.range (2048 * (k + 1)), term f n

theorem psum_zero (f : Fin 16384 → EReal) :
    psum f 0 = ∑ l : Fin 2048, term f (2048 * 0 + l.val) :=
  (Cert.Lib.BlockSum.sum_first_block (term f) 2048).symm

theorem psum_succ (f : Fin 16384 → EReal) (k : ℕ) :
    psum f (k + 1) = psum f k + ∑ l : Fin 2048, term f (2048 * (k + 1) + l.val) :=
  (Cert.Lib.BlockSum.sum_range_block (term f) 2048 (k + 1)).symm

theorem psum_last (f : Fin 16384 → EReal) : psum f 7 = ∑ n : Fin 16384, f n := sum_term_range f

/-! ## Blocks of a matrix -/

/-- Rows B·b … B·b + B − 1 of a matrix. -/
def rows {M N : Nat} (B b : ℕ) (hb : B * (b + 1) ≤ M) (A : Mat M N) : Mat B N :=
  fun y => A (ix2 ⟨B * b + (row y).val, by have := (row y).isLt; have : B * (b + 1) = B * b + B := Nat.mul_succ B b; omega⟩ (col y))

/-- The 2048 × 2048 tile (i, k) of the 16384 × 16384 matrix. -/
def tile (A : Mat 16384 16384) (i k : ℕ) (hi : i < 8) (hk : k < 8) : Mat 2048 2048 :=
  fun y => A (ix2 ⟨2048 * i + (row y).val, by have := (row y).isLt; omega⟩ ⟨2048 * k + (col y).val, by have := (col y).isLt; omega⟩)

/-- A product of a block of rows is the block of rows of the product. -/
theorem mm_rows {M K N : Nat} (B b : ℕ) (hb : B * (b + 1) ≤ M) (l : Mat M K) (r : Mat K N) :
    mm (rows B b hb l) r = rows B b hb (mm l r) := rfl

/-! ## A contraction over 16384 positions accumulated tile by tile -/

/-- The terms of entry (r, q) of adj · v. -/
def fterm {N : Nat} (adj : Mat 16384 16384) (v : Mat 16384 N) (r : Fin 16384) (q : Fin N) : Fin 16384 → EReal :=
  fun n => adj (ix2 r n) * v (ix2 n q)

/-- What the accumulator of row block i holds after tile k: entry (p, q) is the partial sum over the first
    2048 · (k + 1) positions of the terms of entry (2048 · i + p, q) of adj · v. -/
def accAt {N : Nat} (adj : Mat 16384 16384) (v : Mat 16384 N) (i : ℕ) (hi : i < 8) (k : ℕ) : Mat 2048 N :=
  fun y => psum (fterm adj v ⟨2048 * i + (row y).val, by have := (row y).isLt; omega⟩ (col y)) k

/-- Tile k's product, entry by entry, is the 2048 terms of block k. -/
theorem mm_tile_rows {N : Nat} (adj : Mat 16384 16384) (v : Mat 16384 N) (i k : ℕ) (hi : i < 8) (hk : k < 8) (y : (⟨2, ![2048, N]⟩ : Shape).Idx) :
    mm (tile adj i k hi hk) (rows 2048 k (by omega) v) y
      = ∑ l : Fin 2048, term (fterm adj v ⟨2048 * i + (row y).val, by have := (row y).isLt; omega⟩ (col y)) (2048 * k + l.val) :=
  Finset.sum_congr rfl fun l _ =>
    (term_block (fterm adj v ⟨2048 * i + (row y).val, by have := (row y).isLt; omega⟩ (col y)) k hk l).symm

/-- The first tile, added to zero. -/
theorem accAt_first {N : Nat} (adj : Mat 16384 16384) (v : Mat 16384 N) (i : ℕ) (hi : i < 8) :
    (fun y => (0 : EReal) + mm (tile adj i 0 hi (by omega)) (rows 2048 0 (by omega) v) y) = accAt adj v i hi 0 := by
  funext y
  rw [zero_add, mm_tile_rows]
  exact (psum_zero _).symm

/-- A later tile, added to what the tiles before it left. -/
theorem accAt_next {N : Nat} (adj : Mat 16384 16384) (v : Mat 16384 N) (i : ℕ) (hi : i < 8) (k : ℕ) (hk : k + 1 < 8) :
    (fun y => accAt adj v i hi k y + mm (tile adj i (k + 1) hi hk) (rows 2048 (k + 1) (by omega) v) y) = accAt adj v i hi (k + 1) := by
  funext y
  rw [mm_tile_rows]
  exact (psum_succ _ k).symm

/-- After the last tile the accumulator holds the block's rows of the whole product. -/
theorem accAt_last {N : Nat} (adj : Mat 16384 16384) (v : Mat 16384 N) (i : ℕ) (hi : i < 8) :
    accAt adj v i hi 7 = rows 2048 i (by omega) (mm adj v) := by
  funext y
  exact psum_last _

/-! ## The heads -/

/-- The constant added to the standard deviation. -/
def cst : EReal := Ideal.ofBits .f32 0x38D1B717#32

/-- The left half of a 128-column matrix. -/
def meanOf {M : Nat} (S : Mat M 128) : Mat M 64 := fun i => S (ix2 (row i) ⟨(col i).val, by have := (col i).isLt; omega⟩)
/-- max (·, 0) + c of the right half. -/
def stdOf {M : Nat} (S : Mat M 128) : Mat M 64 :=
  fun i => max (S (ix2 (row i) ⟨64 + (col i).val, by have := (col i).isLt; omega⟩)) 0 + cst
/-- eps · std + mean. -/
def zOf {M : Nat} (eps : Mat M 64) (S : Mat M 128) : Mat M 64 := fun i => eps i * stdOf S i + meanOf S i

theorem meanOf_rows {M : Nat} (B b : ℕ) (hb : B * (b + 1) ≤ M) (S : Mat M 128) : meanOf (rows B b hb S) = rows B b hb (meanOf S) := rfl
theorem stdOf_rows {M : Nat} (B b : ℕ) (hb : B * (b + 1) ≤ M) (S : Mat M 128) : stdOf (rows B b hb S) = rows B b hb (stdOf S) := rfl
theorem zOf_rows {M : Nat} (B b : ℕ) (hb : B * (b + 1) ≤ M) (eps : Mat M 64) (S : Mat M 128) :
    zOf (rows B b hb eps) (rows B b hb S) = rows B b hb (zOf eps S) := rfl

/-- The kernel's three results as functions of its arguments and the joined head weights. -/
def vcatOf (adj : Mat 16384 16384) (x : Mat 16384 512) (w0 : Mat 512 256) (wc : Mat 256 128) : Mat 16384 128 :=
  mm (hid adj (mm x w0)) wc
def sOf (adj : Mat 16384 16384) (x : Mat 16384 512) (w0 : Mat 512 256) (wc : Mat 256 128) : Mat 16384 128 :=
  mm adj (vcatOf adj x w0 wc)

end Cert.Spec

end
-- ==== Proof.KernelIdeal.PayAt.lean ====
/-
  The kernels' stored values, as pure functions of what the bodies load, read at the ideal instance: rounding to
  bf16 and a cast to the same shape are the identity, a product into a zero accumulator is the matrix product, a
  splat of the zero word is zero. So the first kernel stores x-block · W0; the accumulating kernels store
  accumulator + tile · block; the second kernel's last step stores tanh (accumulator) · joined weights; the third
  kernel's last step stores the accumulator's left half, max (right half, 0) + c, and eps · that + the left half.
-/
import proofs.«176482_j3831110828045_2_alg».proof.Proof.Gen.KernelIdeal.Skeleton
import proofs.«176482_j3831110828045_2_alg».proof.Proof.LibPlainDot
import proofs.«176482_j3831110828045_2_alg».proof.Proof.Spec
import Idealize.ShloMosaic.Lib.ValueIdx
import Idealize.ShloMosaic.Lib.Pipeline.Value
import Idealize.ShloMosaic.PureOps.Ideal.Laws

noncomputable section

namespace Cert.KernelIdeal.PayAt

open Cert.KernelIdeal Cert.KernelIdeal.Gen Cert.Spec Idealize.ShloMosaic Idealize.ShloMosaic.ValueIdx

/-- The zero word splat over a block is the zero matrix. -/
theorem zeros1 : (k1_pay1 (F := Ideal)) = fun _ => (0 : EReal) := by
  unfold k1_pay1
  simp only [shapeCast_self]
  funext i
  exact Ideal.ofBits_zero_f32

theorem zeros2 : (k2_pay1 (F := Ideal)) = fun _ => (0 : EReal) := by
  unfold k2_pay1
  simp only [shapeCast_self]
  funext i
  exact Ideal.ofBits_zero_f32

/-- The first kernel's store: the product of the two loaded blocks. -/
theorem dense (x0 : Vec Ideal S2048x512 .f32) (x1 : Vec Ideal S512x256 .f32) :
    k0_pay1 (F := Ideal) x0 x1 = mm x0 x1 := by
  funext i
  obtain ⟨p, q, rfl⟩ : ∃ (p : Fin 2048) (q : Fin 256), i = ix2 p q := ⟨row i, col i, eq_ix2_row_col i⟩
  exact Cert.Lib.matmul_zero_apply (φ₁ := .bf16) (φ₂ := .bf16) dot_S2048x512_S512x256_S2048x256_1_0_0_1_n_n_wf none x0 x1 p q

/-- The second kernel's accumulation: what the accumulator held plus tile · block. -/
theorem accum1 (v3 : Vec Ideal S2048x2048 .f32) (v5 : Vec Ideal S2048x256 .f32) (v6 : Vec Ideal S2048x256 .bf16) :
    k1_pay2 (F := Ideal) v3 v5 v6 = fun i => v5 i + mm v3 v6 i := by
  unfold k1_pay2
  simp only [shapeCast_self]
  funext i
  obtain ⟨p, q, rfl⟩ : ∃ (p : Fin 2048) (q : Fin 256), i = ix2 p q := ⟨row i, col i, eq_ix2_row_col i⟩
  exact congrArg (fun z => v5 (ix2 p q) + z) (Cert.Lib.matmul_zero_apply dot_S2048x2048_S2048x256_S2048x256_1_0_0_1_n_n_wf none v3 v6 p q)

/-- The second kernel's last step: tanh of the accumulator, times the joined weights. -/
theorem project (v16 : Vec Ideal S2048x256 .f32) (v19 : Vec Ideal S256x128 .bf16) :
    k1_pay3 (F := Ideal) v16 v19 = mm (fun i => Ideal.tanh (v16 i)) v19 := by
  unfold k1_pay3
  simp only [shapeCast_self]
  funext i
  obtain ⟨p, q, rfl⟩ : ∃ (p : Fin 2048) (q : Fin 128), i = ix2 p q := ⟨row i, col i, eq_ix2_row_col i⟩
  exact Cert.Lib.matmul_zero_apply (φ₁ := .bf16) (φ₂ := .bf16) dot_S2048x256_S256x128_S2048x128_1_0_0_1_n_n_wf none (fun i => Ideal.tanh (v16 i)) v19 p q

/-- The third kernel's accumulation. -/
theorem accum2 (v3 : Vec Ideal S2048x2048 .f32) (v5 : Vec Ideal S2048x128 .f32) (v6 : Vec Ideal S2048x128 .bf16) :
    k2_pay2 (F := Ideal) v3 v5 v6 = fun i => v5 i + mm v3 v6 i := by
  unfold k2_pay2
  simp only [shapeCast_self]
  funext i
  obtain ⟨p, q, rfl⟩ : ∃ (p : Fin 2048) (q : Fin 128), i = ix2 p q := ⟨row i, col i, eq_ix2_row_col i⟩
  exact congrArg (fun z => v5 (ix2 p q) + z) (Cert.Lib.matmul_zero_apply dot_S2048x2048_S2048x128_S2048x128_1_0_0_1_n_n_wf none v3 v6 p q)

/-- The mean: the accumulator's left half. -/
theorem mean (v16 : Vec Ideal S2048x128 .f32) : k2_pay3 (F := Ideal) v16 = meanOf v16 := by
  unfold k2_pay3
  funext i
  exact extractStridedSlice_apply _ v16 slices_S2048x128_o0_0_S2048x64 i _ (fun a => by
    match a with
    | ⟨0, _⟩ => show (i 0).val = 0 + (i 0).val; omega
    | ⟨1, _⟩ => show (i 1).val = 0 + (i 1).val; omega)

/-- The standard deviation: max (right half, 0) + c. -/
theorem std (v16 : Vec Ideal S2048x128 .f32) : k2_pay4 (F := Ideal) v16 = stdOf v16 := by
  unfold k2_pay4
  funext i
  have e : extractStridedSlice S2048x64 ![0, 64] v16 slices_S2048x128_o0_64_S2048x64 i
      = v16 (ix2 (row i) ⟨64 + (col i).val, by have := (col i).isLt; omega⟩) :=
    extractStridedSlice_apply _ v16 slices_S2048x128_o0_64_S2048x64 i _ (fun a => by
      match a with
      | ⟨0, _⟩ => show (i 0).val = 0 + (i 0).val; omega
      | ⟨1, _⟩ => rfl)
  show max (extractStridedSlice S2048x64 ![0, 64] v16 slices_S2048x128_o0_64_S2048x64 i) (Ideal.ofBits .f32 0x00000000#32) + Ideal.ofBits .f32 0x38D1B717#32 = _
  rw [e, Ideal.ofBits_zero_f32]
  rfl

/-- The sample: eps · std + mean. -/
theorem sample (v16 : Vec Ideal S2048x128 .f32) (v23 : Vec Ideal S2048x64 .f32) : k2_pay5 (F := Ideal) v16 v23 = zOf v23 v16 := by
  unfold k2_pay5
  rw [std, mean]
  rfl

end Cert.KernelIdeal.PayAt

end
-- ==== Proof.KernelIdeal.ValDense.lean ====
/-
  The first pallas_call's output array after the run, at the ideal instance: the whole product x · W0. Point t writes
  back rows 2048·t … 2048·t + 2047 of it — the product of that block of rows of x with W0 — and the eight blocks
  tile the array.
-/
import proofs.«176482_j3831110828045_2_alg».proof.Proof.KernelIdeal.Dense
import proofs.«176482_j3831110828045_2_alg».proof.Proof.KernelIdeal.PayAt
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValDense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the rows of x and of the output move together, one block per point; every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W0. -/
theorem flushed_eq (c : Dev nD) (t : Fin cfg0.N) :
    (Dense.dat V c).flushed 2 t = ((cfg0.win 2).blk t).view.read (Elt Ideal) (mm (V c main_arg1) (V c main_arg2)) := by
  show (cfg0.win 2).cut (grid0.coords t) ((Dense.dat V c).after 2 t) = _
  rw [Dense.after_2]
  unfold Dense.out_2
  rw [View.canon_unit_zero hz]
  simp only [View.ld_unit_zero (S := S2048x512) hz, View.ld_unit_zero (S := S512x256) hz]
  rw [PayAt.dense]
  obtain ⟨e0, e1, e2, e3, e4, e5⟩ := idx_facts t
  funext y
  show mm (Dense.iblk V c 0 t) (Dense.iblk V c 1 t) y = mm (V c main_arg1) (V c main_arg2) (((cfg0.win 2).blk t).view.emb y)
  unfold mm
  refine Finset.sum_congr rfl fun k _ => ?_
  have h0 : ((cfg0.win 0).blk t).view.emb (ix2 (row y) k) = ix2 (row (((cfg0.win 2).blk t).view.emb y)) k := by
    funext a; apply Fin.ext
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 512 + 1 * k.val = k.val; omega
  have h1 : ((cfg0.win 1).blk t).view.emb (ix2 k (col y)) = ix2 k (col (((cfg0.win 2).blk t).view.emb y)) := by
    funext a; apply Fin.ext
    match a with
    | ⟨0, _⟩ => show win0_1.index t (0 : Fin 2) * 512 + 1 * k.val = k.val; omega
    | ⟨1, _⟩ => show win0_1.index t (1 : Fin 2) * 256 + 1 * (y 1).val = win0_2.index t (1 : Fin 2) * 256 + 1 * (y 1).val; omega
  refine congrArg₂ _ ?_ ?_
  · show V c main_arg1 (((cfg0.win 0).blk t).view.emb (ix2 (row y) k)) = _
    exact congrArg (V c main_arg1) h0
  · show V c main_arg2 (((cfg0.win 1).blk t).view.emb (ix2 k (col y))) = _
    exact congrArg (V c main_arg2) h1

/-- An index of the output array is in point t's block iff each coordinate is in the block's range. -/
theorem mem_blk (t : Fin cfg0.N) (i : S16384x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every index is in the block of the point its row falls in. -/
theorem cover (i : S16384x256.Idx) : ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 8 := N_0
  refine ⟨⟨(i 0).val / 2048, by rw [hN]; omega⟩, flush0_2 _, ?_⟩
  rw [mem_blk]
  obtain ⟨e0, e1, e2, e3, e4, e5⟩ := idx_facts ⟨(i 0).val / 2048, by rw [hN]; omega⟩
  intro a
  match a with
  | ⟨0, _⟩ => show win0_2.index _ (0 : Fin 2) * 2048 ≤ (i 0).val ∧ (i 0).val < win0_2.index _ (0 : Fin 2) * 2048 + 2048; rw [e4]; dsimp only; omega
  | ⟨1, _⟩ => show win0_2.index _ (1 : Fin 2) * 256 ≤ (i 1).val ∧ (i 1).val < win0_2.index _ (1 : Fin 2) * 256 + 256; rw [e5]; omega

/-- The output array after the run. -/
theorem final (c : Dev nD) : (Dense.dat V c).arrAt 2 cfg0.N = mm (V c main_arg1) (V c main_arg2) :=
  (Dense.dat V c).arrAt_eq_of_cover 2 _ (fun t _ => flushed_eq V c t) cover

end Cert.KernelIdeal.ValDense

end
-- ==== Proof.KernelIdeal.ValFused.lean ====
/-
  The second pallas_call's output array after the run, at the ideal instance: tanh (adj · v0) · W, with v0 the first
  pallas_call's output and W the joined head weights. The grid is 8 × 8, point t = 8·i + k. The accumulator of row
  block i holds, after tile k, the partial sums over the first 2048·(k + 1) positions of the entries of adj · v0 in
  rows 2048·i … 2048·i + 2047; after tile 7 these are the whole sums, and the point writes back tanh of them times W:
  rows 2048·i … 2048·i + 2047 of the result. The eight written blocks tile the array.
-/
import proofs.«176482_j3831110828045_2_alg».proof.Proof.KernelIdeal.Fused
import proofs.«176482_j3831110828045_2_alg».proof.Proof.KernelIdeal.PayAt
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValFused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (V : (c : Dev nD) → (b : Ref sig .tc) → Buf (Elt Ideal) ((c : Thread nD τ).loc b))

/-- The printed index maps over the grid, point `t = 8·i + k`: the adjacency tile is `(i, k)`, the feature block is row
    block `k`, the weights are one block, the output block is row block `i`. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The adjacency block at point `8·i + k` is tile `(i, k)`. -/
theorem iblk0_eq (c : Dev nD) (t : Fin cfg1.N) (i k : ℕ) (hi : i < 8) (hk : k < 8) (ei : t.val / 8 = i) (ek : t.val % 8 = k) :
    (Fused.iblk V c 0 t : Mat 2048 2048) = tile (V c main_arg0) i k hi hk := by
  obtain ⟨e0, e1, e2, e3, e4, e5, e6, e7⟩ := idx_facts t
  funext y
  show V c main_arg0 (((cfg1.win 0).blk t).view.emb y) = V c main_arg0 _
  refine congrArg (V c main_arg0) ?_
  funext a; apply Fin.ext
  match a with
  | ⟨0, _⟩ => show win1_0.index t (0 : Fin 2) * 2048 + 1 * (y 0).val = 2048 * i + (y 0).val; omega
  | ⟨1, _⟩ => show win1_0.index t (1 : Fin 2) * 2048 + 1 * (y 1).val = 2048 * k + (y 1).val; omega

/-- The feature block there is row block `k` of the first pallas_call's output. -/
theorem iblk1_eq (c : Dev nD) (t : Fin cfg1.N) (k : ℕ) (hk : k < 8) (ek : t.val % 8 = k) :
    (Fused.iblk V c 1 t : Mat 2048 256) = rows 2048 k (by omega) (V c main_v0) := by
  obtain ⟨e0, e1, e2, e3, e4, e5, e6, e7⟩ := idx_facts t
  funext y
  show V c main_v0 (((cfg1.win 1).blk t).view.emb y) = V c main_v0 _
  refine congrArg (V c main_v0) ?_
  funext a; apply Fin.ext
  match a with
  | ⟨0, _⟩ => show win1_1.index t (0 : Fin 2) * 2048 + 1 * (y 0).val = 2048 * k + (y 0).val; omega
  | ⟨1, _⟩ => show win1_1.index t (1 : Fin 2) * 256 + 1 * (y 1).val = (y 1).val; omega

/-- The weight block is the whole joined weight matrix, at every point. -/
theorem iblk2_eq (c : Dev nD) (t : Fin cfg1.N) : (Fused.iblk V c 2 t : Mat 256 128) = V c main_v2 := by
  obtain ⟨e0, e1, e2, e3, e4, e5, e6, e7⟩ := idx_facts t
  funext y
  show V c main_v2 (((cfg1.win 2).blk t).view.emb y) = V c main_v2 y
  refine congrArg (V c main_v2) ?_
  funext a; apply Fin.ext
  match a with
  | ⟨0, _⟩ => show win1_2.index t (0 : Fin 2) * 256 + 1 * (y 0).val = (y 0).val; omega
  | ⟨1, _⟩ => show win1_2.index t (1 : Fin 2) * 128 + 1 * (y 1).val = (y 1).val; omega

/-- The invariant: after point `8·i + k` the accumulator holds the partial sums after tile `k` of row block `i` of
    adj · v0. By induction on the point: tile 0 is added to zero, a later tile to what the tiles before it left. -/
theorem acc_eq (c : Dev nD) : ∀ (n : ℕ) (hn : n < cfg1.N) (i k : ℕ) (hi : i < 8), n / 8 = i → n % 8 = k →
    (Fused.outsAt V c n hn).2 = accAt (V c main_arg0) (V c main_v0) i hi k := by
  intro n
  induction n using Nat.strong_induction_on with
  | _ n ih =>
    intro hn i k hi ei ek
    have hN : cfg1.N = 64 := N_1
    by_cases h0 : n % 8 = 0
    · have hk0 : k = 0 := by omega
      subst hk0
      have e := Fused.acc_first V c ⟨n, hn⟩ h0
      rw [PayAt.accum1, PayAt.zeros1, iblk0_eq V c ⟨n, hn⟩ i 0 hi (by omega) ei ek, iblk1_eq V c ⟨n, hn⟩ 0 (by omega) ek] at e
      exact e.trans (accAt_first (V c main_arg0) (V c main_v0) i hi)
    · obtain ⟨k', rfl⟩ : ∃ k', k = k' + 1 := ⟨k - 1, by omega⟩
      have hk : k' + 1 < 8 := by omega
      have e := Fused.acc_next V c ⟨n, hn⟩ h0
      rw [PayAt.accum1, iblk0_eq V c ⟨n, hn⟩ i (k' + 1) hi hk ei ek, iblk1_eq V c ⟨n, hn⟩ (k' + 1) hk ek] at e
      have ihp := ih (n - 1) (by omega) (by omega) i k' hi (by omega) (by omega)
      exact e.trans ((congrArg (fun (a : Mat 2048 256) => fun y => a y + mm (tile (V c main_arg0) i (k' + 1) hi hk) (rows 2048 (k' + 1) (by omega) (V c main_v0)) y) ihp).trans
        (accAt_next (V c main_arg0) (V c main_v0) i hi k' hk))

/-- What a point with `k = 7` writes back is row block `i` of the result. -/
theorem flushed_eq (c : Dev nD) (t : Fin cfg1.N) (h7 : t.val % 8 = 7) :
    (Fused.dat V c).flushed 3 t = ((cfg1.win 3).blk t).view.read (Elt Ideal) (mm (hid (V c main_arg0) (V c main_v0)) (V c main_v2)) := by
  have hN : cfg1.N = 64 := N_1
  have hi : t.val / 8 < 8 := by have := t.isLt; omega
  show (cfg1.win 3).cut (grid1.coords t) ((Fused.dat V c).after 3 t) = _
  rw [Fused.after_3, Fused.out_last V c t h7, acc_eq V c t.val t.isLt (t.val / 8) 7 hi rfl h7, accAt_last, PayAt.project, iblk2_eq]
  obtain ⟨e0, e1, e2, e3, e4, e5, e6, e7⟩ := idx_facts t
  funext y
  show rows 2048 (t.val / 8) (by omega) (mm (hid (V c main_arg0) (V c main_v0)) (V c main_v2)) y
    = mm (hid (V c main_arg0) (V c main_v0)) (V c main_v2) (((cfg1.win 3).blk t).view.emb y)
  unfold rows
  refine congrArg (mm (hid (V c main_arg0) (V c main_v0)) (V c main_v2)) ?_
  funext a; apply Fin.ext
  match a with
  | ⟨0, _⟩ => show 2048 * (t.val / 8) + (y 0).val = win1_3.index t (0 : Fin 2) * 2048 + 1 * (y 0).val; omega
  | ⟨1, _⟩ => show (y 1).val = win1_3.index t (1 : Fin 2) * 128 + 1 * (y 1).val; omega

/-- An index of the output array is in point t's block iff each coordinate is in the block's range. -/
theorem mem_blk (t : Fin cfg1.N) (i : S16384x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v3).slice (win1_3.rect t)).set ↔ _
  rw [View.set_slice_whole, Rect.mem_set_unit]
  exact Iff.rfl

/-- Every index is in the block written back at the last point of the sweep its row falls in. -/
theorem cover (i : S16384x128.Idx) : ∃ t : Fin cfg1.N, (cfg1.win 3).flush t = true ∧ i ∈ ((cfg1.win 3).blk t).view.set := by
  have hi0 : (i 0).val < 16384 := (i 0).isLt
  have hi1 : (i 1).val < 128 := (i 1).isLt
  have hN : cfg1.N = 64 := N_1
  have ht : 8 * ((i 0).val / 2048) + 7 < cfg1.N := by rw [hN]; omega
  refine ⟨⟨8 * ((i 0).val / 2048) + 7, ht⟩, (flush1_3 _).mpr (by show (8 * ((i 0).val / 2048) + 7) % 8 = 7; omega), ?_⟩
  rw [mem_blk]
  obtain ⟨e0, e1, e2, e3, e4, e5, e6, e7⟩ := idx_facts ⟨8 * ((i 0).val / 2048) + 7, ht⟩
  intro a
  match a with
  | ⟨0, _⟩ => show win1_3.index _ (0 : Fin 2) * 2048 ≤ (i 0).val ∧ (i 0).val < win1_3.index _ (0 : Fin 2) * 2048 + 2048; rw [e6]; dsimp only; omega
  | ⟨1, _⟩ => show win1_3.index _ (1 : Fin 2) * 128 ≤ (i 1).val ∧ (i 1).val < win1_3.index _ (1 : Fin 2) * 128 + 128; rw [e7]; omega

/-- The output array after the run. -/
theorem final (c : Dev nD) : (Fused.dat V c).arrAt 3 cfg1.N = mm (hid (V c main_arg0) (V c main_v0)) (V c main_v2) :=
  (Fused.dat V c).arrAt_eq_of_cover 3 _ (fun t hf => flushed_eq V c t ((flush1_3 t).mp hf)) cover

end Cert.KernelIdeal.ValFused

end
-- ==== Proof.KernelIdeal.ValHeads.lean ====
/-
  The third kernel's three output arrays after the run, at the ideal instance. With S = adj · v_cat (the whole
  16384 × 128 product): the accumulator of row block i after tile k holds the partial sums over the first
  2048 · (k + 1) positions; after tile 7 it holds rows 2048·i … 2048·i + 2047 of S; the point with inner coordinate 7
  writes back those rows of the mean (left half of S), the standard deviation (max (right half, 0) + c) and the
  sample (eps · std + mean); the eight row blocks tile each array.
-/
import proofs.«176482_j3831110828045_2_alg».proof.Proof.KernelIdeal.Heads
import proofs.«176482_j3831110828045_2_alg».proof.Proof.KernelIdeal.PayAt
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValHeads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

variable (V : (c : Dev nD) → (b : Ref sig .tc) → Buf (Elt Ideal) ((c : Thread nD τ).loc b))

/-! ## The index maps over the grid -/

/-- The printed index maps over the 8 × 8 grid (point t = 8 · i + k, k inner): the adjacency tile is (i, k), the
    feature block is k, the noise block and the three output blocks are i; every other block index is zero. -/
theorem idx_facts : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0
    ∧ win2_4.index t (0 : Fin 2) = t.val / 8 ∧ win2_4.index t (1 : Fin 2) = 0
    ∧ win2_5.index t (0 : Fin 2) = t.val / 8 ∧ win2_5.index t (1 : Fin 2) = 0 :=
  (by decide +kernel : ∀ t : Fin grid2.N, _)

/-! ## The blocks as tiles -/

/-- The adjacency block at point t is tile (t / 8, t % 8). -/
theorem iblk_0 (c : Dev nD) (t : Fin cfg2.N) :
    Heads.iblk V c 0 t = tile (V c main_arg0) (t.val / 8) (t.val % 8) (by have := t.isLt; have : cfg2.N = 64 := N_2; omega) (by omega) := by
  obtain ⟨e00, e01, e10, e11, e20, e21, e30, e31, e40, e41, e50, e51⟩ := idx_facts t
  funext y
  show V c main_arg0 (((cfg2.win 0).blk t).view.emb y) = V c main_arg0 (ix2 ⟨2048 * (t.val / 8) + (row y).val, _⟩ ⟨2048 * (t.val % 8) + (col y).val, _⟩)
  refine congrArg (V c main_arg0) ?_
  funext a; apply Fin.ext
  match a with
  | ⟨0, _⟩ => show win2_0.index t (0 : Fin 2) * 2048 + 1 * (y 0).val = 2048 * (t.val / 8) + (y 0).val; omega
  | ⟨1, _⟩ => show win2_0.index t (1 : Fin 2) * 2048 + 1 * (y 1).val = 2048 * (t.val % 8) + (y 1).val; omega

/-- The feature block at point t is rows 2048 · (t % 8) … of v_cat. -/
theorem iblk_1 (c : Dev nD) (t : Fin cfg2.N) :
    Heads.iblk V c 1 t = rows 2048 (t.val % 8) (by omega) (V c main_v3) := by
  obtain ⟨e00, e01, e10, e11, e20, e21, e30, e31, e40, e41, e50, e51⟩ := idx_facts t
  funext y
  show V c main_v3 (((cfg2.win 1).blk t).view.emb y) = V c main_v3 (ix2 ⟨2048 * (t.val % 8) + (row y).val, _⟩ (col y))
  refine congrArg (V c main_v3) ?_
  funext a; apply Fin.ext
  match a with
  | ⟨0, _⟩ => show win2_1.index t (0 : Fin 2) * 2048 + 1 * (y 0).val = 2048 * (t.val % 8) + (y 0).val; omega
  | ⟨1, _⟩ => show win2_1.index t (1 : Fin 2) * 128 + 1 * (y 1).val = (y 1).val; omega

/-- The noise block at point t is rows 2048 · (t / 8) … of eps. -/
theorem iblk_2 (c : Dev nD) (t : Fin cfg2.N) :
    Heads.iblk V c 2 t = rows 2048 (t.val / 8) (by have := t.isLt; have : cfg2.N = 64 := N_2; omega) (V c main_arg5) := by
  obtain ⟨e00, e01, e10, e11, e20, e21, e30, e31, e40, e41, e50, e51⟩ := idx_facts t
  funext y
  show V c main_arg5 (((cfg2.win 2).blk t).view.emb y) = V c main_arg5 (ix2 ⟨2048 * (t.val / 8) + (row y).val, _⟩ (col y))
  refine congrArg (V c main_arg5) ?_
  funext a; apply Fin.ext
  match a with
  | ⟨0, _⟩ => show win2_2.index t (0 : Fin 2) * 2048 + 1 * (y 0).val = 2048 * (t.val / 8) + (y 0).val; omega
  | ⟨1, _⟩ => show win2_2.index t (1 : Fin 2) * 64 + 1 * (y 1).val = (y 1).val; omega

/-! ## The accumulation, tile by tile -/

/-- The first tile of a sweep, added to zero, at a tile index known to be 0. -/
theorem first_of {N : Nat} (adj : Mat 16384 16384) (v : Mat 16384 N) (i : ℕ) (hi : i < 8) (k : ℕ) (hk : k < 8) (h0 : k = 0) :
    (fun y => (0 : EReal) + mm (tile adj i k hi hk) (rows 2048 k (by omega) v) y) = accAt adj v i hi k := by
  subst h0; exact accAt_first adj v i hi

/-- A later tile, added to what the tiles before it left, at tile indices known to be consecutive. -/
theorem next_of {N : Nat} (adj : Mat 16384 16384) (v : Mat 16384 N) (i i' : ℕ) (hi : i < 8) (hi' : i' < 8) (hii : i' = i)
    (k k' : ℕ) (hk : k < 8) (hkk : k = k' + 1) :
    (fun y => accAt adj v i' hi' k' y + mm (tile adj i k hi hk) (rows 2048 k (by omega) v) y) = accAt adj v i hi k := by
  subst hii; subst hkk; exact accAt_next adj v i' hi k' hk

/-- After the last tile of a sweep: the row block of the whole product. -/
theorem last_of {N : Nat} (adj : Mat 16384 16384) (v : Mat 16384 N) (i : ℕ) (hi : i < 8) (k : ℕ) (h7 : k = 7) :
    accAt adj v i hi k = rows 2048 i (by omega) (mm adj v) := by
  subst h7; exact accAt_last adj v i hi

/-- THE INVARIANT. After the body at point n the accumulator holds, entry by entry, the partial sums over the first
    2048 · (n % 8 + 1) positions of the rows of block n / 8 of adj · v_cat. -/
theorem acc_inv (c : Dev nD) : ∀ (n : ℕ) (hn : n < cfg2.N),
    (Heads.outsAt V c n hn).2.2.2 = accAt (V c main_arg0) (V c main_v3) (n / 8) (by have : cfg2.N = 64 := N_2; omega) (n % 8) := by
  intro n
  induction n with
  | zero =>
    intro hn
    have e := Heads.acc_first V c ⟨0, hn⟩ (Nat.zero_mod _)
    rw [PayAt.accum2, PayAt.zeros2, iblk_0 V c ⟨0, hn⟩, iblk_1 V c ⟨0, hn⟩] at e
    exact e.trans (first_of (V c main_arg0) (V c main_v3) (0 / 8) (by omega) (0 % 8) (by omega) (Nat.zero_mod _))
  | succ n ih =>
    intro hn
    have hN : cfg2.N = 64 := N_2
    by_cases h : (n + 1) % 8 = 0
    · have e := Heads.acc_first V c ⟨n + 1, hn⟩ h
      rw [PayAt.accum2, PayAt.zeros2, iblk_0 V c ⟨n + 1, hn⟩, iblk_1 V c ⟨n + 1, hn⟩] at e
      exact e.trans (first_of (V c main_arg0) (V c main_v3) ((n + 1) / 8) (by omega) ((n + 1) % 8) (by omega) h)
    · have e := Heads.acc_next V c ⟨n + 1, hn⟩ h
      rw [PayAt.accum2, iblk_0 V c ⟨n + 1, hn⟩, iblk_1 V c ⟨n + 1, hn⟩] at e
      have ih' := ih (Nat.lt_of_succ_lt hn)
      rw [show (Heads.outsAt V c ((⟨n + 1, hn⟩ : Fin cfg2.N).val - 1) (Nat.lt_of_le_of_lt (Nat.sub_le _ _) (⟨n + 1, hn⟩ : Fin cfg2.N).isLt)).2.2.2
          = accAt (V c main_arg0) (V c main_v3) (n / 8) (by omega) (n % 8) from ih'] at e
      exact e.trans (next_of (V c main_arg0) (V c main_v3) ((n + 1) / 8) (n / 8) (by omega) (by omega) (by omega) ((n + 1) % 8) (n % 8) (by omega) (by omega))

/-! ## The three output arrays -/

/-- An index inside row block t / 8 is the z array's block at point t read at the index inside the block. -/
theorem emb_3 (t : Fin cfg2.N) (p : Fin 2048) (q : Fin 64) (ht : 2048 * (t.val / 8) + p.val < 16384) :
    (ix2 (⟨2048 * (t.val / 8) + p.val, ht⟩ : Fin 16384) q : S16384x64.Idx) = ((cfg2.win 3).blk t).view.emb (ix2 p q) := by
  obtain ⟨e00, e01, e10, e11, e20, e21, e30, e31, e40, e41, e50, e51⟩ := idx_facts t
  funext a; apply Fin.ext
  match a with
  | ⟨0, _⟩ => show 2048 * (t.val / 8) + p.val = win2_3.index t (0 : Fin 2) * 2048 + 1 * p.val; omega
  | ⟨1, _⟩ => show q.val = win2_3.index t (1 : Fin 2) * 64 + 1 * q.val; omega

/-- So rows 2048 · (t / 8) … of any 16384 × 64 matrix are that matrix read through the z array's block at point t. -/
theorem read_rows_3 (G : Mat 16384 64) (t : Fin cfg2.N) :
    rows 2048 (t.val / 8) (by have := t.isLt; have : cfg2.N = 64 := N_2; omega) G = ((cfg2.win 3).blk t).view.read (Elt Ideal) G := by
  funext y
  obtain ⟨p, q, rfl⟩ : ∃ (p : Fin 2048) (q : Fin 64), y = ix2 p q := ⟨row y, col y, eq_ix2_row_col y⟩
  exact congrArg G (emb_3 t p q _)

/-- What a point with inner coordinate 7 writes back into the z array is its row block of the z of S. -/
theorem flushed_3_eq (c : Dev nD) (t : Fin cfg2.N) (h : t.val % 8 = 7) :
    (Heads.dat V c).flushed 3 t = ((cfg2.win 3).blk t).view.read (Elt Ideal) (zOf (V c main_arg5) (mm (V c main_arg0) (V c main_v3))) := by
  show (cfg2.win 3).cut (grid2.coords t) ((Heads.dat V c).after 3 t) = _
  rw [Heads.after_3, (Heads.out_last V c t h).1, acc_inv V c t.val t.isLt, PayAt.sample, iblk_2 V c t, last_of (V c main_arg0) (V c main_v3) (t.val / 8) (by have := t.isLt; have : cfg2.N = 64 := N_2; omega) (t.val % 8) h, zOf_rows 2048 (t.val / 8) (by have := t.isLt; have : cfg2.N = 64 := N_2; omega) (V c main_arg5) (mm (V c main_arg0) (V c main_v3))]
  exact read_rows_3 (zOf (V c main_arg5) (mm (V c main_arg0) (V c main_v3))) t

/-- An index of the z array is in point t's block iff each coordinate is in the block's range. -/
theorem mem_blk_3 (t : Fin cfg2.N) (i : S16384x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v4_0).slice (win2_3.rect t)).set ↔ _
  rw [View.set_slice_whole, Rect.mem_set_unit]
  exact Iff.rfl

/-- Every index is in the block of the last point of the sweep its row falls in. -/
theorem cover_3 (i : S16384x64.Idx) : ∃ t : Fin cfg2.N, (cfg2.win 3).flush t = true ∧ i ∈ ((cfg2.win 3).blk t).view.set := by
  have hi0 : (i 0).val < 16384 := (i 0).isLt
  have hi1 : (i 1).val < 64 := (i 1).isLt
  have hN : cfg2.N = 64 := N_2
  refine ⟨⟨8 * ((i 0).val / 2048) + 7, by rw [hN]; omega⟩, (flush2_3 _).mpr (by show (8 * ((i 0).val / 2048) + 7) % 8 = 7; omega), ?_⟩
  rw [mem_blk_3]
  obtain ⟨e00, e01, e10, e11, e20, e21, e30, e31, e40, e41, e50, e51⟩ := idx_facts ⟨8 * ((i 0).val / 2048) + 7, by rw [hN]; omega⟩
  intro a
  match a with
  | ⟨0, _⟩ => show win2_3.index _ (0 : Fin 2) * 2048 ≤ (i 0).val ∧ (i 0).val < win2_3.index _ (0 : Fin 2) * 2048 + 2048; rw [e30]; dsimp only; omega
  | ⟨1, _⟩ => show win2_3.index _ (1 : Fin 2) * 64 ≤ (i 1).val ∧ (i 1).val < win2_3.index _ (1 : Fin 2) * 64 + 64; rw [e31]; omega

/-- The z array after the run. -/
theorem final_z (c : Dev nD) : (Heads.dat V c).arrAt 3 cfg2.N = zOf (V c main_arg5) (mm (V c main_arg0) (V c main_v3)) :=
  (Heads.dat V c).arrAt_eq_of_cover 3 _ (fun t hf => flushed_3_eq V c t ((flush2_3 t).mp hf)) cover_3

/-- An index inside row block t / 8 is the mean array's block at point t read at the index inside the block. -/
theorem emb_4 (t : Fin cfg2.N) (p : Fin 2048) (q : Fin 64) (ht : 2048 * (t.val / 8) + p.val < 16384) :
    (ix2 (⟨2048 * (t.val / 8) + p.val, ht⟩ : Fin 16384) q : S16384x64.Idx) = ((cfg2.win 4).blk t).view.emb (ix2 p q) := by
  obtain ⟨e00, e01, e10, e11, e20, e21, e30, e31, e40, e41, e50, e51⟩ := idx_facts t
  funext a; apply Fin.ext
  match a with
  | ⟨0, _⟩ => show 2048 * (t.val / 8) + p.val = win2_4.index t (0 : Fin 2) * 2048 + 1 * p.val; omega
  | ⟨1, _⟩ => show q.val = win2_4.index t (1 : Fin 2) * 64 + 1 * q.val; omega

/-- So rows 2048 · (t / 8) … of any 16384 × 64 matrix are that matrix read through the mean array's block at point t. -/
theorem read_rows_4 (G : Mat 16384 64) (t : Fin cfg2.N) :
    rows 2048 (t.val / 8) (by have := t.isLt; have : cfg2.N = 64 := N_2; omega) G = ((cfg2.win 4).blk t).view.read (Elt Ideal) G := by
  funext y
  obtain ⟨p, q, rfl⟩ : ∃ (p : Fin 2048) (q : Fin 64), y = ix2 p q := ⟨row y, col y, eq_ix2_row_col y⟩
  exact congrArg G (emb_4 t p q _)

/-- What a point with inner coordinate 7 writes back into the mean array is its row block of the mean of S. -/
theorem flushed_4_eq (c : Dev nD) (t : Fin cfg2.N) (h : t.val % 8 = 7) :
    (Heads.dat V c).flushed 4 t = ((cfg2.win 4).blk t).view.read (Elt Ideal) (meanOf (mm (V c main_arg0) (V c main_v3))) := by
  show (cfg2.win 4).cut (grid2.coords t) ((Heads.dat V c).after 4 t) = _
  rw [Heads.after_4, (Heads.out_last V c t h).2.1, acc_inv V c t.val t.isLt, PayAt.mean, last_of (V c main_arg0) (V c main_v3) (t.val / 8) (by have := t.isLt; have : cfg2.N = 64 := N_2; omega) (t.val % 8) h, meanOf_rows 2048 (t.val / 8) (by have := t.isLt; have : cfg2.N = 64 := N_2; omega) (mm (V c main_arg0) (V c main_v3))]
  exact read_rows_4 (meanOf (mm (V c main_arg0) (V c main_v3))) t

/-- An index of the mean array is in point t's block iff each coordinate is in the block's range. -/
theorem mem_blk_4 (t : Fin cfg2.N) (i : S16384x64.Idx) :
    i ∈ ((cfg2.win 4).blk t).view.set ↔ ∀ a : Fin 2, win2_4.index t a * S2048x64.size a ≤ (i a).val ∧ (i a).val < win2_4.index t a * S2048x64.size a + S2048x64.size a := by
  show i ∈ ((View.whole main_v4_1).slice (win2_4.rect t)).set ↔ _
  rw [View.set_slice_whole, Rect.mem_set_unit]
  exact Iff.rfl

/-- Every index is in the block of the last point of the sweep its row falls in. -/
theorem cover_4 (i : S16384x64.Idx) : ∃ t : Fin cfg2.N, (cfg2.win 4).flush t = true ∧ i ∈ ((cfg2.win 4).blk t).view.set := by
  have hi0 : (i 0).val < 16384 := (i 0).isLt
  have hi1 : (i 1).val < 64 := (i 1).isLt
  have hN : cfg2.N = 64 := N_2
  refine ⟨⟨8 * ((i 0).val / 2048) + 7, by rw [hN]; omega⟩, (flush2_4 _).mpr (by show (8 * ((i 0).val / 2048) + 7) % 8 = 7; omega), ?_⟩
  rw [mem_blk_4]
  obtain ⟨e00, e01, e10, e11, e20, e21, e30, e31, e40, e41, e50, e51⟩ := idx_facts ⟨8 * ((i 0).val / 2048) + 7, by rw [hN]; omega⟩
  intro a
  match a with
  | ⟨0, _⟩ => show win2_4.index _ (0 : Fin 2) * 2048 ≤ (i 0).val ∧ (i 0).val < win2_4.index _ (0 : Fin 2) * 2048 + 2048; rw [e40]; dsimp only; omega
  | ⟨1, _⟩ => show win2_4.index _ (1 : Fin 2) * 64 ≤ (i 1).val ∧ (i 1).val < win2_4.index _ (1 : Fin 2) * 64 + 64; rw [e41]; omega

/-- The mean array after the run. -/
theorem final_mean (c : Dev nD) : (Heads.dat V c).arrAt 4 cfg2.N = meanOf (mm (V c main_arg0) (V c main_v3)) :=
  (Heads.dat V c).arrAt_eq_of_cover 4 _ (fun t hf => flushed_4_eq V c t ((flush2_4 t).mp hf)) cover_4

/-- An index inside row block t / 8 is the std array's block at point t read at the index inside the block. -/
theorem emb_5 (t : Fin cfg2.N) (p : Fin 2048) (q : Fin 64) (ht : 2048 * (t.val / 8) + p.val < 16384) :
    (ix2 (⟨2048 * (t.val / 8) + p.val, ht⟩ : Fin 16384) q : S16384x64.Idx) = ((cfg2.win 5).blk t).view.emb (ix2 p q) := by
  obtain ⟨e00, e01, e10, e11, e20, e21, e30, e31, e40, e41, e50, e51⟩ := idx_facts t
  funext a; apply Fin.ext
  match a with
  | ⟨0, _⟩ => show 2048 * (t.val / 8) + p.val = win2_5.index t (0 : Fin 2) * 2048 + 1 * p.val; omega
  | ⟨1, _⟩ => show q.val = win2_5.index t (1 : Fin 2) * 64 + 1 * q.val; omega

/-- So rows 2048 · (t / 8) … of any 16384 × 64 matrix are that matrix read through the std array's block at point t. -/
theorem read_rows_5 (G : Mat 16384 64) (t : Fin cfg2.N) :
    rows 2048 (t.val / 8) (by have := t.isLt; have : cfg2.N = 64 := N_2; omega) G = ((cfg2.win 5).blk t).view.read (Elt Ideal) G := by
  funext y
  obtain ⟨p, q, rfl⟩ : ∃ (p : Fin 2048) (q : Fin 64), y = ix2 p q := ⟨row y, col y, eq_ix2_row_col y⟩
  exact congrArg G (emb_5 t p q _)

/-- What a point with inner coordinate 7 writes back into the std array is its row block of the std of S. -/
theorem flushed_5_eq (c : Dev nD) (t : Fin cfg2.N) (h : t.val % 8 = 7) :
    (Heads.dat V c).flushed 5 t = ((cfg2.win 5).blk t).view.read (Elt Ideal) (stdOf (mm (V c main_arg0) (V c main_v3))) := by
  show (cfg2.win 5).cut (grid2.coords t) ((Heads.dat V c).after 5 t) = _
  rw [Heads.after_5, (Heads.out_last V c t h).2.2, acc_inv V c t.val t.isLt, PayAt.std, last_of (V c main_arg0) (V c main_v3) (t.val / 8) (by have := t.isLt; have : cfg2.N = 64 := N_2; omega) (t.val % 8) h, stdOf_rows 2048 (t.val / 8) (by have := t.isLt; have : cfg2.N = 64 := N_2; omega) (mm (V c main_arg0) (V c main_v3))]
  exact read_rows_5 (stdOf (mm (V c main_arg0) (V c main_v3))) t

/-- An index of the std array is in point t's block iff each coordinate is in the block's range. -/
theorem mem_blk_5 (t : Fin cfg2.N) (i : S16384x64.Idx) :
    i ∈ ((cfg2.win 5).blk t).view.set ↔ ∀ a : Fin 2, win2_5.index t a * S2048x64.size a ≤ (i a).val ∧ (i a).val < win2_5.index t a * S2048x64.size a + S2048x64.size a := by
  show i ∈ ((View.whole main_v4_2).slice (win2_5.rect t)).set ↔ _
  rw [View.set_slice_whole, Rect.mem_set_unit]
  exact Iff.rfl

/-- Every index is in the block of the last point of the sweep its row falls in. -/
theorem cover_5 (i : S16384x64.Idx) : ∃ t : Fin cfg2.N, (cfg2.win 5).flush t = true ∧ i ∈ ((cfg2.win 5).blk t).view.set := by
  have hi0 : (i 0).val < 16384 := (i 0).isLt
  have hi1 : (i 1).val < 64 := (i 1).isLt
  have hN : cfg2.N = 64 := N_2
  refine ⟨⟨8 * ((i 0).val / 2048) + 7, by rw [hN]; omega⟩, (flush2_5 _).mpr (by show (8 * ((i 0).val / 2048) + 7) % 8 = 7; omega), ?_⟩
  rw [mem_blk_5]
  obtain ⟨e00, e01, e10, e11, e20, e21, e30, e31, e40, e41, e50, e51⟩ := idx_facts ⟨8 * ((i 0).val / 2048) + 7, by rw [hN]; omega⟩
  intro a
  match a with
  | ⟨0, _⟩ => show win2_5.index _ (0 : Fin 2) * 2048 ≤ (i 0).val ∧ (i 0).val < win2_5.index _ (0 : Fin 2) * 2048 + 2048; rw [e50]; dsimp only; omega
  | ⟨1, _⟩ => show win2_5.index _ (1 : Fin 2) * 64 ≤ (i 1).val ∧ (i 1).val < win2_5.index _ (1 : Fin 2) * 64 + 64; rw [e51]; omega

/-- The std array after the run. -/
theorem final_std (c : Dev nD) : (Heads.dat V c).arrAt 5 cfg2.N = stdOf (mm (V c main_arg0) (V c main_v3)) :=
  (Heads.dat V c).arrAt_eq_of_cover 5 _ (fun t hf => flushed_5_eq V c t ((flush2_5 t).mp hf)) cover_5

end Cert.KernelIdeal.ValHeads

end
-- ==== Proof.Bridge.lean ====
/-
  The kernel's one product against the joined head weights, read by halves, is the reference's two products.
  Column j < 64 of h · [wm | ws] is column j of h · wm, and column 64 + j is column j of h · ws — the same sums,
  term by term —, so the left half of adj · (h · [wm | ws]) is adj · (h · wm) and its right half adj · (h · ws).
-/
import proofs.«176482_j3831110828045_2_alg».proof.Proof.Spec

noncomputable section

namespace Cert.Spec

open Idealize.ShloMosaic Idealize.ShloMosaic.ValueIdx

/-! ## The joined weights, read by halves: the kernel's one product against the reference's two -/

/-- The reference's mean, standard deviation and sample, from the hidden layer and the two head weights. -/
def meanR {M K : Nat} (adj : Mat M M) (h : Mat M K) (wm : Mat K 64) : Mat M 64 := mm adj (mm h wm)
def stdR {M K : Nat} (adj : Mat M M) (h : Mat M K) (ws : Mat K 64) : Mat M 64 := fun i => max (mm adj (mm h ws) i) 0 + cst
def zR {M K : Nat} (eps : Mat M 64) (adj : Mat M M) (h : Mat M K) (wm ws : Mat K 64) : Mat M 64 :=
  fun i => eps i * stdR adj h ws i + meanR adj h wm i

section
variable {M K : Nat} (adj : Mat M M) (h : Mat M K) (wc : Mat K 128) (wm ws : Mat K 64)
  (hl : ∀ (k : Fin K) (j : Fin 64), wc (ix2 k ⟨j.val, by have := j.isLt; omega⟩) = wm (ix2 k j))
  (hr : ∀ (k : Fin K) (j : Fin 64), wc (ix2 k ⟨64 + j.val, by have := j.isLt; omega⟩) = ws (ix2 k j))

include hl in
/-- Column j < 64 of h · [wm | ws] is column j of h · wm: the same sum, term by term. -/
theorem mm_left (n : Fin M) (j : Fin 64) :
    mm h wc (ix2 n ⟨j.val, by have := j.isLt; omega⟩) = mm h wm (ix2 n j) :=
  Finset.sum_congr rfl fun k _ => congrArg (fun z => h (ix2 n k) * z) (hl k j)

include hr in
/-- Column 64 + j of h · [wm | ws] is column j of h · ws. -/
theorem mm_right (n : Fin M) (j : Fin 64) :
    mm h wc (ix2 n ⟨64 + j.val, by have := j.isLt; omega⟩) = mm h ws (ix2 n j) :=
  Finset.sum_congr rfl fun k _ => congrArg (fun z => h (ix2 n k) * z) (hr k j)

include hl in
theorem bridge_mean : meanOf (mm adj (mm h wc)) = meanR adj h wm := by
  funext i
  show ∑ n : Fin M, adj (ix2 (row i) n) * mm h wc (ix2 n ⟨(col i).val, by have := (col i).isLt; omega⟩)
      = ∑ n : Fin M, adj (ix2 (row i) n) * mm h wm (ix2 n (col i))
  exact Finset.sum_congr rfl fun n _ => congrArg (fun z => adj (ix2 (row i) n) * z) (mm_left h wc wm hl n (col i))

include hr in
theorem bridge_std : stdOf (mm adj (mm h wc)) = stdR adj h ws := by
  funext i
  have e : mm adj (mm h wc) (ix2 (row i) ⟨64 + (col i).val, by have := (col i).isLt; omega⟩) = mm adj (mm h ws) i := by
    show ∑ n : Fin M, adj (ix2 (row i) n) * mm h wc (ix2 n ⟨64 + (col i).val, by have := (col i).isLt; omega⟩)
        = ∑ n : Fin M, adj (ix2 (row i) n) * mm h ws (ix2 n (col i))
    exact Finset.sum_congr rfl fun n _ => congrArg (fun z => adj (ix2 (row i) n) * z) (mm_right h wc ws hr n (col i))
  show max (mm adj (mm h wc) (ix2 (row i) ⟨64 + (col i).val, _⟩)) 0 + cst = max (mm adj (mm h ws) i) 0 + cst
  rw [e]

include hl hr in
theorem bridge_z (eps : Mat M 64) : zOf eps (mm adj (mm h wc)) = zR eps adj h wm ws := by
  funext i
  show eps i * stdOf (mm adj (mm h wc)) i + meanOf (mm adj (mm h wc)) i = eps i * stdR adj h ws i + meanR adj h wm i
  rw [bridge_mean adj h wc wm hl, bridge_std adj h wc ws hr]
end

end Cert.Spec

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.KernelIdeal.KValue.lean ====
/-
  The idealized kernel's three results after the run, as functions of the launch memory. Boundary by boundary: the
  first pallas_call leaves v0 = x · W0; the host joins the head weights side by side and converts them (the identity
  on extended reals); the second pallas_call leaves v_cat = tanh (adj · v0) · [W_mean | W_std]; the third leaves
  eps · std + mean, mean and std read off adj · v_cat. No region and no host operation writes an argument, so each
  region finds the arguments as launched. Read by halves, the one product against the joined weights is the
  reference's two products, so the results are the reference's formulas.
-/
import proofs.«176482_j3831110828045_2_alg».proof.Proof.KernelIdeal.Whole
import proofs.«176482_j3831110828045_2_alg».proof.Proof.KernelIdeal.ValDense
import proofs.«176482_j3831110828045_2_alg».proof.Proof.KernelIdeal.ValFused
import proofs.«176482_j3831110828045_2_alg».proof.Proof.KernelIdeal.ValHeads
import proofs.«176482_j3831110828045_2_alg».proof.Proof.Bridge
import proofs.«176482_j3831110828045_2_alg».proof.Proof.LibConcatPair
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx Cert.KernelIdeal.Whole Idealize.ShloMosaic.StableHlo

variable (m : (ℓ : Loc nD τ sig) → Buf (Elt Ideal) ℓ) (ρ : Dev nD → PrngReg)

/-- The joined and converted head weights, from the two arguments. -/
def wcat (wm ws : FVec Ideal S256x64 .f32) : FVec Ideal S256x128 .bf16 :=
  truncf (F := Ideal) .bf16 (concatenate S256x128 1 [⟨S256x64, wm⟩, ⟨S256x64, ws⟩] concatenates_S256x64_S256x64_S256x128_d1) bitsLt_bf16_f32

/-- Its left half is W_mean, -/
theorem wcat_left (wm ws : FVec Ideal S256x64 .f32) (k : Fin 256) (j : Fin 64) :
    wcat wm ws (ix2 k ⟨j.val, by have := j.isLt; omega⟩) = wm (ix2 k j) :=
  Cert.Lib.ConcatPair.cols_left wm ws concatenates_S256x64_S256x64_S256x128_d1 k ⟨j.val, by have := j.isLt; omega⟩ j rfl

/-- its right half W_std. -/
theorem wcat_right (wm ws : FVec Ideal S256x64 .f32) (k : Fin 256) (j : Fin 64) :
    wcat wm ws (ix2 k ⟨64 + j.val, by have := j.isLt; omega⟩) = ws (ix2 k j) :=
  Cert.Lib.ConcatPair.cols_right wm ws concatenates_S256x64_S256x64_S256x128_d1 k ⟨64 + j.val, by have := j.isLt; omega⟩ j (Nat.add_comm _ _)

/-! ## Each region finds the arguments as launched -/

theorem V2_arg0 (c : Dev nD) : V2 m ρ c main_arg0 = m ((c : Thread nD τ).loc main_arg0) :=
  (W2_keep m ρ c main_arg0 (by decide) (by decide)).trans (W1_of_ne m ρ c main_arg0 (by decide))
theorem V3_arg0 (c : Dev nD) : V3 m ρ c main_arg0 = m ((c : Thread nD τ).loc main_arg0) :=
  ((W3_arr m ρ c 0).trans (((Fused.dat (V2 m ρ) c).arrAt_in 0 rfl _).trans (Fused.A_eq (V2 m ρ) c 0))).trans (V2_arg0 m ρ c)
theorem V3_arg5 (c : Dev nD) : V3 m ρ c main_arg5 = m ((c : Thread nD τ).loc main_arg5) :=
  (W3_of_ne m ρ c main_arg5 (by decide)).trans ((W2_keep m ρ c main_arg5 (by decide) (by decide)).trans (W1_of_ne m ρ c main_arg5 (by decide)))

/-! ## What each region is handed of the earlier regions' results -/

/-- After the first pallas_call: v0 = x · W0. -/
theorem V1_v0 (c : Dev nD) : V1 m ρ c main_v0 = mm (m ((c : Thread nD τ).loc main_arg1)) (m ((c : Thread nD τ).loc main_arg2)) :=
  (W1_arr m ρ c 2).trans (ValDense.final (V0 m ρ) c)
theorem V2_v0 (c : Dev nD) : V2 m ρ c main_v0 = mm (m ((c : Thread nD τ).loc main_arg1)) (m ((c : Thread nD τ).loc main_arg2)) :=
  (W2_keep m ρ c main_v0 (by decide) (by decide)).trans (V1_v0 m ρ c)

/-- After the host operations: the joined, converted head weights. -/
theorem V2_v2 (c : Dev nD) : V2 m ρ c main_v2 = wcat (m ((c : Thread nD τ).loc main_arg3)) (m ((c : Thread nD τ).loc main_arg4)) := by
  have e : W2 m ρ c (Proc.devRef .tc main_v2)
      = (truncf (F := Ideal) .bf16 (concatenate S256x128 1 [⟨S256x64, (W1 m ρ c (Proc.devRef .tc main_arg3) : FVec Ideal S256x64 .f32)⟩, ⟨S256x64, (W1 m ρ c (Proc.devRef .tc main_arg4) : FVec Ideal S256x64 .f32)⟩] concatenates_S256x64_S256x64_S256x128_d1) bitsLt_bf16_f32 : FVec Ideal S256x128 .bf16) := by
    show StableHlo.after hostOps1 (W1 m ρ c) (Proc.devRef .tc main_v2) = _
    after_results
  refine e.trans ?_
  rw [W1_of_ne m ρ c main_arg3 (by decide), W1_of_ne m ρ c main_arg4 (by decide)]
  rfl

/-- After the second pallas_call: v_cat = tanh (adj · v0) · [W_mean | W_std]. -/
theorem V3_v3 (c : Dev nD) : V3 m ρ c main_v3
    = mm (hid (m ((c : Thread nD τ).loc main_arg0)) (mm (m ((c : Thread nD τ).loc main_arg1)) (m ((c : Thread nD τ).loc main_arg2))))
        (wcat (m ((c : Thread nD τ).loc main_arg3)) (m ((c : Thread nD τ).loc main_arg4))) := by
  refine ((W3_arr m ρ c 3).trans (ValFused.final (V2 m ρ) c)).trans ?_
  rw [V2_arg0, V2_v0, V2_v2]

/-! ## The three results -/

/-- adj · v_cat, the accumulated product the heads are read off. -/
theorem S_eq (c : Dev nD) : mm (V3 m ρ c main_arg0) (V3 m ρ c main_v3)
    = mm (m ((c : Thread nD τ).loc main_arg0)) (mm (hid (m ((c : Thread nD τ).loc main_arg0)) (mm (m ((c : Thread nD τ).loc main_arg1)) (m ((c : Thread nD τ).loc main_arg2))))
        (wcat (m ((c : Thread nD τ).loc main_arg3)) (m ((c : Thread nD τ).loc main_arg4)))) := by
  rw [V3_arg0, V3_v3]

theorem out_z (c : Dev nD) : W4 m ρ c (Proc.devRef .tc main_v4_0)
    = zR (m ((c : Thread nD τ).loc main_arg5)) (m ((c : Thread nD τ).loc main_arg0))
        (hid (m ((c : Thread nD τ).loc main_arg0)) (mm (m ((c : Thread nD τ).loc main_arg1)) (m ((c : Thread nD τ).loc main_arg2))))
        (m ((c : Thread nD τ).loc main_arg3)) (m ((c : Thread nD τ).loc main_arg4)) := by
  refine ((W4_arr m ρ c 3).trans (ValHeads.final_z (V3 m ρ) c)).trans ?_
  rw [S_eq, V3_arg5]
  exact bridge_z _ _ _ _ _ (wcat_left _ _) (wcat_right _ _) _

theorem out_mean (c : Dev nD) : W4 m ρ c (Proc.devRef .tc main_v4_1)
    = meanR (m ((c : Thread nD τ).loc main_arg0))
        (hid (m ((c : Thread nD τ).loc main_arg0)) (mm (m ((c : Thread nD τ).loc main_arg1)) (m ((c : Thread nD τ).loc main_arg2))))
        (m ((c : Thread nD τ).loc main_arg3)) := by
  refine ((W4_arr m ρ c 4).trans (ValHeads.final_mean (V3 m ρ) c)).trans ?_
  rw [S_eq]
  exact bridge_mean _ _ _ _ (wcat_left _ (m ((c : Thread nD τ).loc main_arg4)))

theorem out_std (c : Dev nD) : W4 m ρ c (Proc.devRef .tc main_v4_2)
    = stdR (m ((c : Thread nD τ).loc main_arg0))
        (hid (m ((c : Thread nD τ).loc main_arg0)) (mm (m ((c : Thread nD τ).loc main_arg1)) (m ((c : Thread nD τ).loc main_arg2))))
        (m ((c : Thread nD τ).loc main_arg4)) := by
  refine ((W4_arr m ρ c 5).trans (ValHeads.final_std (V3 m ρ) c)).trans ?_
  rw [S_eq]
  exact bridge_std _ _ _ _ (wcat_right (m ((c : Thread nD τ).loc main_arg3)) _)

/-- The run, read: the three results at the reference's formulas of the launch contents, the arguments unchanged. -/
theorem run_values : θ_run defs (onTc (τ := τ) (main (F := Ideal))) ⟨m, fun _ => 0, ρ⟩ (fun r => ∀ c : Dev nD,
      r.2.mem ((c.tc : Thread nD τ).loc main_v4_0)
        = zR (m ((c : Thread nD τ).loc main_arg5)) (m ((c : Thread nD τ).loc main_arg0))
            (hid (m ((c : Thread nD τ).loc main_arg0)) (mm (m ((c : Thread nD τ).loc main_arg1)) (m ((c : Thread nD τ).loc main_arg2))))
            (m ((c : Thread nD τ).loc main_arg3)) (m ((c : Thread nD τ).loc main_arg4))
      ∧ r.2.mem ((c.tc : Thread nD τ).loc main_v4_1)
        = meanR (m ((c : Thread nD τ).loc main_arg0))
            (hid (m ((c : Thread nD τ).loc main_arg0)) (mm (m ((c : Thread nD τ).loc main_arg1)) (m ((c : Thread nD τ).loc main_arg2))))
            (m ((c : Thread nD τ).loc main_arg3))
      ∧ r.2.mem ((c.tc : Thread nD τ).loc main_v4_2)
        = stdR (m ((c : Thread nD τ).loc main_arg0))
            (hid (m ((c : Thread nD τ).loc main_arg0)) (mm (m ((c : Thread nD τ).loc main_arg1)) (m ((c : Thread nD τ).loc main_arg2))))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4_0 (by decide))).trans (out_z m ρ c),
     (h c _ (mem_uc main_v4_1 (by decide))).trans (out_mean m ρ c),
     (h c _ (mem_uc main_v4_2 (by decide))).trans (out_std m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run m ρ)

end Cert.KernelIdeal.KValue

end
-- ==== Proof.RefValue.lean ====
/-
  The reference's three results, at the ideal instance, as matrix products: its host dot_generals are plain matrix
  products, its tanh is tanh entry by entry, its relu is max (·, 0) against a splat of the zero word, and the constant
  it adds is the splat of one word.
-/
import proofs.«176482_j3831110828045_2_alg».proof.Proof.Gen.ReferenceIdeal.Run
import proofs.«176482_j3831110828045_2_alg».proof.Proof.LibPlainDot
import proofs.«176482_j3831110828045_2_alg».proof.Proof.Bridge
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.Spec Idealize.ShloMosaic Idealize.ShloMosaic.ValueIdx

theorem dot_x_w0 (l : FVec Ideal S16384x512 .f32) (r : FVec Ideal S512x256 .f32) :
    Host.dotGeneral (F := Ideal) dot_S16384x512_S512x256_S16384x256_1_0_0_1_n_n none l r = mm l r := by
  funext i
  obtain ⟨p, q, rfl⟩ : ∃ (p : Fin 16384) (q : Fin 256), i = ix2 p q := ⟨row i, col i, eq_ix2_row_col i⟩
  simp only [Host.dotGeneral]
  exact Cert.Lib.dotGeneral_plain_apply (φ₁ := .f32) (φ₂ := .f32) dot_S16384x512_S512x256_S16384x256_1_0_0_1_n_n_wf none _ l r p q

theorem dot_adj_v0 (l : FVec Ideal S16384x16384 .f32) (r : FVec Ideal S16384x256 .f32) :
    Host.dotGeneral (F := Ideal) dot_S16384x16384_S16384x256_S16384x256_1_0_0_1_n_n none l r = mm l r := by
  funext i
  obtain ⟨p, q, rfl⟩ : ∃ (p : Fin 16384) (q : Fin 256), i = ix2 p q := ⟨row i, col i, eq_ix2_row_col i⟩
  simp only [Host.dotGeneral]
  exact Cert.Lib.dotGeneral_plain_apply (φ₁ := .f32) (φ₂ := .f32) dot_S16384x16384_S16384x256_S16384x256_1_0_0_1_n_n_wf none _ l r p q

theorem dot_h_w (l : FVec Ideal S16384x256 .f32) (r : FVec Ideal S256x64 .f32) :
    Host.dotGeneral (F := Ideal) dot_S16384x256_S256x64_S16384x64_1_0_0_1_n_n none l r = mm l r := by
  funext i
  obtain ⟨p, q, rfl⟩ : ∃ (p : Fin 16384) (q : Fin 64), i = ix2 p q := ⟨row i, col i, eq_ix2_row_col i⟩
  simp only [Host.dotGeneral]
  exact Cert.Lib.dotGeneral_plain_apply (φ₁ := .f32) (φ₂ := .f32) dot_S16384x256_S256x64_S16384x64_1_0_0_1_n_n_wf none _ l r p q

theorem dot_adj_u (l : FVec Ideal S16384x16384 .f32) (r : FVec Ideal S16384x64 .f32) :
    Host.dotGeneral (F := Ideal) dot_S16384x16384_S16384x64_S16384x64_1_0_0_1_n_n none l r = mm l r := by
  funext i
  obtain ⟨p, q, rfl⟩ : ∃ (p : Fin 16384) (q : Fin 64), i = ix2 p q := ⟨row i, col i, eq_ix2_row_col i⟩
  simp only [Host.dotGeneral]
  exact Cert.Lib.dotGeneral_plain_apply (φ₁ := .f32) (φ₂ := .f32) dot_S16384x16384_S16384x64_S16384x64_1_0_0_1_n_n_wf none _ l r p q

/-- tanh of a product, entry by entry, is the hidden layer. -/
theorem tanh_eq (v : FVec Ideal S16384x256 .f32) : Host.tanh v = fun i => Ideal.tanh (v i) := rfl

/-- A splat of one word over the result's shape, at an entry. -/
theorem splat (b : BitVec 32) (i : S16384x64.Idx) :
    broadcastInDim S16384x64 ![] bcast_S_S16384x64 (constant (F := Ideal) S_ .f32 b) i = Ideal.ofBits .f32 b :=
  broadcastInDim_apply _ bcast_S_S16384x64 (constant (F := Ideal) S_ .f32 b) i (fun a => a.elim0) (fun a => a.elim0)

/-- The reference's mean. -/
theorem mean_eq (x0 : FVec Ideal S16384x16384 .f32) (x1 : FVec Ideal S16384x512 .f32) (x2 : FVec Ideal S512x256 .f32) (x3 : FVec Ideal S256x64 .f32) :
    Host.dotGeneral (F := Ideal) dot_S16384x16384_S16384x64_S16384x64_1_0_0_1_n_n none x0 (Host.dotGeneral dot_S16384x256_S256x64_S16384x64_1_0_0_1_n_n none (Host.tanh (Host.dotGeneral dot_S16384x16384_S16384x256_S16384x256_1_0_0_1_n_n none x0 (Host.dotGeneral dot_S16384x512_S512x256_S16384x256_1_0_0_1_n_n none x1 x2))) x3)
      = meanR x0 (hid x0 (mm x1 x2)) x3 := by
  rw [dot_x_w0, dot_adj_v0, tanh_eq, dot_h_w, dot_adj_u]
  rfl

/-- The reference's standard deviation. -/
theorem std_eq (x0 : FVec Ideal S16384x16384 .f32) (x1 : FVec Ideal S16384x512 .f32) (x2 : FVec Ideal S512x256 .f32) (x4 : FVec Ideal S256x64 .f32) :
    addf (F := Ideal) (maximumf (Host.dotGeneral dot_S16384x16384_S16384x64_S16384x64_1_0_0_1_n_n none x0 (Host.dotGeneral dot_S16384x256_S256x64_S16384x64_1_0_0_1_n_n none (Host.tanh (Host.dotGeneral dot_S16384x16384_S16384x256_S16384x256_1_0_0_1_n_n none x0 (Host.dotGeneral dot_S16384x512_S512x256_S16384x256_1_0_0_1_n_n none x1 x2))) x4)) (broadcastInDim S16384x64 ![] bcast_S_S16384x64 (constant S_ .f32 0x00000000#32))) (broadcastInDim S16384x64 ![] bcast_S_S16384x64 (constant S_ .f32 0x38D1B717#32))
      = stdR x0 (hid x0 (mm x1 x2)) x4 := by
  rw [dot_x_w0, dot_adj_v0, tanh_eq, dot_h_w, dot_adj_u]
  funext i
  show max (mm x0 (mm (fun i => Ideal.tanh (mm x0 (mm x1 x2) i)) x4) i) (broadcastInDim S16384x64 ![] bcast_S_S16384x64 (constant (F := Ideal) S_ .f32 0x00000000#32) i)
      + broadcastInDim S16384x64 ![] bcast_S_S16384x64 (constant (F := Ideal) S_ .f32 0x38D1B717#32) i = _
  rw [splat, splat, Ideal.ofBits_zero_f32]
  rfl

/-- The reference's sample. -/
theorem z_eq (x0 : FVec Ideal S16384x16384 .f32) (x1 : FVec Ideal S16384x512 .f32) (x2 : FVec Ideal S512x256 .f32) (x3 x4 : FVec Ideal S256x64 .f32) (x5 : FVec Ideal S16384x64 .f32) :
    addf (F := Ideal) (mulf x5 (addf (maximumf (Host.dotGeneral dot_S16384x16384_S16384x64_S16384x64_1_0_0_1_n_n none x0 (Host.dotGeneral dot_S16384x256_S256x64_S16384x64_1_0_0_1_n_n none (Host.tanh (Host.dotGeneral dot_S16384x16384_S16384x256_S16384x256_1_0_0_1_n_n none x0 (Host.dotGeneral dot_S16384x512_S512x256_S16384x256_1_0_0_1_n_n none x1 x2))) x4)) (broadcastInDim S16384x64 ![] bcast_S_S16384x64 (constant S_ .f32 0x00000000#32))) (broadcastInDim S16384x64 ![] bcast_S_S16384x64 (constant S_ .f32 0x38D1B717#32)))) (Host.dotGeneral dot_S16384x16384_S16384x64_S16384x64_1_0_0_1_n_n none x0 (Host.dotGeneral dot_S16384x256_S256x64_S16384x64_1_0_0_1_n_n none (Host.tanh (Host.dotGeneral dot_S16384x16384_S16384x256_S16384x256_1_0_0_1_n_n none x0 (Host.dotGeneral dot_S16384x512_S512x256_S16384x256_1_0_0_1_n_n none x1 x2))) x3))
      = zR x5 x0 (hid x0 (mm x1 x2)) x3 x4 := by
  rw [std_eq, mean_eq]
  rfl

end Cert.ReferenceIdeal.RefValue

end
-- ==== Proof.lean ====
/-
  The certificate of a two-layer graph-convolution head: h = tanh (adj · (x · W0)), mean = adj · (h · W_mean),
  std = max (adj · (h · W_std), 0) + c, z = eps · std + mean, over f32 arrays with N = 16384 nodes.

  The kernel computes it in three pallas_calls: v0 = x · W0 by blocks of 2048 rows; v_cat = h · [W_mean | W_std], where
  each block of 2048 rows of adj · v0 is accumulated in a scratch buffer over eight tiles of 2048 columns of adj before
  tanh and the product with the joined weights; and adj · v_cat, accumulated the same way, whose left half is the mean
  and whose right half gives the standard deviation. Read over the extended reals — rounding to bf16 the identity, a sum
  taken in eight pieces the whole sum, the joined weights read by halves — this is the reference's formula entry by
  entry; no precondition on the inputs is used.

  The three frames: each kernel program's run through its three regions (the modules under Kernel/ and KernelIdeal/, one
  text at any float instance), the reference's run of its host operations. The idealization rewrote nothing, so what it
  preserves is trivially so.
-/
import proofs.«176482_j3831110828045_2_alg».proof.Defs
import proofs.«176482_j3831110828045_2_alg».proof.Proof.Gen.Kernel
import proofs.«176482_j3831110828045_2_alg».proof.Proof.Gen.KernelIdeal
import proofs.«176482_j3831110828045_2_alg».proof.Proof.Gen.ReferenceIdeal
import proofs.«176482_j3831110828045_2_alg».proof.Proof.Gen.ReferenceIdeal.Run
import proofs.«176482_j3831110828045_2_alg».proof.Proof.Gen.Pre_finite_inputs
import proofs.«176482_j3831110828045_2_alg».proof.Proof.Kernel.Whole
import proofs.«176482_j3831110828045_2_alg».proof.Proof.KernelIdeal.KValue
import proofs.«176482_j3831110828045_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Whole.frame m ρ

/-- So does the idealized kernel. -/
theorem frame_ki : Cert.frame_KernelIdeal := fun m ρ _ => Cert.KernelIdeal.Whole.frame m ρ

/-- The reference: its run of host operations, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten. -/
theorem preserves : Cert.preserves_Kernel_KernelIdeal := trivial

/-- Both programs end with eps · std + mean, mean and std of the same hidden layer: the kernel's results read off the
    product against the joined weights, the reference's off its two products. -/
theorem algebraic : Cert.algebraic_KernelIdeal_ReferenceIdeal := by
  intro m ρ m' ρ' _ hagree
  refine ⟨_, _, _, Cert.KernelIdeal.KValue.run_values m ρ, ?_⟩
  refine (θ_run Cert.ReferenceIdeal.defs _ _).mono (fun _ h c => ?_) (Cert.ReferenceIdeal.Value.run (F := Ideal) m' ρ')
  obtain ⟨h11, h4, h9, ha0, ha1, ha2, ha3, ha4, ha5⟩ := h c
  obtain ⟨e0, e1, e2, e3, e4, e5⟩ := hagree c
  refine ⟨h11.trans ?_, h4.trans ?_, h9.trans ?_, ha0, ha1, ha2, ha3, ha4, ha5⟩
  · rw [Cert.ReferenceIdeal.RefValue.z_eq, e0, e1, e2, e3, e4, e5]
  · rw [Cert.ReferenceIdeal.RefValue.mean_eq, e0, e1, e2, e3]
  · rw [Cert.ReferenceIdeal.RefValue.std_eq, e0, e1, e2, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
